-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S512x256 : Shape := ⟨2, ![512, 256]⟩
abbrev S1x512 : Shape := ⟨2, ![1, 512]⟩
abbrev S512x512 : Shape := ⟨2, ![512, 512]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S8192x256 .f32) (main_arg1 : IVec S2x262144 32) (main_arg2 : FVec F S512x256 .f32) (main_arg3 : FVec F S1x512 .f32) (main_arg4 : FVec F S512x512 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S8192x256 : Shape := ⟨2, ![8192, 256]⟩
abbrev S2x262144 : Shape := ⟨2, ![2, 262144]⟩
abbrev S512x256 : Shape := ⟨2, ![512, 256]⟩
abbrev S1x512 : Shape := ⟨2, ![1, 512]⟩
abbrev S512x512 : Shape := ⟨2, ![512, 512]⟩
abbrev S256x512 : Shape := ⟨2, ![256, 512]⟩
abbrev S8192x512 : Shape := ⟨2, ![8192, 512]⟩
abbrev S8192x1 : Shape := ⟨2, ![8192, 1]⟩
abbrev S1024x256 : Shape := ⟨2, ![1024, 256]⟩
abbrev S1024x512 : Shape := ⟨2, ![1024, 512]⟩
abbrev S1024x1 : Shape := ⟨2, ![1024, 1]⟩
abbrev S1024 : Shape := ⟨1, ![1024]⟩
abbrev S8192 : Shape := ⟨1, ![8192]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩

abbrev nBuf : Space → Nat
  | .hbm => 45
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S512x256, .f32⟩
  | .hbm, ⟨3, _⟩ => ⟨S1x512, .f32⟩
  | .hbm, ⟨4, _⟩ => ⟨S512x512, .f32⟩
  | .hbm, ⟨5, _⟩ => ⟨S256x512, .f32⟩
  | .hbm, ⟨6, _⟩ => ⟨S8192x512, .bf16⟩
  | .hbm, ⟨7, _⟩ => ⟨S8192x1, .f32⟩
  | .hbm, ⟨8, _⟩ => ⟨S8192, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S_, .f32⟩
  | .hbm, ⟨14, _⟩ => ⟨S8192x8192, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144, .f32⟩
  | .hbm, ⟨24, _⟩ => ⟨S_, .i32⟩
  | .hbm, ⟨25, _⟩ => ⟨S262144, .i32⟩
  | .hbm, ⟨26, _⟩ => ⟨S262144, .i1⟩
  | .hbm, ⟨27, _⟩ => ⟨S_, .i32⟩
  | .hbm, ⟨28, _⟩ => ⟨S262144, .i32⟩
  | .hbm, ⟨29, _⟩ => ⟨S262144, .i32⟩
  | .hbm, ⟨30, _⟩ => ⟨S262144, .i32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x1, .i32⟩
  | .hbm, ⟨40, _⟩ => ⟨S262144x2, .i32⟩
  | .hbm, ⟨41, _⟩ => ⟨S8192x8192, .f32⟩
  | .hbm, ⟨42, _⟩ => ⟨S512x512, .f32⟩
  | .hbm, ⟨43, _⟩ => ⟨S512x512, .bf16⟩
  | .hbm, ⟨44, _⟩ => ⟨S8192x512, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x1, .f32⟩
  | .local _ .vmem, ⟨7, _⟩ => ⟨S1024x1, .f32⟩
  | .local _ .vmem, ⟨8, _⟩ => ⟨S1024x512, .f32⟩
  | .local _ .vmem, ⟨9, _⟩ => ⟨S1024x512, .f32⟩
  | .local _ .vmem, ⟨10, _⟩ => ⟨S8192x512, .bf16⟩
  | .local _ .vmem, ⟨11, _⟩ => ⟨S512x512, .bf16⟩
  | .local _ .vmem, ⟨12, _⟩ => ⟨S1024x512, .f32⟩
  | .local _ .vmem, ⟨13, _⟩ => ⟨S1024x512, .f32⟩
  | .local _ .vmem, ⟨14, _⟩ => ⟨S1024x1, .f32⟩
  | .local _ .vmem, ⟨15, _⟩ => ⟨S1024x1, .f32⟩
  | .local _ .vmem, ⟨16, _⟩ => ⟨S1024x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c512_i32 : BitVec 32 := 512#32
  let v23 : BitVec 32 := Scalar.muli arg1 c512_i32
  v23
def k1_off1 (i : grid1.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v25 : Index := Scalar.indexCast v24
  let c0_11 : Index := 0#32
  ![v25.toNat, 0]
def k1_cond2 (i : grid1.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_19 : BitVec 32 := 0#32
  let v42 : BitVec 1 := Scalar.cmpi .ne v41 c0_i32_19
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S512x256_S256x512_1_0 : S512x256.Transposes [1, 0] S256x512
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  reduces_S1024x512_S1024 : S1024x512.Reduces [1] S1024
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  transposes_S512x512_S512x512_1_0 : S512x512.Transposes [1, 0] S512x512
  shapeCasts_S1024x1_S1024x1 : S1024x1.ShapeCasts S1024x1
  shapeCasts_S1024x512_S1024x512 : S1024x512.ShapeCasts S1024x512
  broadcasts_S1024x1_S1024x512 : S1024x1.Broadcasts S1024x512
  h_S512x512 : 0 < S512x512.numel
  shapeCasts_S512x512_S512x512 : S512x512.ShapeCasts S512x512
  inb_S512x512_S512x512_0_0 : ∀ a, (![0, 0] : Fin 2 → Nat) a + S512x512.size a ≤ S512x512.size a
  dot_S1024x256_S256x512_S1024x512_1_0_0_1_n_n_wf : DotDims.WF S1024x256 S256x512 S1024x512 [1] [0] [0] [1] [] []
  gather_S8192_S262144x1_S262144_n_0_n_n_0_1_1_wf : GatherDims.WF S8192 S262144x1 S262144 [] [0] [] [0] [] 1 ![1]
  scatter_S8192x8192_S262144x2_S262144_n_01_01_1_wf : ScatterDims.WF S8192x8192 S262144x2 S262144 [] [0, 1] [0, 1] 1
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .f32 = 32 ∨ (Rect.block (s := S8192x8192) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v28) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S2x262144 : Shape := ⟨2, ![2, 262144]⟩
abbrev S512x256 : Shape := ⟨2, ![512, 256]⟩
abbrev S1x512 : Shape := ⟨2, ![1, 512]⟩
abbrev S512x512 : Shape := ⟨2, ![512, 512]⟩
abbrev S256x512 : Shape := ⟨2, ![256, 512]⟩
abbrev S8192x512 : Shape := ⟨2, ![8192, 512]⟩
abbrev S512x1 : Shape := ⟨2, ![512, 1]⟩
abbrev S8192x1 : Shape := ⟨2, ![8192, 1]⟩
abbrev S_ : Shape := ⟨0, ![]⟩
abbrev S8192 : Shape := ⟨1, ![8192]⟩
abbrev S1x262144 : Shape := ⟨2, ![1, 262144]⟩
abbrev S262144 : Shape := ⟨1, ![262144]⟩
abbrev S8192x8192 : Shape := ⟨2, ![8192, 8192]⟩
abbrev S262144x1 : Shape := ⟨2, ![262144, 1]⟩
abbrev S262144x2 : Shape := ⟨2, ![262144, 2]⟩

abbrev nBuf : Space → Nat
  | .hbm => 86
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S512x256, .f32⟩
  | .hbm, ⟨3, _⟩ => ⟨S1x512, .f32⟩
  | .hbm, ⟨4, _⟩ => ⟨S512x512, .f32⟩
  | .hbm, ⟨5, _⟩ => ⟨S256x512, .f32⟩
  | .hbm, ⟨6, _⟩ => ⟨S8192x512, .f32⟩
  | .hbm, ⟨7, _⟩ => ⟨S512x1, .f32⟩
  | .hbm, ⟨8, _⟩ => ⟨S8192x1, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S8192, .f32⟩
  | .hbm, ⟨16, _⟩ => ⟨S8192, .i1⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S1x262144, .i32⟩
  | .hbm, ⟨22, _⟩ => ⟨S262144, .i32⟩
  | .hbm, ⟨23, _⟩ => ⟨S1x262144, .i32⟩
  | .hbm, ⟨24, _⟩ => ⟨S262144, .i32⟩
  | .hbm, ⟨25, _⟩ => ⟨S_, .f32⟩
  | .hbm, ⟨26, _⟩ => ⟨S8192x8192, .f32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .f32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S_, .i32⟩
  | .hbm, ⟨44, _⟩ => ⟨S262144, .i32⟩
  | .hbm, ⟨45, _⟩ => ⟨S262144, .i1⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S262144x1, .i32⟩
  | .hbm, ⟨51, _⟩ => ⟨S262144x1, .i32⟩
  | .hbm, ⟨52, _⟩ => ⟨S262144x2, .i32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x8192, .f32⟩
  | .hbm, ⟨67, _⟩ => ⟨S8192x8192, .f32⟩
  | .hbm, ⟨68, _⟩ => ⟨S8192x512, .f32⟩
  | .hbm, ⟨69, _⟩ => ⟨S512x512, .f32⟩
  | .hbm, ⟨70, _⟩ => ⟨S8192x512, .f32⟩
  | .hbm, ⟨71, _⟩ => ⟨S_, .f32⟩
  | .hbm, ⟨72, _⟩ => ⟨S8192x512, .f32⟩
  | .hbm, ⟨73, _⟩ => ⟨S8192x512, .i1⟩
  | .hbm, ⟨74, _⟩ => ⟨S_, .f32⟩
  | .hbm, ⟨75, _⟩ => ⟨S8192x512, .f32⟩
  | .hbm, ⟨76, _⟩ => ⟨S8192x512, .i1⟩
  | .hbm, ⟨77, _⟩ => ⟨S_, .f32⟩
  | .hbm, ⟨78, _⟩ => ⟨S_, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S8192x512, .f32⟩
  | .hbm, ⟨84, _⟩ => ⟨S8192x512, .f32⟩
  | .hbm, ⟨85, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_cst_1 : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_v4 : Ref sig .tc := ⟨.hbm, 80, rfl⟩
abbrev main_call1_v5 : Ref sig .tc := ⟨.hbm, 81, rfl⟩
abbrev main_call1_cst_2 : Ref sig .tc := ⟨.hbm, 82, rfl⟩
abbrev main_call1_v6 : Ref sig .tc := ⟨.hbm, 83, rfl⟩
abbrev main_call1_v7 : Ref sig .tc := ⟨.hbm, 84, rfl⟩
abbrev main_v48 : Ref sig .tc := ⟨.hbm, 85, rfl⟩

abbrev nD : Nat := 1
abbrev τ : Topo := Topo.v7x

variable {F : FTy → Type} [FloatOps F]

class Facts₀ : Prop where
  transposes_S512x256_S256x512_1_0 : S512x256.Transposes [1, 0] S256x512
  transposes_S1x512_S512x1_1_0 : S1x512.Transposes [1, 0] S512x1
  bcast_S8192x1_S8192x512_0_1 : S8192x1.BroadcastsInDim S8192x512 (![0, 1] : Fin 2 → Fin S8192x512.rank)
  reducesTo_S8192x512_S8192_d1 : S8192x512.ReducesTo [1] S8192
  h_S_ : 0 < S_.numel
  bcast_S_S8192 : S_.BroadcastsInDim S8192 (![] : Fin 0 → Fin S8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S512x512_S512x512_1_0 : S512x512.Transposes [1, 0] S512x512
  bcast_S_S8192x512 : S_.BroadcastsInDim S8192x512 (![] : Fin 0 → Fin S8192x512.rank)
  dot_S8192x256_S256x512_S8192x512_1_0_0_1_n_n_wf : DotDims.WF S8192x256 S256x512 S8192x512 [1] [0] [0] [1] [] []
  dot_S8192x512_S512x1_S8192x1_1_0_0_1_n_n_wf : DotDims.WF S8192x512 S512x1 S8192x1 [1] [0] [0] [1] [] []
  gather_S8192_S262144x1_S262144_n_0_n_n_0_1_1_wf : GatherDims.WF S8192 S262144x1 S262144 [] [0] [] [0] [] 1 ![1]
  scatter_S8192x8192_S262144x2_S262144_n_01_01_1_wf : ScatterDims.WF S8192x8192 S262144x2 S262144 [] [0, 1] [0, 1] 1
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.ProjBody.lean ====
/-
  The projection kernel's body, run once on whole staging buffers.

  The body reads a 1024-row block `x` of the node features, the whole transposed weight `w` and the attention row `a`,
  forms `h = x · w` (a matrix product into a zero accumulator), and stores two things, each by ONE store that covers its
  buffer: `h` itself (the first output) and the column `alpha = leaky (Σ_j h_j a_j) · (Σ_j h_j)` (the second), where
  `leaky z = z` for `z ≥ 0` and `0.2 z` otherwise.  Both output buffers are loaded before they are stored; the loaded
  values are unused.  So after the body each output buffer holds the single stored payload, whatever it held before.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole of a 1024×256 buffer, of a 256×512 one, of a 1×512 one, of a 1024×512 one and of a 1024×1 one, as rectangles. -/
abbrev rX : Rect S1024x256 := Rect.unit (s := S1024x256) ![0, 0] S1024x256.size inb_S1024x256_S1024x256_0_0
abbrev rW : Rect S256x512 := Rect.unit (s := S256x512) ![0, 0] S256x512.size inb_S256x512_S256x512_0_0
abbrev rA : Rect S1x512 := Rect.unit (s := S1x512) ![0, 0] S1x512.size inb_S1x512_S1x512_0_0
abbrev rH : Rect S1024x512 := Rect.unit (s := S1024x512) ![0, 0] S1024x512.size inb_S1024x512_S1024x512_0_0
abbrev rC : Rect S1024x1 := Rect.unit (s := S1024x1) ![0, 0] S1024x1.size inb_S1024x1_S1024x1_0_0

/-- The first output's buffer after the body: the product block, stored whole. -/
def hOut (x : Vec F S1024x256 .f32) (w : Vec F S256x512 .f32) : Vec F S1024x512 .bf16 :=
  View.canon [⟨rH, k0_pay3 (View.ld x rX) (View.ld w rW)⟩]

/-- The second output's buffer after the body: the logit column, stored whole. -/
def aOut (x : Vec F S1024x256 .f32) (w : Vec F S256x512 .f32) (a : Vec F S1x512 .f32) : Vec F S1024x1 .f32 :=
  View.canon [⟨rC, k0_pay2 (View.ld x rX) (View.ld w rW) (View.ld a rA)⟩]

/-- One whole-buffer store covers the buffer. -/
theorem hCover (p : Vec F S1024x512 .bf16) (y : S1024x512.Idx) :
    ∃ pc ∈ ([⟨rH, p⟩] : List (View.Piece (Elt F) S1024x512 .bf16)), y ∈ pc.1.set :=
  View.cover_of_tiled [⟨rH, p⟩] S1024x512.size (by rfl) y

theorem aCover (p : Vec F S1024x1 .f32) (y : S1024x1.Idx) :
    ∃ pc ∈ ([⟨rC, p⟩] : List (View.Piece (Elt F) S1024x1 .f32)), y ∈ pc.1.set :=
  View.cover_of_tiled [⟨rC, p⟩] S1024x1.size (by rfl) y

set_option maxHeartbeats 4000000 in
/-- The body's triple: from the three inputs' buffers at `x`, `w`, `a` and the two outputs' at anything, it runs to the
    continuation with the inputs unchanged and the outputs at `hOut` and `aOut`. -/
theorem body (c : Dev nD) (E : Set ℕ) (i : grid0.Coords)
    (arg1 : Memref sig .tc .vmem S1024x256 .f32) (harg1 : arg1.IsWhole) (arg2 : Memref sig .tc .vmem S256x512 .f32) (harg2 : arg2.IsWhole)
    (arg3 : Memref sig .tc .vmem S1x512 .f32) (harg3 : arg3.IsWhole) (arg4 : Memref sig .tc .vmem S1024x512 .bf16) (harg4 : arg4.IsWhole)
    (arg5 : Memref sig .tc .vmem S1024x1 .f32) (harg5 : arg5.IsWhole)
    (x : Vec F S1024x256 .f32) (w : Vec F S256x512 .f32) (a : Vec F S1x512 .f32) (K : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (hOut x w) ∗ owns (c : Thread nD τ) arg5 fullShare (aOut x w a)) -∗ K ⟨⟩))
      ⊢ wp frame (wpE (defs₀ (F := F)) Variants.none c none) E (cc0__h_kernel i arg1 harg1 arg2 harg2 arg3 harg3 arg4 harg4 arg5 harg5) K := by
  simp only [cc0__h_kernel_eq_skeleton]; unfold cc0__h_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (hCover _)
  iexists _; isplitr
  swap; · iexact H5
  ipureintro
  exact View.read_writes_eq_canon _ _ _ (aCover _)

end Cert.KernelIdeal.Proj

end
-- ==== Proof.ProjData.lean ====
/-
  The projection kernel over its grid of eight row tiles: the proof data of its pipeline and the body obligation.

  At tile `t` the pipeline hands the body rows `1024 t … 1024 t + 1023` of the node features, the whole transposed weight
  and the whole attention row (these two are fetched once, at the first tile, and their block never moves), and takes back
  the product block and the logit column for the same rows.  Everything is stated at a parameter `V`: what the
  TensorCore's buffers hold when the region is entered.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.ProjBody
set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pipeline's proof data: the arrays as found; after the body the three inputs' buffers at their blocks, the outputs'
    at the product block and the logit column of those blocks; the scoped rest and the generator register untouched. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => hOut (blk V c 0 t) (blk V c 1 t)
    | ⟨4, _⟩ => aOut (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = hOut (blk V c 0 t) (blk V c 1 t) := by dsimp only [dat]
theorem after_4 (c : Dev nD) (t : Fin cfg0.N) : (dat V c).after 4 t = aOut (blk V c 0 t) (blk V c 1 t) (blk V c 2 t) := by
  dsimp only [dat]

/-- An input's current buffer holds its block at every tile, fetched there or not (an unfetched window's block index
    has not moved). -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-- What the body is called with at tile `t`, window by window, -/
def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any tile: the inputs' buffers hold their blocks, so the body's triple applies; the invariant and the
    core's dues pass through unread. -/
theorem sound (c : Dev nD) (t : Fin cfg0.N) :
    pre V c t ⊢ wp frame (wpE (defs₀ (F := F)) Variants.none c none) Set.univ (bodyAt0 t) (fun _ => post V c t) := by
  unfold pre post bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body c Set.univ _ _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every tile. -/
theorem obligation (c : Dev nD) : BodyObligation (dat (F := F) V c) (defs₀ (F := F)) Variants.none () Set.univ := fun t => by
  rw [bigSep_W0, bigSep_W0]
  exact sound V c t

end Cert.KernelIdeal.Proj

end
-- ==== Proof.SmCases.lean ====
/-
  The streaming-softmax kernel: its grid, its two branches, and what its invariant holds.

  The grid is 8 row tiles by 16 column tiles, walked row tile by row tile: point `t` is row tile `t / 16`, column tile
  `t % 16`.  The body branches twice on the column tile `k`: at `k = 0` it resets its three scratch buffers (the running
  row maximum to −∞, the running denominator and the running numerator to 0) before anything else, and at `k = 15` it
  divides, multiplies by the output weight, applies the exponential-linear unit and stores the output block.  So a point
  is in one of three cases: first column (reset, no output), a middle column (neither), last column (output).  The output
  window is idle, and not written back, except at the last column.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The column tile is 0: the body's first branch, as the printed scalar chain over the grid coordinates. -/
abbrev atFirst (i : grid1.Coords) : Prop :=
  (Scalar.cmpi .ne (Scalar.extui (Scalar.cmpi .eq (BitVec.ofNat 32 (i 1).val) 0#32)) 0#32) = 1#1
theorem atFirst_iff : ∀ t : Fin cfg1.N, atFirst (grid1.coords t) ↔ t.val % 16 = 0 :=
  (by decide +kernel : ∀ t : Fin grid1.N, atFirst (grid1.coords t) ↔ t.val % 16 = 0)

/-- The column tile is 15: the body's second branch. -/
abbrev atLast (i : grid1.Coords) : Prop := k1_cond2 i = 1#1
theorem atLast_iff : ∀ t : Fin cfg1.N, atLast (grid1.coords t) ↔ t.val % 16 = 15 :=
  (by decide +kernel : ∀ t : Fin grid1.N, atLast (grid1.coords t) ↔ t.val % 16 = 15)

/-- The three input windows are never idle; the output window is idle, and not written back, off the last column. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem idle_3 : ∀ t : Fin cfg1.N, ¬atLast (grid1.coords t) → cfg1.idle 3 (grid1.coords t) = true := by decide +kernel
theorem noFlush_3 : ∀ t : Fin cfg1.N, ¬atLast (grid1.coords t) → (cfg1.win 3).flush t = false := by decide +kernel
theorem live_3 : ∀ t : Fin cfg1.N, atLast (grid1.coords t) → cfg1.idle 3 (grid1.coords t) = false := by decide +kernel

/-- Each window's current staging buffer at point `t`, spelled as the pipeline passes it to the body, and the three
    scratch buffers (whole scoped buffers of the kernel's own). -/
abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x512 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x512 .f32 := win1_3.stage (cfg1.slots t 3)
abbrev hs3 (t : Fin cfg1.N) : (ms3 t).IsWhole := hstage1_3 ((cfg1.slots t 3).cast nbuf1_3)
abbrev scMax : Memref sig .tc .vmem S1024x1 .f32 := Memref.whole cc1_scratch0
abbrev scDen : Memref sig .tc .vmem S1024x1 .f32 := Memref.whole cc1_scratch1
abbrev scNum : Memref sig .tc .vmem S1024x512 .f32 := Memref.whole cc1_scratch2
/-- One staging buffer of the output window, and the scratches as views: contents are stated through them. -/
abbrev VOut : View sig .tc .vmem S1024x512 .f32 := (Memref.whole cc1_stg3_0 : Memref sig .tc .vmem S1024x512 .f32).view
abbrev VMax : View sig .tc .vmem S1024x1 .f32 := scMax.view
abbrev VDen : View sig .tc .vmem S1024x1 .f32 := scDen.view
abbrev VNum : View sig .tc .vmem S1024x512 .f32 := scNum.view

/-- The other scoped buffers the region does not stage through (the first kernel's staging buffers), each at anything. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The scoped buffers the region does not stage through are the first kernel's staging buffers and the three scratches:
    split, -/
theorem rest_split (c : Dev nD) :
    (Pipeline.scopedRest (Ix := Unit) (Name := ℕ) (U := UR sig nD τ) (Lvl := ℕ) (Val := Elt F) spec1 c : sProp 𝕄)
      ⊢ iprop(others c ∗ (∃ d, owns (c : Thread nD τ) scMax fullShare d) ∗ (∃ d, owns (c : Thread nD τ) scDen fullShare d)
          ∗ (∃ d, owns (c : Thread nD τ) scNum fullShare d)) := by
  unfold others; rw [scopedRest1_eq]; simp only [scMax, scDen, scNum, owns_whole]
  iintro ⟨H0, H1, H2, H3, H4, H5, H6, H7, H8, H9, H10⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  iexact H10

/-- and joined back. -/
theorem rest_join (c : Dev nD) :
    iprop(others c ∗ (∃ d, owns (c : Thread nD τ) scMax fullShare d) ∗ (∃ d, owns (c : Thread nD τ) scDen fullShare d)
          ∗ (∃ d, owns (c : Thread nD τ) scNum fullShare d))
      ⊢ (Pipeline.scopedRest (Ix := Unit) (Name := ℕ) (U := UR sig nD τ) (Lvl := ℕ) (Val := Elt F) spec1 c : sProp 𝕄) := by
  unfold others; rw [scopedRest1_eq]; simp only [scMax, scDen, scNum, owns_whole]
  iintro ⟨⟨H0, H1, H2, H3, H4, H5, H6, H7⟩, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Sm

end
-- ==== Proof.SmRunFirst.lean ====
/-
  The streaming-softmax body at the FIRST column tile of a row tile (the reset branch taken, the output branch not).

  The three scratches are handed over at anything: the body overwrites each whole before it reads it.  The output
  buffer is not touched and is handed back as found.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.SmCases
set_option maxRecDepth 16384

noncomputable section

namespace Cert.KernelIdeal.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output buffer (none) and in each scratch, found by running it, with the
    triple that says so. -/
noncomputable def runFirst (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S512x512 .bf16) (harg4 : arg4.IsWhole) (arg5 : Memref sig .tc .vmem S1024x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x512 .f32) (harg8 : arg8.IsWhole) (hA : atFirst i) (hB : ¬atLast i)
    (s : Vec F S1024x512 .f32) (h : Vec F S8192x512 .bf16) (lw : Vec F S512x512 .bf16) :
    Σ' (LO : List (View.Piece (Elt F) S1024x512 .f32)) (LM : List (View.Piece (Elt F) S1024x1 .f32)) (LD : List (View.Piece (Elt F) S1024x1 .f32)),
      { LN : List (View.Piece (Elt F) S1024x512 .f32) //
        ∀ (o : Vec F S1024x512 .f32) (E : Set ℕ) (K : PUnit → sProp 𝕄),
          iprop(owns (c : Thread nD τ) arg2 fullShare s ∗ owns (c : Thread nD τ) arg3 fullShare h ∗ owns (c : Thread nD τ) arg4 fullShare lw ∗ owns (c : Thread nD τ) arg5 fullShare o
              ∗ (∃ d, owns (c : Thread nD τ) arg6 fullShare d) ∗ (∃ d, owns (c : Thread nD τ) arg7 fullShare d) ∗ (∃ d, owns (c : Thread nD τ) arg8 fullShare d)
              ∗ (iprop(owns (c : Thread nD τ) arg2 fullShare s ∗ owns (c : Thread nD τ) arg3 fullShare h ∗ owns (c : Thread nD τ) arg4 fullShare lw ∗ owns (c : Thread nD τ) arg5 fullShare o
                  ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LD) ∗ (∃ f, arg8.view.loc (c : Thread nD τ) ↦[arg8.view.set]{fullShare} arg8.view.writes (Elt F) f LN)) -∗ K ⟨⟩))
            ⊢ wp frame (wpE (defs₀ (F := F)) Variants.none c none) E (cc1__sm_kernel i arg2 harg2 arg3 harg3 arg4 harg4 arg5 harg5 arg6 harg6 arg7 harg7 arg8 harg8) K } := by
  refine ⟨[], ?_, ?_, ?_, fun o E K => ?run⟩
  case run =>
    simp only [cc1__sm_kernel_eq_skeleton]; unfold cc1__sm_kernel_skel
    simp only [k1_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf2; obtain rfl := harg3.eq_unread hf3; obtain rfl := harg4.eq_unread hf4
    obtain rfl := harg5.eq_unread hf5
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.KernelIdeal.Sm

end
-- ==== Proof.SmRunMid.lean ====
/-
  The streaming-softmax body at a MIDDLE column tile (neither branch taken).

  The three scratches hold what the column tile before left; the body reads them and overwrites each whole.  The output
  buffer is not touched and is handed back as found.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.SmCases
set_option maxRecDepth 16384

noncomputable section

namespace Cert.KernelIdeal.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in each scratch, found by running it, with the triple that says so. -/
noncomputable def runMid (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S512x512 .bf16) (harg4 : arg4.IsWhole) (arg5 : Memref sig .tc .vmem S1024x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x512 .f32) (harg8 : arg8.IsWhole) (hA : ¬atFirst i) (hB : ¬atLast i)
    (s : Vec F S1024x512 .f32) (h : Vec F S8192x512 .bf16) (lw : Vec F S512x512 .bf16)
    (mx : Vec F S1024x1 .f32) (dn : Vec F S1024x1 .f32) (nm : Vec F S1024x512 .f32) :
    Σ' (LO : List (View.Piece (Elt F) S1024x512 .f32)) (LM : List (View.Piece (Elt F) S1024x1 .f32)) (LD : List (View.Piece (Elt F) S1024x1 .f32)),
      { LN : List (View.Piece (Elt F) S1024x512 .f32) //
        ∀ (o : Vec F S1024x512 .f32) (E : Set ℕ) (K : PUnit → sProp 𝕄),
          iprop(owns (c : Thread nD τ) arg2 fullShare s ∗ owns (c : Thread nD τ) arg3 fullShare h ∗ owns (c : Thread nD τ) arg4 fullShare lw ∗ owns (c : Thread nD τ) arg5 fullShare o
              ∗ owns (c : Thread nD τ) arg6 fullShare mx ∗ owns (c : Thread nD τ) arg7 fullShare dn ∗ owns (c : Thread nD τ) arg8 fullShare nm
              ∗ (iprop(owns (c : Thread nD τ) arg2 fullShare s ∗ owns (c : Thread nD τ) arg3 fullShare h ∗ owns (c : Thread nD τ) arg4 fullShare lw ∗ owns (c : Thread nD τ) arg5 fullShare o
                  ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LD) ∗ (∃ f, arg8.view.loc (c : Thread nD τ) ↦[arg8.view.set]{fullShare} arg8.view.writes (Elt F) f LN)) -∗ K ⟨⟩))
            ⊢ wp frame (wpE (defs₀ (F := F)) Variants.none c none) E (cc1__sm_kernel i arg2 harg2 arg3 harg3 arg4 harg4 arg5 harg5 arg6 harg6 arg7 harg7 arg8 harg8) K } := by
  refine ⟨[], ?_, ?_, ?_, fun o E K => ?run⟩
  case run =>
    simp only [cc1__sm_kernel_eq_skeleton]; unfold cc1__sm_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4
    obtain rfl := harg5.eq_unread hf5
    obtain rfl := harg6.eq_unread hf6; obtain rfl := harg7.eq_unread hf7; obtain rfl := harg8.eq_unread hf8
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.KernelIdeal.Sm

end
-- ==== Proof.SmRunLast.lean ====
/-
  The streaming-softmax body at the LAST column tile of a row tile (the reset branch not taken, the output branch taken).

  The three scratches hold what the column tile before left; the body reads them, overwrites each whole, then reads the
  numerator and the denominator back and stores the output block whole.  The output buffer is handed over at anything.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.SmCases
set_option maxRecDepth 16384

noncomputable section

namespace Cert.KernelIdeal.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output buffer and in each scratch, found by running it, with the triple
    that says so. -/
noncomputable def runLast (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S512x512 .bf16) (harg4 : arg4.IsWhole) (arg5 : Memref sig .tc .vmem S1024x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x512 .f32) (harg8 : arg8.IsWhole) (hA : ¬atFirst i) (hB : atLast i)
    (s : Vec F S1024x512 .f32) (h : Vec F S8192x512 .bf16) (lw : Vec F S512x512 .bf16)
    (mx : Vec F S1024x1 .f32) (dn : Vec F S1024x1 .f32) (nm : Vec F S1024x512 .f32) :
    Σ' (LO : List (View.Piece (Elt F) S1024x512 .f32)) (LM : List (View.Piece (Elt F) S1024x1 .f32)) (LD : List (View.Piece (Elt F) S1024x1 .f32)),
      { LN : List (View.Piece (Elt F) S1024x512 .f32) //
        ∀ (E : Set ℕ) (K : PUnit → sProp 𝕄),
          iprop(owns (c : Thread nD τ) arg2 fullShare s ∗ owns (c : Thread nD τ) arg3 fullShare h ∗ owns (c : Thread nD τ) arg4 fullShare lw ∗ (∃ d, owns (c : Thread nD τ) arg5 fullShare d)
              ∗ owns (c : Thread nD τ) arg6 fullShare mx ∗ owns (c : Thread nD τ) arg7 fullShare dn ∗ owns (c : Thread nD τ) arg8 fullShare nm
              ∗ (iprop(owns (c : Thread nD τ) arg2 fullShare s ∗ owns (c : Thread nD τ) arg3 fullShare h ∗ owns (c : Thread nD τ) arg4 fullShare lw ∗ (∃ f, arg5.view.loc (c : Thread nD τ) ↦[arg5.view.set]{fullShare} arg5.view.writes (Elt F) f LO)
                  ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LD) ∗ (∃ f, arg8.view.loc (c : Thread nD τ) ↦[arg8.view.set]{fullShare} arg8.view.writes (Elt F) f LN)) -∗ K ⟨⟩))
            ⊢ wp frame (wpE (defs₀ (F := F)) Variants.none c none) E (cc1__sm_kernel i arg2 harg2 arg3 harg3 arg4 harg4 arg5 harg5 arg6 harg6 arg7 harg7 arg8 harg8) K } := by
  refine ⟨?_, ?_, ?_, ?_, fun E K => ?run⟩
  case run =>
    simp only [cc1__sm_kernel_eq_skeleton]; unfold cc1__sm_kernel_skel
    simp only [k1_part1_eq_skeleton]
    unfold owns
    iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4
    obtain rfl := harg6.eq_unread hf6; obtain rfl := harg7.eq_unread hf7; obtain rfl := harg8.eq_unread hf8
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    iexists _; iexact H8

end Cert.KernelIdeal.Sm

end
-- ==== Proof.SmData.lean ====
/-
  The streaming-softmax kernel over its grid: what its buffers hold point by point, the proof data of its pipeline and the
  body obligation.

  After the body at point `t` (row tile `t / 16`, column tile `t % 16`) the three scratches hold the running row maximum,
  denominator and numerator over column tiles `0 … t % 16` of the row tile: at a first column the body's result from
  freshly reset scratches, otherwise its result from what the point before left.  The output buffer holds the finished
  block after a last column and is not consulted elsewhere.  Everything is stated at a parameter `V`: what the
  TensorCore's buffers hold when the region is entered.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.SmRunFirst
import proofs.«121306_j85255100825818_2_alg».proof.Proof.SmRunMid
import proofs.«121306_j85255100825818_2_alg».proof.Proof.SmRunLast
set_option maxRecDepth 16384

noncomputable section

namespace Cert.KernelIdeal.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three case runs at point `t`'s buffers. -/
abbrev firstAt (c : Dev nD) (t : Fin cfg1.N) (hA : atFirst (grid1.coords t)) (hB : ¬atLast (grid1.coords t))
    (s : Vec F S1024x512 .f32) (h : Vec F S8192x512 .bf16) (lw : Vec F S512x512 .bf16) :=
  runFirst (F := F) c (grid1.coords t) (ms0 t) (hs0 t) (ms1 t) (hs1 t) (ms2 t) (hs2 t) (ms3 t) (hs3 t) scMax (Memref.isWhole_whole _) scDen (Memref.isWhole_whole _) scNum (Memref.isWhole_whole _) hA hB s h lw
abbrev midAt (c : Dev nD) (t : Fin cfg1.N) (hA : ¬atFirst (grid1.coords t)) (hB : ¬atLast (grid1.coords t))
    (s : Vec F S1024x512 .f32) (h : Vec F S8192x512 .bf16) (lw : Vec F S512x512 .bf16)
    (mx : Vec F S1024x1 .f32) (dn : Vec F S1024x1 .f32) (nm : Vec F S1024x512 .f32) :=
  runMid (F := F) c (grid1.coords t) (ms0 t) (hs0 t) (ms1 t) (hs1 t) (ms2 t) (hs2 t) (ms3 t) (hs3 t) scMax (Memref.isWhole_whole _) scDen (Memref.isWhole_whole _) scNum (Memref.isWhole_whole _) hA hB s h lw mx dn nm
abbrev lastAt (c : Dev nD) (t : Fin cfg1.N) (hA : ¬atFirst (grid1.coords t)) (hB : atLast (grid1.coords t))
    (s : Vec F S1024x512 .f32) (h : Vec F S8192x512 .bf16) (lw : Vec F S512x512 .bf16)
    (mx : Vec F S1024x1 .f32) (dn : Vec F S1024x1 .f32) (nm : Vec F S1024x512 .f32) :=
  runLast (F := F) c (grid1.coords t) (ms0 t) (hs0 t) (ms1 t) (hs1 t) (ms2 t) (hs2 t) (ms3 t) (hs3 t) scMax (Memref.isWhole_whole _) scDen (Memref.isWhole_whole _) scNum (Memref.isWhole_whole _) hA hB s h lw mx dn nm

/-- A piece list read back over junk, through the output's view and the scratches'. -/
abbrev rdO (L : List (View.Piece (Elt F) S1024x512 .f32)) : Vec F S1024x512 .f32 := VOut.read (Elt F) (VOut.writes (Elt F) VOut.junk L)
abbrev rdM (L : List (View.Piece (Elt F) S1024x1 .f32)) : Vec F S1024x1 .f32 := VMax.read (Elt F) (VMax.writes (Elt F) VMax.junk L)
abbrev rdD (L : List (View.Piece (Elt F) S1024x1 .f32)) : Vec F S1024x1 .f32 := VDen.read (Elt F) (VDen.writes (Elt F) VDen.junk L)
abbrev rdN (L : List (View.Piece (Elt F) S1024x512 .f32)) : Vec F S1024x512 .f32 := VNum.read (Elt F) (VNum.writes (Elt F) VNum.junk L)

/-! ## Each case's pieces cover the buffer they are stored into (every store is of a whole buffer) -/

section Covers
variable (c : Dev nD) (t : Fin cfg1.N) (s : Vec F S1024x512 .f32) (h : Vec F S8192x512 .bf16) (lw : Vec F S512x512 .bf16)
  (mx : Vec F S1024x1 .f32) (dn : Vec F S1024x1 .f32) (nm : Vec F S1024x512 .f32)

theorem first_covM (hA : atFirst (grid1.coords t)) (hB : ¬atLast (grid1.coords t)) (y : S1024x1.Idx) :
    ∃ pc ∈ (firstAt c t hA hB s h lw).2.1, y ∈ pc.1.set :=
  View.cover_of_tiledL (firstAt c t hA hB s h lw).2.1 S1024x1.size (by sl_kernel_rfl) y
theorem first_covD (hA : atFirst (grid1.coords t)) (hB : ¬atLast (grid1.coords t)) (y : S1024x1.Idx) :
    ∃ pc ∈ (firstAt c t hA hB s h lw).2.2.1, y ∈ pc.1.set :=
  View.cover_of_tiledL (firstAt c t hA hB s h lw).2.2.1 S1024x1.size (by sl_kernel_rfl) y
theorem first_covN (hA : atFirst (grid1.coords t)) (hB : ¬atLast (grid1.coords t)) (y : S1024x512.Idx) :
    ∃ pc ∈ (firstAt c t hA hB s h lw).2.2.2.1, y ∈ pc.1.set :=
  View.cover_of_tiledL (firstAt c t hA hB s h lw).2.2.2.1 S1024x512.size (by sl_kernel_rfl) y

theorem mid_covM (hA : ¬atFirst (grid1.coords t)) (hB : ¬atLast (grid1.coords t)) (y : S1024x1.Idx) :
    ∃ pc ∈ (midAt c t hA hB s h lw mx dn nm).2.1, y ∈ pc.1.set :=
  View.cover_of_tiledL (midAt c t hA hB s h lw mx dn nm).2.1 S1024x1.size (by sl_kernel_rfl) y
theorem mid_covD (hA : ¬atFirst (grid1.coords t)) (hB : ¬atLast (grid1.coords t)) (y : S1024x1.Idx) :
    ∃ pc ∈ (midAt c t hA hB s h lw mx dn nm).2.2.1, y ∈ pc.1.set :=
  View.cover_of_tiledL (midAt c t hA hB s h lw mx dn nm).2.2.1 S1024x1.size (by sl_kernel_rfl) y
theorem mid_covN (hA : ¬atFirst (grid1.coords t)) (hB : ¬atLast (grid1.coords t)) (y : S1024x512.Idx) :
    ∃ pc ∈ (midAt c t hA hB s h lw mx dn nm).2.2.2.1, y ∈ pc.1.set :=
  View.cover_of_tiledL (midAt c t hA hB s h lw mx dn nm).2.2.2.1 S1024x512.size (by sl_kernel_rfl) y

theorem last_covO (hA : ¬atFirst (grid1.coords t)) (hB : atLast (grid1.coords t)) (y : S1024x512.Idx) :
    ∃ pc ∈ (lastAt c t hA hB s h lw mx dn nm).1, y ∈ pc.1.set :=
  View.cover_of_tiledL (lastAt c t hA hB s h lw mx dn nm).1 S1024x512.size (by sl_kernel_rfl) y
theorem last_covM (hA : ¬atFirst (grid1.coords t)) (hB : atLast (grid1.coords t)) (y : S1024x1.Idx) :
    ∃ pc ∈ (lastAt c t hA hB s h lw mx dn nm).2.1, y ∈ pc.1.set :=
  View.cover_of_tiledL (lastAt c t hA hB s h lw mx dn nm).2.1 S1024x1.size (by sl_kernel_rfl) y
theorem last_covD (hA : ¬atFirst (grid1.coords t)) (hB : atLast (grid1.coords t)) (y : S1024x1.Idx) :
    ∃ pc ∈ (lastAt c t hA hB s h lw mx dn nm).2.2.1, y ∈ pc.1.set :=
  View.cover_of_tiledL (lastAt c t hA hB s h lw mx dn nm).2.2.1 S1024x1.size (by sl_kernel_rfl) y
theorem last_covN (hA : ¬atFirst (grid1.coords t)) (hB : atLast (grid1.coords t)) (y : S1024x512.Idx) :
    ∃ pc ∈ (lastAt c t hA hB s h lw mx dn nm).2.2.2.1, y ∈ pc.1.set :=
  View.cover_of_tiledL (lastAt c t hA hB s h lw mx dn nm).2.2.2.1 S1024x512.size (by sl_kernel_rfl) y
end Covers

/-! ## What the buffers hold after each point -/

/-- The contents after a point, as a record: the output buffer, then the running maximum, denominator and numerator. -/
structure St (F : FTy → Type) [FloatOps F] where
  out : Vec F S1024x512 .f32
  mx : Vec F S1024x1 .f32
  dn : Vec F S1024x1 .f32
  nm : Vec F S1024x512 .f32

/-- What a first-column point leaves, -/
def stFirst (c : Dev nD) (t : Fin cfg1.N) (hA : atFirst (grid1.coords t)) (hB : ¬atLast (grid1.coords t)) : St F :=
  let r := firstAt c t hA hB (blk V c 0 t) (blk V c 1 t) (blk V c 2 t)
  ⟨rdO r.1, rdM r.2.1, rdD r.2.2.1, rdN r.2.2.2.1⟩
/-- a middle-column point, from what the point before left (`p`), -/
def stMid (c : Dev nD) (t : Fin cfg1.N) (hA : ¬atFirst (grid1.coords t)) (hB : ¬atLast (grid1.coords t)) (p : St F) : St F :=
  let r := midAt c t hA hB (blk V c 0 t) (blk V c 1 t) (blk V c 2 t) p.mx p.dn p.nm
  ⟨rdO r.1, rdM r.2.1, rdD r.2.2.1, rdN r.2.2.2.1⟩
/-- and a last-column point. -/
def stLast (c : Dev nD) (t : Fin cfg1.N) (hA : ¬atFirst (grid1.coords t)) (hB : atLast (grid1.coords t)) (p : St F) : St F :=
  let r := lastAt c t hA hB (blk V c 0 t) (blk V c 1 t) (blk V c 2 t) p.mx p.dn p.nm
  ⟨rdO r.1, rdM r.2.1, rdD r.2.2.1, rdN r.2.2.2.1⟩

/-- The accumulation: the contents after position `n`, the case chosen by the column tile `n % 16`. -/
def stAt (c : Dev nD) : (n : ℕ) → n < cfg1.N → St F
  | 0, hn => stFirst V c ⟨0, hn⟩ ((atFirst_iff ⟨0, hn⟩).mpr (Nat.zero_mod _))
      (fun hb => absurd (show 0 % 16 = 15 from (atLast_iff ⟨0, hn⟩).mp hb) (by decide))
  | n + 1, hn =>
    if h0 : (n + 1) % 16 = 0 then
      if h1 : (n + 1) % 16 = 15 then False.elim (by omega)
      else stFirst V c ⟨n + 1, hn⟩ ((atFirst_iff ⟨n + 1, hn⟩).mpr h0) (fun hb => h1 ((atLast_iff ⟨n + 1, hn⟩).mp hb))
    else
      if h1 : (n + 1) % 16 = 15 then
        stLast V c ⟨n + 1, hn⟩ (fun ha => h0 ((atFirst_iff ⟨n + 1, hn⟩).mp ha)) ((atLast_iff ⟨n + 1, hn⟩).mpr h1)
          (stAt c n (Nat.lt_of_succ_lt hn))
      else
        stMid V c ⟨n + 1, hn⟩ (fun ha => h0 ((atFirst_iff ⟨n + 1, hn⟩).mp ha)) (fun hb => h1 ((atLast_iff ⟨n + 1, hn⟩).mp hb))
          (stAt c n (Nat.lt_of_succ_lt hn))

theorem stAt_first (c : Dev nD) (t : Fin cfg1.N) (h0 : t.val % 16 = 0) (h1 : ¬t.val % 16 = 15) :
    stAt V c t.val t.isLt = stFirst V c t ((atFirst_iff t).mpr h0) (fun hb => h1 ((atLast_iff t).mp hb)) := by
  obtain ⟨n, hn⟩ := t
  cases n with
  | zero => exact rfl
  | succ n => exact (dif_pos h0).trans ((dif_neg h1).trans rfl)

theorem stAt_mid (c : Dev nD) (t : Fin cfg1.N) (h0 : ¬t.val % 16 = 0) (h1 : ¬t.val % 16 = 15) :
    stAt V c t.val t.isLt = stMid V c t (fun ha => h0 ((atFirst_iff t).mp ha)) (fun hb => h1 ((atLast_iff t).mp hb))
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem stAt_last (c : Dev nD) (t : Fin cfg1.N) (h0 : ¬t.val % 16 = 0) (h1 : t.val % 16 = 15) :
    stAt V c t.val t.isLt = stLast V c t (fun ha => h0 ((atFirst_iff t).mp ha)) ((atLast_iff t).mpr h1)
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant -/

/-- Before position `n`: before the first point the class's invariant (every scoped buffer that is no staging buffer at
    anything, the generator register at some state); afterwards the same with the three scratches at what the point
    before left. -/
def Inv (c : Dev nD) : (n : ℕ) → n ≤ cfg1.N → sProp 𝕄
  | 0, _ => Pipeline.ΦA spec1 c
  | n + 1, hn => iprop(iprop(others c ∗ owns (c : Thread nD τ) scMax fullShare (stAt V c n hn).mx
      ∗ owns (c : Thread nD τ) scDen fullShare (stAt V c n hn).dn ∗ owns (c : Thread nD τ) scNum fullShare (stAt V c n hn).nm)
      ∗ (∃ r, prngReg c r))

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop(iprop(others c ∗ owns (c : Thread nD τ) scMax fullShare (stAt V c n hn).mx
      ∗ owns (c : Thread nD τ) scDen fullShare (stAt V c n hn).dn ∗ owns (c : Thread nD τ) scNum fullShare (stAt V c n hn).nm)
      ∗ (∃ r, prngReg c r)) := rfl
theorem Inv_pos (c : Dev nD) (n : ℕ) (h : n ≤ cfg1.N) (hz : n ≠ 0) :
    Inv V c n h = iprop(iprop(others c ∗ owns (c : Thread nD τ) scMax fullShare (stAt V c (n - 1) (by omega)).mx
      ∗ owns (c : Thread nD τ) scDen fullShare (stAt V c (n - 1) (by omega)).dn
      ∗ owns (c : Thread nD τ) scNum fullShare (stAt V c (n - 1) (by omega)).nm)
      ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (stAt V c t.val t.isLt).out
  Φ t := Inv V c t.val (Nat.le_of_lt_succ t.isLt)
  q _ := fullShare
  owed _ := 0

theorem dat_A (c : Dev nD) (w : Fin cfg1.W) : (dat V c).A w = V c (Pipeline.arrRef spec1 w) := by
  dsimp only [dat]
theorem Inv_castSucc (c : Dev nD) (t : Fin cfg1.N) :
    (dat V c).Φ t.castSucc = Inv V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = (stAt V c t.val t.isLt).out := by dsimp only [dat]

theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

end Cert.KernelIdeal.Sm

end
-- ==== Proof.SmSound.lean ====
/-
  The streaming-softmax kernel's body obligation: at every grid point the body, run on what the pipeline hands it and on
  the scratches as the invariant holds them, returns what the proof data say — the three cases of the column tile.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.SmData
set_option maxRecDepth 16384

noncomputable section

namespace Cert.KernelIdeal.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, window by window, -/
def pre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def post (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 8000000 in
/-- The body at any point.  The column tile decides the case.  The invariant hands the body the scratches — at what the
    point before left, or at anything before the very first point; a first-column body does not care — and takes them back
    at this point's contents; the output buffer is handed back as found off the last column and at the finished block on
    it; the core owes nothing throughout. -/
theorem sound (c : Dev nD) (t : Fin cfg1.N) :
    pre V c t ⊢ wp frame (wpE (defs₀ (F := F)) Variants.none c none) Set.univ (bodyAt1 t) (fun _ => post V c t) := by
  unfold pre post bodyAt1
  simp only [before_0, before_1, before_2]
  rw [show (dat V c).owesAt () t.succ = (dat V c).owesAt () t.castSucc from rfl]
  rw [show (dat V c).Φ t.succ = Inv V c (t.val + 1) t.isLt from rfl, Inv_succ]
  have hN : t.val < 128 := lt_of_lt_of_eq t.isLt (show cfg1.N = 128 from N_1)
  rw [show (dat V c).leavesExact 0 t = owns (c : Thread nD τ) (ms0 t) fullShare ((dat V c).after 0 t) from by
        unfold Dat.leavesExact; rw [live_0 t], after_0]
  rw [show (dat V c).leavesExact 1 t = owns (c : Thread nD τ) (ms1 t) fullShare ((dat V c).after 1 t) from by
        unfold Dat.leavesExact; rw [live_1 t], after_1]
  rw [show (dat V c).leavesExact 2 t = owns (c : Thread nD τ) (ms2 t) fullShare ((dat V c).after 2 t) from by
        unfold Dat.leavesExact; rw [live_2 t], after_2]
  by_cases h0 : t.val % 16 = 0
  · have h1 : ¬t.val % 16 = 15 := by omega
    have hA : atFirst (grid1.coords t) := (atFirst_iff t).mpr h0
    have hB : ¬atLast (grid1.coords t) := fun hb => h1 ((atLast_iff t).mp hb)
    rw [Dat.leavesExact_idle (dat V c) 3 t (idle_3 t hB) (noFlush_3 t hB)]
    rw [stAt_first V c t h0 h1]
    unfold stFirst; (try dsimp only)
    by_cases hz : t.val = 0
    · rw [Inv_castSucc V c t, Inv_zero V c _ _ hz]; unfold Pipeline.ΦA
      iintro ⟨⟨Hrest, Hg⟩, Ho, ⟨%d0, H0⟩, ⟨%d1, H1⟩, ⟨%d2, H2⟩, ⟨%d3, H3⟩⟩
      ihave Hs := rest_split c $$ Hrest
      icases Hs with ⟨Hoth, HM, HD, HN⟩
      iapply ((firstAt c t hA hB (blk V c 0 t) (blk V c 1 t) (blk V c 2 t)).2.2.2.2 _ Set.univ _)
      isplitl [H0]; · iexact H0
      isplitl [H1]; · iexact H1
      isplitl [H2]; · iexact H2
      isplitl [H3]; · iexact H3
      isplitl [HM]; · iexact HM
      isplitl [HD]; · iexact HD
      isplitl [HN]; · iexact HN
      iintro ⟨H0, H1, H2, H3, ⟨%eM, HM⟩, ⟨%eD, HD⟩, ⟨%eN, HN⟩⟩
      isplitl [Hoth HM HD HN Hg]
      · isplitl [Hoth HM HD HN]
        · isplitl [Hoth]; · iexact Hoth
          isplitl [HM]
          · unfold owns; iexists _; isplitr
            swap; · iexact HM
            ipureintro; exact View.read_writes_of_cover _ _ _ _ _ (first_covM c t _ _ _ hA hB)
          isplitl [HD]
          · unfold owns; iexists _; isplitr
            swap; · iexact HD
            ipureintro; exact View.read_writes_of_cover _ _ _ _ _ (first_covD c t _ _ _ hA hB)
          unfold owns; iexists _; isplitr
          swap; · iexact HN
          ipureintro; exact View.read_writes_of_cover _ _ _ _ _ (first_covN c t _ _ _ hA hB)
        iexact Hg
      isplitl [Ho]; · iexact Ho
      isplitl [H0]; · iexact H0
      isplitl [H1]; · iexact H1
      isplitl [H2]; · iexact H2
      iexists _; iexact H3
    · rw [Inv_castSucc V c t, Inv_pos V c _ _ hz]
      iintro ⟨⟨⟨Hoth, HM, HD, HN⟩, Hg⟩, Ho, ⟨%d0, H0⟩, ⟨%d1, H1⟩, ⟨%d2, H2⟩, ⟨%d3, H3⟩⟩
      iapply ((firstAt c t hA hB (blk V c 0 t) (blk V c 1 t) (blk V c 2 t)).2.2.2.2 _ Set.univ _)
      isplitl [H0]; · iexact H0
      isplitl [H1]; · iexact H1
      isplitl [H2]; · iexact H2
      isplitl [H3]; · iexact H3
      isplitl [HM]; · iexists _; iexact HM
      isplitl [HD]; · iexists _; iexact HD
      isplitl [HN]; · iexists _; iexact HN
      iintro ⟨H0, H1, H2, H3, ⟨%eM, HM⟩, ⟨%eD, HD⟩, ⟨%eN, HN⟩⟩
      isplitl [Hoth HM HD HN Hg]
      · isplitl [Hoth HM HD HN]
        · isplitl [Hoth]; · iexact Hoth
          isplitl [HM]
          · unfold owns; iexists _; isplitr
            swap; · iexact HM
            ipureintro; exact View.read_writes_of_cover _ _ _ _ _ (first_covM c t _ _ _ hA hB)
          isplitl [HD]
          · unfold owns; iexists _; isplitr
            swap; · iexact HD
            ipureintro; exact View.read_writes_of_cover _ _ _ _ _ (first_covD c t _ _ _ hA hB)
          unfold owns; iexists _; isplitr
          swap; · iexact HN
          ipureintro; exact View.read_writes_of_cover _ _ _ _ _ (first_covN c t _ _ _ hA hB)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hA : ¬atFirst (grid1.coords t) := fun ha => h0 ((atFirst_iff t).mp ha)
    by_cases h1 : t.val % 16 = 15
    · have hB : atLast (grid1.coords t) := (atLast_iff t).mpr h1
      rw [show (dat V c).leavesExact 3 t = owns (c : Thread nD τ) (ms3 t) fullShare ((dat V c).after 3 t) from by
        unfold Dat.leavesExact; rw [live_3 t hB], after_3]
      rw [stAt_last V c t h0 h1]
      unfold stLast; (try dsimp only)
      rw [Inv_castSucc V c t, Inv_pos V c _ _ hz]
      iintro ⟨⟨⟨Hoth, HM, HD, HN⟩, Hg⟩, Ho, ⟨%d0, H0⟩, ⟨%d1, H1⟩, ⟨%d2, H2⟩, ⟨%d3, H3⟩⟩
      iapply ((lastAt c t hA hB (blk V c 0 t) (blk V c 1 t) (blk V c 2 t) _ _ _).2.2.2.2 Set.univ _)
      isplitl [H0]; · iexact H0
      isplitl [H1]; · iexact H1
      isplitl [H2]; · iexact H2
      isplitl [H3]; · iexists _; iexact H3
      isplitl [HM]; · iexact HM
      isplitl [HD]; · iexact HD
      isplitl [HN]; · iexact HN
      iintro ⟨H0, H1, H2, ⟨%e3, H3⟩, ⟨%eM, HM⟩, ⟨%eD, HD⟩, ⟨%eN, HN⟩⟩
      isplitl [Hoth HM HD HN Hg]
      · isplitl [Hoth HM HD HN]
        · isplitl [Hoth]; · iexact Hoth
          isplitl [HM]
          · unfold owns; iexists _; isplitr
            swap; · iexact HM
            ipureintro; exact View.read_writes_of_cover _ _ _ _ _ (last_covM c t _ _ _ _ _ _ hA hB)
          isplitl [HD]
          · unfold owns; iexists _; isplitr
            swap; · iexact HD
            ipureintro; exact View.read_writes_of_cover _ _ _ _ _ (last_covD c t _ _ _ _ _ _ hA hB)
          unfold owns; iexists _; isplitr
          swap; · iexact HN
          ipureintro; exact View.read_writes_of_cover _ _ _ _ _ (last_covN c t _ _ _ _ _ _ hA hB)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (last_covO c t _ _ _ _ _ _ hA hB)
    · have hB : ¬atLast (grid1.coords t) := fun hb => h1 ((atLast_iff t).mp hb)
      rw [Dat.leavesExact_idle (dat V c) 3 t (idle_3 t hB) (noFlush_3 t hB)]
      rw [stAt_mid V c t h0 h1]
      unfold stMid; (try dsimp only)
      rw [Inv_castSucc V c t, Inv_pos V c _ _ hz]
      iintro ⟨⟨⟨Hoth, HM, HD, HN⟩, Hg⟩, Ho, ⟨%d0, H0⟩, ⟨%d1, H1⟩, ⟨%d2, H2⟩, ⟨%d3, H3⟩⟩
      iapply ((midAt c t hA hB (blk V c 0 t) (blk V c 1 t) (blk V c 2 t) _ _ _).2.2.2.2 _ Set.univ _)
      isplitl [H0]; · iexact H0
      isplitl [H1]; · iexact H1
      isplitl [H2]; · iexact H2
      isplitl [H3]; · iexact H3
      isplitl [HM]; · iexact HM
      isplitl [HD]; · iexact HD
      isplitl [HN]; · iexact HN
      iintro ⟨H0, H1, H2, H3, ⟨%eM, HM⟩, ⟨%eD, HD⟩, ⟨%eN, HN⟩⟩
      isplitl [Hoth HM HD HN Hg]
      · isplitl [Hoth HM HD HN]
        · isplitl [Hoth]; · iexact Hoth
          isplitl [HM]
          · unfold owns; iexists _; isplitr
            swap; · iexact HM
            ipureintro; exact View.read_writes_of_cover _ _ _ _ _ (mid_covM c t _ _ _ _ _ _ hA hB)
          isplitl [HD]
          · unfold owns; iexists _; isplitr
            swap; · iexact HD
            ipureintro; exact View.read_writes_of_cover _ _ _ _ _ (mid_covD c t _ _ _ _ _ _ hA hB)
          unfold owns; iexists _; isplitr
          swap; · iexact HN
          ipureintro; exact View.read_writes_of_cover _ _ _ _ _ (mid_covN c t _ _ _ _ _ _ hA hB)
        iexact Hg
      isplitl [Ho]; · iexact Ho
      isplitl [H0]; · iexact H0
      isplitl [H1]; · iexact H1
      isplitl [H2]; · iexact H2
      iexists _; iexact H3

/-- The pipeline library's body obligation, at every point. -/
theorem obligation (c : Dev nD) : BodyObligation (dat (F := F) V c) (defs₀ (F := F)) Variants.none () Set.univ := fun t => by
  rw [bigSep_W1, bigSep_W1]
  exact sound V c t

/-- What the launch hands the region is the invariant before the first point, -/
theorem inv_in (c : Dev nD) : Pipeline.ΦA spec1 c ⊢ (dat V c).Φ 0 := by
  rw [show (dat V c).Φ 0 = Inv V c 0 (Nat.zero_le _) from rfl, Inv_zero V c 0 _ rfl]
  try exact Idealize.SL.BI.Entails.refl _

/-- and after the last point the invariant gives it back, the scratches' contents forgotten. -/
theorem inv_out (c : Dev nD) : (dat V c).Φ (Fin.last cfg1.N) ⊢ Pipeline.ΦA spec1 c := by
  have hne : (Fin.last cfg1.N).val ≠ 0 := by rw [Fin.val_last]; have : cfg1.N = 128 := N_1; omega
  rw [show (dat V c).Φ (Fin.last cfg1.N) = Inv V c (Fin.last cfg1.N).val (Nat.le_of_lt_succ (Fin.last cfg1.N).isLt) from rfl,
    Inv_pos V c _ _ hne]
  unfold Pipeline.ΦA
  iintro ⟨⟨Hoth, HM, HD, HN⟩, Hg⟩
  isplitl [Hoth HM HD HN]
  · iapply (rest_join c)
    isplitl [Hoth]; · iexact Hoth
    isplitl [HM]; · iexists _; iexact HM
    isplitl [HD]; · iexists _; iexact HD
    iexists _; iexact HN
  iexact Hg

end Cert.KernelIdeal.Sm

end
-- ==== Proof.KRun.lean ====
/-
  The whole program's run: the transpose of the weight, the projection kernel, the host lines that build the dense logit
  matrix (slices of the edge list, index wrap-around, a gather of the per-node logits, a scatter-add into zeros) and
  transpose and round the output weight, then the streaming-softmax kernel.

  The buffer contents at each boundary are a fold from the launch memory: a host stretch applies its operations; a kernel
  region leaves each of its arrays at what its write-backs leave and every other buffer alone.  The run ends with EVERY
  unscoped buffer at the last boundary's contents; the frame (no line and no kernel writes an argument) and the value of
  the result buffer are both read off that.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.Gen.KernelIdeal.Regions
import proofs.«121306_j85255100825818_2_alg».proof.Proof.ProjData
import proofs.«121306_j85255100825818_2_alg».proof.Proof.SmSound
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Gen (hostOps0_fresh hostOps1_fresh hostOps0_writes hostOps1_writes hostOps0_W hostOps1_W)

variable (m : (ℓ : Loc nD τ sig) → Buf (Elt F) ℓ) (ρ : Dev nD → PrngReg)

/-! ## The buffer contents at each boundary -/

/-- At launch; after the transpose of the weight (the projection kernel's entry); -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the projection kernel's exit: its arrays at what the pipeline leaves, every other buffer as entered; -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0 (c : Dev nD) (w : Fin cfg0.W) : (Proj.dat (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- after the host lines between the kernels (the softmax kernel's entry); -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- at the softmax kernel's exit. -/
def W4 (c : Dev nD) : Valuation τ sig (Elt F) :=
  Pipeline.withArrays spec1 c (W3 m ρ c) fun w => (Sm.dat (V3 m ρ) c).arrAt w cfg1.N
theorem W4_arr (c : Dev nD) (w : Fin cfg1.W) :
    W4 m ρ c (Proc.devRef .tc (Pipeline.arrRef spec1 w)) = (Sm.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem left1 (c : Dev nD) (w : Fin cfg1.W) : (Sm.dat (V3 m ρ) c).arrAt w cfg1.N = V4 m ρ c (Pipeline.arrRef spec1 w) :=
  (W4_arr m ρ c w).symm
theorem kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No line and no kernel writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((Proj.dat (V1 m ρ) c).arrAt_in 0 rfl _).trans (Proj.dat_A (V1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((Proj.dat (V1 m ρ) c).arrAt_in 2 rfl _).trans (Proj.dat_A (V1 m ρ) c 2))
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
/-- Each pipeline's proof data at its region's entry contents: a literal match on the pipeline's number. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Sm.dat (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (W4 m ρ c) ∗ ∃ r, prngReg c r)

/-! ## The regions' records -/

set_option backward.isDefEq.respectTransparency.types false in
/-- Region 0 over the thread state: entered with every unscoped buffer at the boundary's contents, its arrays split out
    and put back at what the write-backs leave; the generator register goes into the invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.obligation (V1 m ρ) c).loose
  hwaits := Pipeline.hwaits_of_owed_zero _ _ _ _ L lv 0 fun _ _ => rfl
  pre c := iprop(StableHlo.held (c : Thread nD τ) (Pipeline.ucRefs τ sig) (W1 m ρ c) ∗ Rd c)
  post c := iprop(StableHlo.held (c : Thread nD τ) (Pipeline.ucRefs τ sig) (W2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, its arrays split out
    and put back at what the write-backs leave; the generator register goes into the invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Sm.obligation (V3 m ρ) c).loose
  hwaits := Pipeline.hwaits_of_owed_zero _ _ _ _ L lv 1 fun _ _ => rfl
  pre c := iprop(StableHlo.held (c : Thread nD τ) (Pipeline.ucRefs τ sig) (W3 m ρ c) ∗ Rd c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (Sm.dat (V3 m ρ) c).Φ (Fin.last cfg1.N) from rfl]
    have hback := Sm.inv_out (V3 m ρ) c
    unfold Pipeline.ΦA at hback
    iintro Hinv
    ihave H := hback $$ Hinv
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, and every final state
    has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rd c)) (Tₙ := Tn m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any float instance: the run terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Run

end
-- ==== Proof.BProjBody.lean ====
/-
  The projection kernel's body, run once on whole staging buffers.

  The body reads a 1024-row block `x` of the node features, the whole transposed weight `w` and the attention row `a`,
  forms `h = x · w` (a matrix product into a zero accumulator), and stores two things, each by ONE store that covers its
  buffer: `h` itself (the first output) and the column `alpha = leaky (Σ_j h_j a_j) · (Σ_j h_j)` (the second), where
  `leaky z = z` for `z ≥ 0` and `0.2 z` otherwise.  Both output buffers are loaded before they are stored; the loaded
  values are unused.  So after the body each output buffer holds the single stored payload, whatever it held before.
-/
import proofs.«121306_j85255100825818_2_alg».proof.Proof.Gen.Kernel.Launch
import proofs.«121306_j85255100825818_2_alg».proof.Proof.Gen.Kernel.Skeleton
import proofs.«121306_j85255100825818_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole of a 1024×256 buffer, of a 256×512 one, of a 1×512 one, of a 1024×512 one and of a 1024×1 one, as rectangles. -/
abbrev rX : Rect S1024x256 := Rect.unit (s := S1024x256) ![0, 0] S1024x256.size inb_S1024x256_S1024x256_0_0
abbrev rW : Rect S256x512 := Rect.unit (s := S256x512) ![0, 0] S256x512.size inb_S256x512_S256x512_0_0
abbrev rA : Rect S1x512 := Rect.unit (s := S1x512) ![0, 0] S1x512.size inb_S1x512_S1x512_0_0
abbrev rH : Rect S1024x512 := Rect.unit (s := S1024x512) ![0, 0] S1024x512.size inb_S1024x512_S1024x512_0_0
abbrev rC : Rect S1024x1 := Rect.unit (s := S1024x1) ![0, 0] S1024x1.size inb_S1024x1_S1024x1_0_0

/-- The first output's buffer after the body: the product block, stored whole. -/
def hOut (x : Vec F S1024x256 .f32) (w : Vec F S256x512 .f32) : Vec F S1024x512 .bf16 :=
  View.canon [⟨rH, k0_pay3 (View.ld x rX) (View.ld w rW)⟩]

/-- The second output's buffer after the body: the logit column, stored whole. -/
def aOut (x : Vec F S1024x256 .f32) (w : Vec F S256x512 .f32) (a : Vec F S1x512 .f32) : Vec F S1024x1 .f32 :=
  View.canon [⟨rC, k0_pay2 (View.ld x rX) (View.ld w rW) (View.ld a rA)⟩]

/-- One whole-buffer store covers the buffer. -/
theorem hCover (p : Vec F S1024x512 .bf16) (y : S1024x512.Idx) :
    ∃ pc ∈ ([⟨rH, p⟩] : List (View.Piece (Elt F) S1024x512 .bf16)), y ∈ pc.1.set :=
  View.cover_of_tiled [⟨rH, p⟩] S1024x512.size (by rfl) y

theorem aCover (p : Vec F S1024x1 .f32) (y : S1024x1.Idx) :
    ∃ pc ∈ ([⟨rC, p⟩] : List (View.Piece (Elt F) S1024x1 .f32)), y ∈ pc.1.set :=
  View.cover_of_tiled [⟨rC, p⟩] S1024x1.size (by rfl) y

set_option maxHeartbeats 4000000 in
/-- The body's triple: from the three inputs' buffers at `x`, `w`, `a` and the two outputs' at anything, it runs to the
    continuation with the inputs unchanged and the outputs at `hOut` and `aOut`. -/
theorem body (c : Dev nD) (E : Set ℕ) (i : grid0.Coords)
    (arg1 : Memref sig .tc .vmem S1024x256 .f32) (harg1 : arg1.IsWhole) (arg2 : Memref sig .tc .vmem S256x512 .f32) (harg2 : arg2.IsWhole)
    (arg3 : Memref sig .tc .vmem S1x512 .f32) (harg3 : arg3.IsWhole) (arg4 : Memref sig .tc .vmem S1024x512 .bf16) (harg4 : arg4.IsWhole)
    (arg5 : Memref sig .tc .vmem S1024x1 .f32) (harg5 : arg5.IsWhole)
    (x : Vec F S1024x256 .f32) (w : Vec F S256x512 .f32) (a : Vec F S1x512 .f32) (K : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (hOut x w) ∗ owns (c : Thread nD τ) arg5 fullShare (aOut x w a)) -∗ K ⟨⟩))
      ⊢ wp frame (wpE (defs₀ (F := F)) Variants.none c none) E (cc0__h_kernel i arg1 harg1 arg2 harg2 arg3 harg3 arg4 harg4 arg5 harg5) K := by
  simp only [cc0__h_kernel_eq_skeleton]; unfold cc0__h_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (hCover _)
  iexists _; isplitr
  swap; · iexact H5
  ipureintro
  exact View.read_writes_eq_canon _ _ _ (aCover _)

end Cert.Kernel.Proj

end
-- ==== Proof.BProjData.lean ====
/-
  The projection kernel over its grid of eight row tiles: the proof data of its pipeline and the body obligation.

  At tile `t` the pipeline hands the body rows `1024 t … 1024 t + 1023` of the node features, the whole transposed weight
  and the whole attention row (these two are fetched once, at the first tile, and their block never moves), and takes back
  the product block and the logit column for the same rows.  Everything is stated at a parameter `V`: what the
  TensorCore's buffers hold when the region is entered.
-/
import proofs.«121306_j85255100825818_2_alg».proof.Proof.Gen.Kernel.Launch
import proofs.«121306_j85255100825818_2_alg».proof.Proof.Gen.Kernel.Skeleton
import proofs.«121306_j85255100825818_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.BProjBody
set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pipeline's proof data: the arrays as found; after the body the three inputs' buffers at their blocks, the outputs'
    at the product block and the logit column of those blocks; the scoped rest and the generator register untouched. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => hOut (blk V c 0 t) (blk V c 1 t)
    | ⟨4, _⟩ => aOut (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = hOut (blk V c 0 t) (blk V c 1 t) := by dsimp only [dat]
theorem after_4 (c : Dev nD) (t : Fin cfg0.N) : (dat V c).after 4 t = aOut (blk V c 0 t) (blk V c 1 t) (blk V c 2 t) := by
  dsimp only [dat]

/-- An input's current buffer holds its block at every tile, fetched there or not (an unfetched window's block index
    has not moved). -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-- What the body is called with at tile `t`, window by window, -/
def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any tile: the inputs' buffers hold their blocks, so the body's triple applies; the invariant and the
    core's dues pass through unread. -/
theorem sound (c : Dev nD) (t : Fin cfg0.N) :
    pre V c t ⊢ wp frame (wpE (defs₀ (F := F)) Variants.none c none) Set.univ (bodyAt0 t) (fun _ => post V c t) := by
  unfold pre post bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body c Set.univ _ _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every tile. -/
theorem obligation (c : Dev nD) : BodyObligation (dat (F := F) V c) (defs₀ (F := F)) Variants.none () Set.univ := fun t => by
  rw [bigSep_W0, bigSep_W0]
  exact sound V c t

end Cert.Kernel.Proj

end
-- ==== Proof.BSmCases.lean ====
/-
  The streaming-softmax kernel: its grid, its two branches, and what its invariant holds.

  The grid is 8 row tiles by 16 column tiles, walked row tile by row tile: point `t` is row tile `t / 16`, column tile
  `t % 16`.  The body branches twice on the column tile `k`: at `k = 0` it resets its three scratch buffers (the running
  row maximum to −∞, the running denominator and the running numerator to 0) before anything else, and at `k = 15` it
  divides, multiplies by the output weight, applies the exponential-linear unit and stores the output block.  So a point
  is in one of three cases: first column (reset, no output), a middle column (neither), last column (output).  The output
  window is idle, and not written back, except at the last column.
-/
import proofs.«121306_j85255100825818_2_alg».proof.Proof.Gen.Kernel.Launch
import proofs.«121306_j85255100825818_2_alg».proof.Proof.Gen.Kernel.Skeleton
import proofs.«121306_j85255100825818_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The column tile is 0: the body's first branch, as the printed scalar chain over the grid coordinates. -/
abbrev atFirst (i : grid1.Coords) : Prop :=
  (Scalar.cmpi .ne (Scalar.extui (Scalar.cmpi .eq (BitVec.ofNat 32 (i 1).val) 0#32)) 0#32) = 1#1
theorem atFirst_iff : ∀ t : Fin cfg1.N, atFirst (grid1.coords t) ↔ t.val % 16 = 0 :=
  (by decide +kernel : ∀ t : Fin grid1.N, atFirst (grid1.coords t) ↔ t.val % 16 = 0)

/-- The column tile is 15: the body's second branch. -/
abbrev atLast (i : grid1.Coords) : Prop := k1_cond2 i = 1#1
theorem atLast_iff : ∀ t : Fin cfg1.N, atLast (grid1.coords t) ↔ t.val % 16 = 15 :=
  (by decide +kernel : ∀ t : Fin grid1.N, atLast (grid1.coords t) ↔ t.val % 16 = 15)

/-- The three input windows are never idle; the output window is idle, and not written back, off the last column. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem idle_3 : ∀ t : Fin cfg1.N, ¬atLast (grid1.coords t) → cfg1.idle 3 (grid1.coords t) = true := by decide +kernel
theorem noFlush_3 : ∀ t : Fin cfg1.N, ¬atLast (grid1.coords t) → (cfg1.win 3).flush t = false := by decide +kernel
theorem live_3 : ∀ t : Fin cfg1.N, atLast (grid1.coords t) → cfg1.idle 3 (grid1.coords t) = false := by decide +kernel

/-- Each window's current staging buffer at point `t`, spelled as the pipeline passes it to the body, and the three
    scratch buffers (whole scoped buffers of the kernel's own). -/
abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x512 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x512 .f32 := win1_3.stage (cfg1.slots t 3)
abbrev hs3 (t : Fin cfg1.N) : (ms3 t).IsWhole := hstage1_3 ((cfg1.slots t 3).cast nbuf1_3)
abbrev scMax : Memref sig .tc .vmem S1024x1 .f32 := Memref.whole cc1_scratch0
abbrev scDen : Memref sig .tc .vmem S1024x1 .f32 := Memref.whole cc1_scratch1
abbrev scNum : Memref sig .tc .vmem S1024x512 .f32 := Memref.whole cc1_scratch2
/-- One staging buffer of the output window, and the scratches as views: contents are stated through them. -/
abbrev VOut : View sig .tc .vmem S1024x512 .f32 := (Memref.whole cc1_stg3_0 : Memref sig .tc .vmem S1024x512 .f32).view
abbrev VMax : View sig .tc .vmem S1024x1 .f32 := scMax.view
abbrev VDen : View sig .tc .vmem S1024x1 .f32 := scDen.view
abbrev VNum : View sig .tc .vmem S1024x512 .f32 := scNum.view

/-- The other scoped buffers the region does not stage through (the first kernel's staging buffers), each at anything. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The scoped buffers the region does not stage through are the first kernel's staging buffers and the three scratches:
    split, -/
theorem rest_split (c : Dev nD) :
    (Pipeline.scopedRest (Ix := Unit) (Name := ℕ) (U := UR sig nD τ) (Lvl := ℕ) (Val := Elt F) spec1 c : sProp 𝕄)
      ⊢ iprop(others c ∗ (∃ d, owns (c : Thread nD τ) scMax fullShare d) ∗ (∃ d, owns (c : Thread nD τ) scDen fullShare d)
          ∗ (∃ d, owns (c : Thread nD τ) scNum fullShare d)) := by
  unfold others; rw [scopedRest1_eq]; simp only [scMax, scDen, scNum, owns_whole]
  iintro ⟨H0, H1, H2, H3, H4, H5, H6, H7, H8, H9, H10⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  iexact H10

/-- and joined back. -/
theorem rest_join (c : Dev nD) :
    iprop(others c ∗ (∃ d, owns (c : Thread nD τ) scMax fullShare d) ∗ (∃ d, owns (c : Thread nD τ) scDen fullShare d)
          ∗ (∃ d, owns (c : Thread nD τ) scNum fullShare d))
      ⊢ (Pipeline.scopedRest (Ix := Unit) (Name := ℕ) (U := UR sig nD τ) (Lvl := ℕ) (Val := Elt F) spec1 c : sProp 𝕄) := by
  unfold others; rw [scopedRest1_eq]; simp only [scMax, scDen, scNum, owns_whole]
  iintro ⟨⟨H0, H1, H2, H3, H4, H5, H6, H7⟩, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Kernel.Sm

end
-- ==== Proof.BSmRunFirst.lean ====
/-
  The streaming-softmax body at the FIRST column tile of a row tile (the reset branch taken, the output branch not).

  The three scratches are handed over at anything: the body overwrites each whole before it reads it.  The output
  buffer is not touched and is handed back as found.
-/
import proofs.«121306_j85255100825818_2_alg».proof.Proof.Gen.Kernel.Launch
import proofs.«121306_j85255100825818_2_alg».proof.Proof.Gen.Kernel.Skeleton
import proofs.«121306_j85255100825818_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.BSmCases
set_option maxRecDepth 16384

noncomputable section

namespace Cert.Kernel.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output buffer (none) and in each scratch, found by running it, with the
    triple that says so. -/
noncomputable def runFirst (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S512x512 .bf16) (harg4 : arg4.IsWhole) (arg5 : Memref sig .tc .vmem S1024x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x512 .f32) (harg8 : arg8.IsWhole) (hA : atFirst i) (hB : ¬atLast i)
    (s : Vec F S1024x512 .f32) (h : Vec F S8192x512 .bf16) (lw : Vec F S512x512 .bf16) :
    Σ' (LO : List (View.Piece (Elt F) S1024x512 .f32)) (LM : List (View.Piece (Elt F) S1024x1 .f32)) (LD : List (View.Piece (Elt F) S1024x1 .f32)),
      { LN : List (View.Piece (Elt F) S1024x512 .f32) //
        ∀ (o : Vec F S1024x512 .f32) (E : Set ℕ) (K : PUnit → sProp 𝕄),
          iprop(owns (c : Thread nD τ) arg2 fullShare s ∗ owns (c : Thread nD τ) arg3 fullShare h ∗ owns (c : Thread nD τ) arg4 fullShare lw ∗ owns (c : Thread nD τ) arg5 fullShare o
              ∗ (∃ d, owns (c : Thread nD τ) arg6 fullShare d) ∗ (∃ d, owns (c : Thread nD τ) arg7 fullShare d) ∗ (∃ d, owns (c : Thread nD τ) arg8 fullShare d)
              ∗ (iprop(owns (c : Thread nD τ) arg2 fullShare s ∗ owns (c : Thread nD τ) arg3 fullShare h ∗ owns (c : Thread nD τ) arg4 fullShare lw ∗ owns (c : Thread nD τ) arg5 fullShare o
                  ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LD) ∗ (∃ f, arg8.view.loc (c : Thread nD τ) ↦[arg8.view.set]{fullShare} arg8.view.writes (Elt F) f LN)) -∗ K ⟨⟩))
            ⊢ wp frame (wpE (defs₀ (F := F)) Variants.none c none) E (cc1__sm_kernel i arg2 harg2 arg3 harg3 arg4 harg4 arg5 harg5 arg6 harg6 arg7 harg7 arg8 harg8) K } := by
  refine ⟨[], ?_, ?_, ?_, fun o E K => ?run⟩
  case run =>
    simp only [cc1__sm_kernel_eq_skeleton]; unfold cc1__sm_kernel_skel
    simp only [k1_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf2; obtain rfl := harg3.eq_unread hf3; obtain rfl := harg4.eq_unread hf4
    obtain rfl := harg5.eq_unread hf5
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.Kernel.Sm

end
-- ==== Proof.BSmRunMid.lean ====
/-
  The streaming-softmax body at a MIDDLE column tile (neither branch taken).

  The three scratches hold what the column tile before left; the body reads them and overwrites each whole.  The output
  buffer is not touched and is handed back as found.
-/
import proofs.«121306_j85255100825818_2_alg».proof.Proof.Gen.Kernel.Launch
import proofs.«121306_j85255100825818_2_alg».proof.Proof.Gen.Kernel.Skeleton
import proofs.«121306_j85255100825818_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.BSmCases
set_option maxRecDepth 16384

noncomputable section

namespace Cert.Kernel.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in each scratch, found by running it, with the triple that says so. -/
noncomputable def runMid (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S512x512 .bf16) (harg4 : arg4.IsWhole) (arg5 : Memref sig .tc .vmem S1024x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x512 .f32) (harg8 : arg8.IsWhole) (hA : ¬atFirst i) (hB : ¬atLast i)
    (s : Vec F S1024x512 .f32) (h : Vec F S8192x512 .bf16) (lw : Vec F S512x512 .bf16)
    (mx : Vec F S1024x1 .f32) (dn : Vec F S1024x1 .f32) (nm : Vec F S1024x512 .f32) :
    Σ' (LO : List (View.Piece (Elt F) S1024x512 .f32)) (LM : List (View.Piece (Elt F) S1024x1 .f32)) (LD : List (View.Piece (Elt F) S1024x1 .f32)),
      { LN : List (View.Piece (Elt F) S1024x512 .f32) //
        ∀ (o : Vec F S1024x512 .f32) (E : Set ℕ) (K : PUnit → sProp 𝕄),
          iprop(owns (c : Thread nD τ) arg2 fullShare s ∗ owns (c : Thread nD τ) arg3 fullShare h ∗ owns (c : Thread nD τ) arg4 fullShare lw ∗ owns (c : Thread nD τ) arg5 fullShare o
              ∗ owns (c : Thread nD τ) arg6 fullShare mx ∗ owns (c : Thread nD τ) arg7 fullShare dn ∗ owns (c : Thread nD τ) arg8 fullShare nm
              ∗ (iprop(owns (c : Thread nD τ) arg2 fullShare s ∗ owns (c : Thread nD τ) arg3 fullShare h ∗ owns (c : Thread nD τ) arg4 fullShare lw ∗ owns (c : Thread nD τ) arg5 fullShare o
                  ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LD) ∗ (∃ f, arg8.view.loc (c : Thread nD τ) ↦[arg8.view.set]{fullShare} arg8.view.writes (Elt F) f LN)) -∗ K ⟨⟩))
            ⊢ wp frame (wpE (defs₀ (F := F)) Variants.none c none) E (cc1__sm_kernel i arg2 harg2 arg3 harg3 arg4 harg4 arg5 harg5 arg6 harg6 arg7 harg7 arg8 harg8) K } := by
  refine ⟨[], ?_, ?_, ?_, fun o E K => ?run⟩
  case run =>
    simp only [cc1__sm_kernel_eq_skeleton]; unfold cc1__sm_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4
    obtain rfl := harg5.eq_unread hf5
    obtain rfl := harg6.eq_unread hf6; obtain rfl := harg7.eq_unread hf7; obtain rfl := harg8.eq_unread hf8
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.Kernel.Sm

end
-- ==== Proof.BSmRunLast.lean ====
/-
  The streaming-softmax body at the LAST column tile of a row tile (the reset branch not taken, the output branch taken).

  The three scratches hold what the column tile before left; the body reads them, overwrites each whole, then reads the
  numerator and the denominator back and stores the output block whole.  The output buffer is handed over at anything.
-/
import proofs.«121306_j85255100825818_2_alg».proof.Proof.Gen.Kernel.Launch
import proofs.«121306_j85255100825818_2_alg».proof.Proof.Gen.Kernel.Skeleton
import proofs.«121306_j85255100825818_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.BSmCases
set_option maxRecDepth 16384

noncomputable section

namespace Cert.Kernel.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output buffer and in each scratch, found by running it, with the triple
    that says so. -/
noncomputable def runLast (c : Dev nD) (i : grid1.Coords)
    (arg2 : Memref sig .tc .vmem S1024x512 .f32) (harg2 : arg2.IsWhole) (arg3 : Memref sig .tc .vmem S8192x512 .bf16) (harg3 : arg3.IsWhole)
    (arg4 : Memref sig .tc .vmem S512x512 .bf16) (harg4 : arg4.IsWhole) (arg5 : Memref sig .tc .vmem S1024x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x512 .f32) (harg8 : arg8.IsWhole) (hA : ¬atFirst i) (hB : atLast i)
    (s : Vec F S1024x512 .f32) (h : Vec F S8192x512 .bf16) (lw : Vec F S512x512 .bf16)
    (mx : Vec F S1024x1 .f32) (dn : Vec F S1024x1 .f32) (nm : Vec F S1024x512 .f32) :
    Σ' (LO : List (View.Piece (Elt F) S1024x512 .f32)) (LM : List (View.Piece (Elt F) S1024x1 .f32)) (LD : List (View.Piece (Elt F) S1024x1 .f32)),
      { LN : List (View.Piece (Elt F) S1024x512 .f32) //
        ∀ (E : Set ℕ) (K : PUnit → sProp 𝕄),
          iprop(owns (c : Thread nD τ) arg2 fullShare s ∗ owns (c : Thread nD τ) arg3 fullShare h ∗ owns (c : Thread nD τ) arg4 fullShare lw ∗ (∃ d, owns (c : Thread nD τ) arg5 fullShare d)
              ∗ owns (c : Thread nD τ) arg6 fullShare mx ∗ owns (c : Thread nD τ) arg7 fullShare dn ∗ owns (c : Thread nD τ) arg8 fullShare nm
              ∗ (iprop(owns (c : Thread nD τ) arg2 fullShare s ∗ owns (c : Thread nD τ) arg3 fullShare h ∗ owns (c : Thread nD τ) arg4 fullShare lw ∗ (∃ f, arg5.view.loc (c : Thread nD τ) ↦[arg5.view.set]{fullShare} arg5.view.writes (Elt F) f LO)
                  ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LD) ∗ (∃ f, arg8.view.loc (c : Thread nD τ) ↦[arg8.view.set]{fullShare} arg8.view.writes (Elt F) f LN)) -∗ K ⟨⟩))
            ⊢ wp frame (wpE (defs₀ (F := F)) Variants.none c none) E (cc1__sm_kernel i arg2 harg2 arg3 harg3 arg4 harg4 arg5 harg5 arg6 harg6 arg7 harg7 arg8 harg8) K } := by
  refine ⟨?_, ?_, ?_, ?_, fun E K => ?run⟩
  case run =>
    simp only [cc1__sm_kernel_eq_skeleton]; unfold cc1__sm_kernel_skel
    simp only [k1_part1_eq_skeleton]
    unfold owns
    iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4
    obtain rfl := harg6.eq_unread hf6; obtain rfl := harg7.eq_unread hf7; obtain rfl := harg8.eq_unread hf8
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    iexists _; iexact H8

end Cert.Kernel.Sm

end
-- ==== Proof.BSmData.lean ====
/-
  The streaming-softmax kernel over its grid: what its buffers hold point by point, the proof data of its pipeline and the
  body obligation.

  After the body at point `t` (row tile `t / 16`, column tile `t % 16`) the three scratches hold the running row maximum,
  denominator and numerator over column tiles `0 … t % 16` of the row tile: at a first column the body's result from
  freshly reset scratches, otherwise its result from what the point before left.  The output buffer holds the finished
  block after a last column and is not consulted elsewhere.  Everything is stated at a parameter `V`: what the
  TensorCore's buffers hold when the region is entered.
-/
import proofs.«121306_j85255100825818_2_alg».proof.Proof.Gen.Kernel.Launch
import proofs.«121306_j85255100825818_2_alg».proof.Proof.Gen.Kernel.Skeleton
import proofs.«121306_j85255100825818_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.BSmRunFirst
import proofs.«121306_j85255100825818_2_alg».proof.Proof.BSmRunMid
import proofs.«121306_j85255100825818_2_alg».proof.Proof.BSmRunLast
set_option maxRecDepth 16384

noncomputable section

namespace Cert.Kernel.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three case runs at point `t`'s buffers. -/
abbrev firstAt (c : Dev nD) (t : Fin cfg1.N) (hA : atFirst (grid1.coords t)) (hB : ¬atLast (grid1.coords t))
    (s : Vec F S1024x512 .f32) (h : Vec F S8192x512 .bf16) (lw : Vec F S512x512 .bf16) :=
  runFirst (F := F) c (grid1.coords t) (ms0 t) (hs0 t) (ms1 t) (hs1 t) (ms2 t) (hs2 t) (ms3 t) (hs3 t) scMax (Memref.isWhole_whole _) scDen (Memref.isWhole_whole _) scNum (Memref.isWhole_whole _) hA hB s h lw
abbrev midAt (c : Dev nD) (t : Fin cfg1.N) (hA : ¬atFirst (grid1.coords t)) (hB : ¬atLast (grid1.coords t))
    (s : Vec F S1024x512 .f32) (h : Vec F S8192x512 .bf16) (lw : Vec F S512x512 .bf16)
    (mx : Vec F S1024x1 .f32) (dn : Vec F S1024x1 .f32) (nm : Vec F S1024x512 .f32) :=
  runMid (F := F) c (grid1.coords t) (ms0 t) (hs0 t) (ms1 t) (hs1 t) (ms2 t) (hs2 t) (ms3 t) (hs3 t) scMax (Memref.isWhole_whole _) scDen (Memref.isWhole_whole _) scNum (Memref.isWhole_whole _) hA hB s h lw mx dn nm
abbrev lastAt (c : Dev nD) (t : Fin cfg1.N) (hA : ¬atFirst (grid1.coords t)) (hB : atLast (grid1.coords t))
    (s : Vec F S1024x512 .f32) (h : Vec F S8192x512 .bf16) (lw : Vec F S512x512 .bf16)
    (mx : Vec F S1024x1 .f32) (dn : Vec F S1024x1 .f32) (nm : Vec F S1024x512 .f32) :=
  runLast (F := F) c (grid1.coords t) (ms0 t) (hs0 t) (ms1 t) (hs1 t) (ms2 t) (hs2 t) (ms3 t) (hs3 t) scMax (Memref.isWhole_whole _) scDen (Memref.isWhole_whole _) scNum (Memref.isWhole_whole _) hA hB s h lw mx dn nm

/-- A piece list read back over junk, through the output's view and the scratches'. -/
abbrev rdO (L : List (View.Piece (Elt F) S1024x512 .f32)) : Vec F S1024x512 .f32 := VOut.read (Elt F) (VOut.writes (Elt F) VOut.junk L)
abbrev rdM (L : List (View.Piece (Elt F) S1024x1 .f32)) : Vec F S1024x1 .f32 := VMax.read (Elt F) (VMax.writes (Elt F) VMax.junk L)
abbrev rdD (L : List (View.Piece (Elt F) S1024x1 .f32)) : Vec F S1024x1 .f32 := VDen.read (Elt F) (VDen.writes (Elt F) VDen.junk L)
abbrev rdN (L : List (View.Piece (Elt F) S1024x512 .f32)) : Vec F S1024x512 .f32 := VNum.read (Elt F) (VNum.writes (Elt F) VNum.junk L)

/-! ## Each case's pieces cover the buffer they are stored into (every store is of a whole buffer) -/

section Covers
variable (c : Dev nD) (t : Fin cfg1.N) (s : Vec F S1024x512 .f32) (h : Vec F S8192x512 .bf16) (lw : Vec F S512x512 .bf16)
  (mx : Vec F S1024x1 .f32) (dn : Vec F S1024x1 .f32) (nm : Vec F S1024x512 .f32)

theorem first_covM (hA : atFirst (grid1.coords t)) (hB : ¬atLast (grid1.coords t)) (y : S1024x1.Idx) :
    ∃ pc ∈ (firstAt c t hA hB s h lw).2.1, y ∈ pc.1.set :=
  View.cover_of_tiledL (firstAt c t hA hB s h lw).2.1 S1024x1.size (by sl_kernel_rfl) y
theorem first_covD (hA : atFirst (grid1.coords t)) (hB : ¬atLast (grid1.coords t)) (y : S1024x1.Idx) :
    ∃ pc ∈ (firstAt c t hA hB s h lw).2.2.1, y ∈ pc.1.set :=
  View.cover_of_tiledL (firstAt c t hA hB s h lw).2.2.1 S1024x1.size (by sl_kernel_rfl) y
theorem first_covN (hA : atFirst (grid1.coords t)) (hB : ¬atLast (grid1.coords t)) (y : S1024x512.Idx) :
    ∃ pc ∈ (firstAt c t hA hB s h lw).2.2.2.1, y ∈ pc.1.set :=
  View.cover_of_tiledL (firstAt c t hA hB s h lw).2.2.2.1 S1024x512.size (by sl_kernel_rfl) y

theorem mid_covM (hA : ¬atFirst (grid1.coords t)) (hB : ¬atLast (grid1.coords t)) (y : S1024x1.Idx) :
    ∃ pc ∈ (midAt c t hA hB s h lw mx dn nm).2.1, y ∈ pc.1.set :=
  View.cover_of_tiledL (midAt c t hA hB s h lw mx dn nm).2.1 S1024x1.size (by sl_kernel_rfl) y
theorem mid_covD (hA : ¬atFirst (grid1.coords t)) (hB : ¬atLast (grid1.coords t)) (y : S1024x1.Idx) :
    ∃ pc ∈ (midAt c t hA hB s h lw mx dn nm).2.2.1, y ∈ pc.1.set :=
  View.cover_of_tiledL (midAt c t hA hB s h lw mx dn nm).2.2.1 S1024x1.size (by sl_kernel_rfl) y
theorem mid_covN (hA : ¬atFirst (grid1.coords t)) (hB : ¬atLast (grid1.coords t)) (y : S1024x512.Idx) :
    ∃ pc ∈ (midAt c t hA hB s h lw mx dn nm).2.2.2.1, y ∈ pc.1.set :=
  View.cover_of_tiledL (midAt c t hA hB s h lw mx dn nm).2.2.2.1 S1024x512.size (by sl_kernel_rfl) y

theorem last_covO (hA : ¬atFirst (grid1.coords t)) (hB : atLast (grid1.coords t)) (y : S1024x512.Idx) :
    ∃ pc ∈ (lastAt c t hA hB s h lw mx dn nm).1, y ∈ pc.1.set :=
  View.cover_of_tiledL (lastAt c t hA hB s h lw mx dn nm).1 S1024x512.size (by sl_kernel_rfl) y
theorem last_covM (hA : ¬atFirst (grid1.coords t)) (hB : atLast (grid1.coords t)) (y : S1024x1.Idx) :
    ∃ pc ∈ (lastAt c t hA hB s h lw mx dn nm).2.1, y ∈ pc.1.set :=
  View.cover_of_tiledL (lastAt c t hA hB s h lw mx dn nm).2.1 S1024x1.size (by sl_kernel_rfl) y
theorem last_covD (hA : ¬atFirst (grid1.coords t)) (hB : atLast (grid1.coords t)) (y : S1024x1.Idx) :
    ∃ pc ∈ (lastAt c t hA hB s h lw mx dn nm).2.2.1, y ∈ pc.1.set :=
  View.cover_of_tiledL (lastAt c t hA hB s h lw mx dn nm).2.2.1 S1024x1.size (by sl_kernel_rfl) y
theorem last_covN (hA : ¬atFirst (grid1.coords t)) (hB : atLast (grid1.coords t)) (y : S1024x512.Idx) :
    ∃ pc ∈ (lastAt c t hA hB s h lw mx dn nm).2.2.2.1, y ∈ pc.1.set :=
  View.cover_of_tiledL (lastAt c t hA hB s h lw mx dn nm).2.2.2.1 S1024x512.size (by sl_kernel_rfl) y
end Covers

/-! ## What the buffers hold after each point -/

/-- The contents after a point, as a record: the output buffer, then the running maximum, denominator and numerator. -/
structure St (F : FTy → Type) [FloatOps F] where
  out : Vec F S1024x512 .f32
  mx : Vec F S1024x1 .f32
  dn : Vec F S1024x1 .f32
  nm : Vec F S1024x512 .f32

/-- What a first-column point leaves, -/
def stFirst (c : Dev nD) (t : Fin cfg1.N) (hA : atFirst (grid1.coords t)) (hB : ¬atLast (grid1.coords t)) : St F :=
  let r := firstAt c t hA hB (blk V c 0 t) (blk V c 1 t) (blk V c 2 t)
  ⟨rdO r.1, rdM r.2.1, rdD r.2.2.1, rdN r.2.2.2.1⟩
/-- a middle-column point, from what the point before left (`p`), -/
def stMid (c : Dev nD) (t : Fin cfg1.N) (hA : ¬atFirst (grid1.coords t)) (hB : ¬atLast (grid1.coords t)) (p : St F) : St F :=
  let r := midAt c t hA hB (blk V c 0 t) (blk V c 1 t) (blk V c 2 t) p.mx p.dn p.nm
  ⟨rdO r.1, rdM r.2.1, rdD r.2.2.1, rdN r.2.2.2.1⟩
/-- and a last-column point. -/
def stLast (c : Dev nD) (t : Fin cfg1.N) (hA : ¬atFirst (grid1.coords t)) (hB : atLast (grid1.coords t)) (p : St F) : St F :=
  let r := lastAt c t hA hB (blk V c 0 t) (blk V c 1 t) (blk V c 2 t) p.mx p.dn p.nm
  ⟨rdO r.1, rdM r.2.1, rdD r.2.2.1, rdN r.2.2.2.1⟩

/-- The accumulation: the contents after position `n`, the case chosen by the column tile `n % 16`. -/
def stAt (c : Dev nD) : (n : ℕ) → n < cfg1.N → St F
  | 0, hn => stFirst V c ⟨0, hn⟩ ((atFirst_iff ⟨0, hn⟩).mpr (Nat.zero_mod _))
      (fun hb => absurd (show 0 % 16 = 15 from (atLast_iff ⟨0, hn⟩).mp hb) (by decide))
  | n + 1, hn =>
    if h0 : (n + 1) % 16 = 0 then
      if h1 : (n + 1) % 16 = 15 then False.elim (by omega)
      else stFirst V c ⟨n + 1, hn⟩ ((atFirst_iff ⟨n + 1, hn⟩).mpr h0) (fun hb => h1 ((atLast_iff ⟨n + 1, hn⟩).mp hb))
    else
      if h1 : (n + 1) % 16 = 15 then
        stLast V c ⟨n + 1, hn⟩ (fun ha => h0 ((atFirst_iff ⟨n + 1, hn⟩).mp ha)) ((atLast_iff ⟨n + 1, hn⟩).mpr h1)
          (stAt c n (Nat.lt_of_succ_lt hn))
      else
        stMid V c ⟨n + 1, hn⟩ (fun ha => h0 ((atFirst_iff ⟨n + 1, hn⟩).mp ha)) (fun hb => h1 ((atLast_iff ⟨n + 1, hn⟩).mp hb))
          (stAt c n (Nat.lt_of_succ_lt hn))

theorem stAt_first (c : Dev nD) (t : Fin cfg1.N) (h0 : t.val % 16 = 0) (h1 : ¬t.val % 16 = 15) :
    stAt V c t.val t.isLt = stFirst V c t ((atFirst_iff t).mpr h0) (fun hb => h1 ((atLast_iff t).mp hb)) := by
  obtain ⟨n, hn⟩ := t
  cases n with
  | zero => exact rfl
  | succ n => exact (dif_pos h0).trans ((dif_neg h1).trans rfl)

theorem stAt_mid (c : Dev nD) (t : Fin cfg1.N) (h0 : ¬t.val % 16 = 0) (h1 : ¬t.val % 16 = 15) :
    stAt V c t.val t.isLt = stMid V c t (fun ha => h0 ((atFirst_iff t).mp ha)) (fun hb => h1 ((atLast_iff t).mp hb))
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem stAt_last (c : Dev nD) (t : Fin cfg1.N) (h0 : ¬t.val % 16 = 0) (h1 : t.val % 16 = 15) :
    stAt V c t.val t.isLt = stLast V c t (fun ha => h0 ((atFirst_iff t).mp ha)) ((atLast_iff t).mpr h1)
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant -/

/-- Before position `n`: before the first point the class's invariant (every scoped buffer that is no staging buffer at
    anything, the generator register at some state); afterwards the same with the three scratches at what the point
    before left. -/
def Inv (c : Dev nD) : (n : ℕ) → n ≤ cfg1.N → sProp 𝕄
  | 0, _ => Pipeline.ΦA spec1 c
  | n + 1, hn => iprop(iprop(others c ∗ owns (c : Thread nD τ) scMax fullShare (stAt V c n hn).mx
      ∗ owns (c : Thread nD τ) scDen fullShare (stAt V c n hn).dn ∗ owns (c : Thread nD τ) scNum fullShare (stAt V c n hn).nm)
      ∗ (∃ r, prngReg c r))

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop(iprop(others c ∗ owns (c : Thread nD τ) scMax fullShare (stAt V c n hn).mx
      ∗ owns (c : Thread nD τ) scDen fullShare (stAt V c n hn).dn ∗ owns (c : Thread nD τ) scNum fullShare (stAt V c n hn).nm)
      ∗ (∃ r, prngReg c r)) := rfl
theorem Inv_pos (c : Dev nD) (n : ℕ) (h : n ≤ cfg1.N) (hz : n ≠ 0) :
    Inv V c n h = iprop(iprop(others c ∗ owns (c : Thread nD τ) scMax fullShare (stAt V c (n - 1) (by omega)).mx
      ∗ owns (c : Thread nD τ) scDen fullShare (stAt V c (n - 1) (by omega)).dn
      ∗ owns (c : Thread nD τ) scNum fullShare (stAt V c (n - 1) (by omega)).nm)
      ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (stAt V c t.val t.isLt).out
  Φ t := Inv V c t.val (Nat.le_of_lt_succ t.isLt)
  q _ := fullShare
  owed _ := 0

theorem dat_A (c : Dev nD) (w : Fin cfg1.W) : (dat V c).A w = V c (Pipeline.arrRef spec1 w) := by
  dsimp only [dat]
theorem Inv_castSucc (c : Dev nD) (t : Fin cfg1.N) :
    (dat V c).Φ t.castSucc = Inv V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = (stAt V c t.val t.isLt).out := by dsimp only [dat]

theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

end Cert.Kernel.Sm

end
-- ==== Proof.BSmSound.lean ====
/-
  The streaming-softmax kernel's body obligation: at every grid point the body, run on what the pipeline hands it and on
  the scratches as the invariant holds them, returns what the proof data say — the three cases of the column tile.
-/
import proofs.«121306_j85255100825818_2_alg».proof.Proof.Gen.Kernel.Launch
import proofs.«121306_j85255100825818_2_alg».proof.Proof.Gen.Kernel.Skeleton
import proofs.«121306_j85255100825818_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.BSmData
set_option maxRecDepth 16384

noncomputable section

namespace Cert.Kernel.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, window by window, -/
def pre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def post (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 8000000 in
/-- The body at any point.  The column tile decides the case.  The invariant hands the body the scratches — at what the
    point before left, or at anything before the very first point; a first-column body does not care — and takes them back
    at this point's contents; the output buffer is handed back as found off the last column and at the finished block on
    it; the core owes nothing throughout. -/
theorem sound (c : Dev nD) (t : Fin cfg1.N) :
    pre V c t ⊢ wp frame (wpE (defs₀ (F := F)) Variants.none c none) Set.univ (bodyAt1 t) (fun _ => post V c t) := by
  unfold pre post bodyAt1
  simp only [before_0, before_1, before_2]
  rw [show (dat V c).owesAt () t.succ = (dat V c).owesAt () t.castSucc from rfl]
  rw [show (dat V c).Φ t.succ = Inv V c (t.val + 1) t.isLt from rfl, Inv_succ]
  have hN : t.val < 128 := lt_of_lt_of_eq t.isLt (show cfg1.N = 128 from N_1)
  rw [show (dat V c).leavesExact 0 t = owns (c : Thread nD τ) (ms0 t) fullShare ((dat V c).after 0 t) from by
        unfold Dat.leavesExact; rw [live_0 t], after_0]
  rw [show (dat V c).leavesExact 1 t = owns (c : Thread nD τ) (ms1 t) fullShare ((dat V c).after 1 t) from by
        unfold Dat.leavesExact; rw [live_1 t], after_1]
  rw [show (dat V c).leavesExact 2 t = owns (c : Thread nD τ) (ms2 t) fullShare ((dat V c).after 2 t) from by
        unfold Dat.leavesExact; rw [live_2 t], after_2]
  by_cases h0 : t.val % 16 = 0
  · have h1 : ¬t.val % 16 = 15 := by omega
    have hA : atFirst (grid1.coords t) := (atFirst_iff t).mpr h0
    have hB : ¬atLast (grid1.coords t) := fun hb => h1 ((atLast_iff t).mp hb)
    rw [Dat.leavesExact_idle (dat V c) 3 t (idle_3 t hB) (noFlush_3 t hB)]
    rw [stAt_first V c t h0 h1]
    unfold stFirst; (try dsimp only)
    by_cases hz : t.val = 0
    · rw [Inv_castSucc V c t, Inv_zero V c _ _ hz]; unfold Pipeline.ΦA
      iintro ⟨⟨Hrest, Hg⟩, Ho, ⟨%d0, H0⟩, ⟨%d1, H1⟩, ⟨%d2, H2⟩, ⟨%d3, H3⟩⟩
      ihave Hs := rest_split c $$ Hrest
      icases Hs with ⟨Hoth, HM, HD, HN⟩
      iapply ((firstAt c t hA hB (blk V c 0 t) (blk V c 1 t) (blk V c 2 t)).2.2.2.2 _ Set.univ _)
      isplitl [H0]; · iexact H0
      isplitl [H1]; · iexact H1
      isplitl [H2]; · iexact H2
      isplitl [H3]; · iexact H3
      isplitl [HM]; · iexact HM
      isplitl [HD]; · iexact HD
      isplitl [HN]; · iexact HN
      iintro ⟨H0, H1, H2, H3, ⟨%eM, HM⟩, ⟨%eD, HD⟩, ⟨%eN, HN⟩⟩
      isplitl [Hoth HM HD HN Hg]
      · isplitl [Hoth HM HD HN]
        · isplitl [Hoth]; · iexact Hoth
          isplitl [HM]
          · unfold owns; iexists _; isplitr
            swap; · iexact HM
            ipureintro; exact View.read_writes_of_cover _ _ _ _ _ (first_covM c t _ _ _ hA hB)
          isplitl [HD]
          · unfold owns; iexists _; isplitr
            swap; · iexact HD
            ipureintro; exact View.read_writes_of_cover _ _ _ _ _ (first_covD c t _ _ _ hA hB)
          unfold owns; iexists _; isplitr
          swap; · iexact HN
          ipureintro; exact View.read_writes_of_cover _ _ _ _ _ (first_covN c t _ _ _ hA hB)
        iexact Hg
      isplitl [Ho]; · iexact Ho
      isplitl [H0]; · iexact H0
      isplitl [H1]; · iexact H1
      isplitl [H2]; · iexact H2
      iexists _; iexact H3
    · rw [Inv_castSucc V c t, Inv_pos V c _ _ hz]
      iintro ⟨⟨⟨Hoth, HM, HD, HN⟩, Hg⟩, Ho, ⟨%d0, H0⟩, ⟨%d1, H1⟩, ⟨%d2, H2⟩, ⟨%d3, H3⟩⟩
      iapply ((firstAt c t hA hB (blk V c 0 t) (blk V c 1 t) (blk V c 2 t)).2.2.2.2 _ Set.univ _)
      isplitl [H0]; · iexact H0
      isplitl [H1]; · iexact H1
      isplitl [H2]; · iexact H2
      isplitl [H3]; · iexact H3
      isplitl [HM]; · iexists _; iexact HM
      isplitl [HD]; · iexists _; iexact HD
      isplitl [HN]; · iexists _; iexact HN
      iintro ⟨H0, H1, H2, H3, ⟨%eM, HM⟩, ⟨%eD, HD⟩, ⟨%eN, HN⟩⟩
      isplitl [Hoth HM HD HN Hg]
      · isplitl [Hoth HM HD HN]
        · isplitl [Hoth]; · iexact Hoth
          isplitl [HM]
          · unfold owns; iexists _; isplitr
            swap; · iexact HM
            ipureintro; exact View.read_writes_of_cover _ _ _ _ _ (first_covM c t _ _ _ hA hB)
          isplitl [HD]
          · unfold owns; iexists _; isplitr
            swap; · iexact HD
            ipureintro; exact View.read_writes_of_cover _ _ _ _ _ (first_covD c t _ _ _ hA hB)
          unfold owns; iexists _; isplitr
          swap; · iexact HN
          ipureintro; exact View.read_writes_of_cover _ _ _ _ _ (first_covN c t _ _ _ hA hB)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hA : ¬atFirst (grid1.coords t) := fun ha => h0 ((atFirst_iff t).mp ha)
    by_cases h1 : t.val % 16 = 15
    · have hB : atLast (grid1.coords t) := (atLast_iff t).mpr h1
      rw [show (dat V c).leavesExact 3 t = owns (c : Thread nD τ) (ms3 t) fullShare ((dat V c).after 3 t) from by
        unfold Dat.leavesExact; rw [live_3 t hB], after_3]
      rw [stAt_last V c t h0 h1]
      unfold stLast; (try dsimp only)
      rw [Inv_castSucc V c t, Inv_pos V c _ _ hz]
      iintro ⟨⟨⟨Hoth, HM, HD, HN⟩, Hg⟩, Ho, ⟨%d0, H0⟩, ⟨%d1, H1⟩, ⟨%d2, H2⟩, ⟨%d3, H3⟩⟩
      iapply ((lastAt c t hA hB (blk V c 0 t) (blk V c 1 t) (blk V c 2 t) _ _ _).2.2.2.2 Set.univ _)
      isplitl [H0]; · iexact H0
      isplitl [H1]; · iexact H1
      isplitl [H2]; · iexact H2
      isplitl [H3]; · iexists _; iexact H3
      isplitl [HM]; · iexact HM
      isplitl [HD]; · iexact HD
      isplitl [HN]; · iexact HN
      iintro ⟨H0, H1, H2, ⟨%e3, H3⟩, ⟨%eM, HM⟩, ⟨%eD, HD⟩, ⟨%eN, HN⟩⟩
      isplitl [Hoth HM HD HN Hg]
      · isplitl [Hoth HM HD HN]
        · isplitl [Hoth]; · iexact Hoth
          isplitl [HM]
          · unfold owns; iexists _; isplitr
            swap; · iexact HM
            ipureintro; exact View.read_writes_of_cover _ _ _ _ _ (last_covM c t _ _ _ _ _ _ hA hB)
          isplitl [HD]
          · unfold owns; iexists _; isplitr
            swap; · iexact HD
            ipureintro; exact View.read_writes_of_cover _ _ _ _ _ (last_covD c t _ _ _ _ _ _ hA hB)
          unfold owns; iexists _; isplitr
          swap; · iexact HN
          ipureintro; exact View.read_writes_of_cover _ _ _ _ _ (last_covN c t _ _ _ _ _ _ hA hB)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (last_covO c t _ _ _ _ _ _ hA hB)
    · have hB : ¬atLast (grid1.coords t) := fun hb => h1 ((atLast_iff t).mp hb)
      rw [Dat.leavesExact_idle (dat V c) 3 t (idle_3 t hB) (noFlush_3 t hB)]
      rw [stAt_mid V c t h0 h1]
      unfold stMid; (try dsimp only)
      rw [Inv_castSucc V c t, Inv_pos V c _ _ hz]
      iintro ⟨⟨⟨Hoth, HM, HD, HN⟩, Hg⟩, Ho, ⟨%d0, H0⟩, ⟨%d1, H1⟩, ⟨%d2, H2⟩, ⟨%d3, H3⟩⟩
      iapply ((midAt c t hA hB (blk V c 0 t) (blk V c 1 t) (blk V c 2 t) _ _ _).2.2.2.2 _ Set.univ _)
      isplitl [H0]; · iexact H0
      isplitl [H1]; · iexact H1
      isplitl [H2]; · iexact H2
      isplitl [H3]; · iexact H3
      isplitl [HM]; · iexact HM
      isplitl [HD]; · iexact HD
      isplitl [HN]; · iexact HN
      iintro ⟨H0, H1, H2, H3, ⟨%eM, HM⟩, ⟨%eD, HD⟩, ⟨%eN, HN⟩⟩
      isplitl [Hoth HM HD HN Hg]
      · isplitl [Hoth HM HD HN]
        · isplitl [Hoth]; · iexact Hoth
          isplitl [HM]
          · unfold owns; iexists _; isplitr
            swap; · iexact HM
            ipureintro; exact View.read_writes_of_cover _ _ _ _ _ (mid_covM c t _ _ _ _ _ _ hA hB)
          isplitl [HD]
          · unfold owns; iexists _; isplitr
            swap; · iexact HD
            ipureintro; exact View.read_writes_of_cover _ _ _ _ _ (mid_covD c t _ _ _ _ _ _ hA hB)
          unfold owns; iexists _; isplitr
          swap; · iexact HN
          ipureintro; exact View.read_writes_of_cover _ _ _ _ _ (mid_covN c t _ _ _ _ _ _ hA hB)
        iexact Hg
      isplitl [Ho]; · iexact Ho
      isplitl [H0]; · iexact H0
      isplitl [H1]; · iexact H1
      isplitl [H2]; · iexact H2
      iexists _; iexact H3

/-- The pipeline library's body obligation, at every point. -/
theorem obligation (c : Dev nD) : BodyObligation (dat (F := F) V c) (defs₀ (F := F)) Variants.none () Set.univ := fun t => by
  rw [bigSep_W1, bigSep_W1]
  exact sound V c t

/-- What the launch hands the region is the invariant before the first point, -/
theorem inv_in (c : Dev nD) : Pipeline.ΦA spec1 c ⊢ (dat V c).Φ 0 := by
  rw [show (dat V c).Φ 0 = Inv V c 0 (Nat.zero_le _) from rfl, Inv_zero V c 0 _ rfl]
  try exact Idealize.SL.BI.Entails.refl _

/-- and after the last point the invariant gives it back, the scratches' contents forgotten. -/
theorem inv_out (c : Dev nD) : (dat V c).Φ (Fin.last cfg1.N) ⊢ Pipeline.ΦA spec1 c := by
  have hne : (Fin.last cfg1.N).val ≠ 0 := by rw [Fin.val_last]; have : cfg1.N = 128 := N_1; omega
  rw [show (dat V c).Φ (Fin.last cfg1.N) = Inv V c (Fin.last cfg1.N).val (Nat.le_of_lt_succ (Fin.last cfg1.N).isLt) from rfl,
    Inv_pos V c _ _ hne]
  unfold Pipeline.ΦA
  iintro ⟨⟨Hoth, HM, HD, HN⟩, Hg⟩
  isplitl [Hoth HM HD HN]
  · iapply (rest_join c)
    isplitl [Hoth]; · iexact Hoth
    isplitl [HM]; · iexists _; iexact HM
    isplitl [HD]; · iexists _; iexact HD
    iexists _; iexact HN
  iexact Hg

end Cert.Kernel.Sm

end
-- ==== Proof.BKRun.lean ====
/-
  The whole program's run: the transpose of the weight, the projection kernel, the host lines that build the dense logit
  matrix (slices of the edge list, index wrap-around, a gather of the per-node logits, a scatter-add into zeros) and
  transpose and round the output weight, then the streaming-softmax kernel.

  The buffer contents at each boundary are a fold from the launch memory: a host stretch applies its operations; a kernel
  region leaves each of its arrays at what its write-backs leave and every other buffer alone.  The run ends with EVERY
  unscoped buffer at the last boundary's contents; the frame (no line and no kernel writes an argument) and the value of
  the result buffer are both read off that.
-/
import proofs.«121306_j85255100825818_2_alg».proof.Proof.Gen.Kernel.Launch
import proofs.«121306_j85255100825818_2_alg».proof.Proof.Gen.Kernel.Skeleton
import proofs.«121306_j85255100825818_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.Gen.Kernel.Regions
import proofs.«121306_j85255100825818_2_alg».proof.Proof.BProjData
import proofs.«121306_j85255100825818_2_alg».proof.Proof.BSmSound
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Gen (hostOps0_fresh hostOps1_fresh hostOps0_writes hostOps1_writes hostOps0_W hostOps1_W)

variable (m : (ℓ : Loc nD τ sig) → Buf (Elt F) ℓ) (ρ : Dev nD → PrngReg)

/-! ## The buffer contents at each boundary -/

/-- At launch; after the transpose of the weight (the projection kernel's entry); -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the projection kernel's exit: its arrays at what the pipeline leaves, every other buffer as entered; -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0 (c : Dev nD) (w : Fin cfg0.W) : (Proj.dat (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- after the host lines between the kernels (the softmax kernel's entry); -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- at the softmax kernel's exit. -/
def W4 (c : Dev nD) : Valuation τ sig (Elt F) :=
  Pipeline.withArrays spec1 c (W3 m ρ c) fun w => (Sm.dat (V3 m ρ) c).arrAt w cfg1.N
theorem W4_arr (c : Dev nD) (w : Fin cfg1.W) :
    W4 m ρ c (Proc.devRef .tc (Pipeline.arrRef spec1 w)) = (Sm.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem left1 (c : Dev nD) (w : Fin cfg1.W) : (Sm.dat (V3 m ρ) c).arrAt w cfg1.N = V4 m ρ c (Pipeline.arrRef spec1 w) :=
  (W4_arr m ρ c w).symm
theorem kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No line and no kernel writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((Proj.dat (V1 m ρ) c).arrAt_in 0 rfl _).trans (Proj.dat_A (V1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((Proj.dat (V1 m ρ) c).arrAt_in 2 rfl _).trans (Proj.dat_A (V1 m ρ) c 2))
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
/-- Each pipeline's proof data at its region's entry contents: a literal match on the pipeline's number. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Sm.dat (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (W4 m ρ c) ∗ ∃ r, prngReg c r)

/-! ## The regions' records -/

set_option backward.isDefEq.respectTransparency.types false in
/-- Region 0 over the thread state: entered with every unscoped buffer at the boundary's contents, its arrays split out
    and put back at what the write-backs leave; the generator register goes into the invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.obligation (V1 m ρ) c).loose
  hwaits := Pipeline.hwaits_of_owed_zero _ _ _ _ L lv 0 fun _ _ => rfl
  pre c := iprop(StableHlo.held (c : Thread nD τ) (Pipeline.ucRefs τ sig) (W1 m ρ c) ∗ Rd c)
  post c := iprop(StableHlo.held (c : Thread nD τ) (Pipeline.ucRefs τ sig) (W2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, its arrays split out
    and put back at what the write-backs leave; the generator register goes into the invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Sm.obligation (V3 m ρ) c).loose
  hwaits := Pipeline.hwaits_of_owed_zero _ _ _ _ L lv 1 fun _ _ => rfl
  pre c := iprop(StableHlo.held (c : Thread nD τ) (Pipeline.ucRefs τ sig) (W3 m ρ c) ∗ Rd c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (Sm.dat (V3 m ρ) c).Φ (Fin.last cfg1.N) from rfl]
    have hback := Sm.inv_out (V3 m ρ) c
    unfold Pipeline.ΦA at hback
    iintro Hinv
    ihave H := hback $$ Hinv
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, and every final state
    has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rd c)) (Tₙ := Tn m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any float instance: the run terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Run

end
-- ==== Proof.RefOps.lean ====
import proofs.«121306_j85255100825818_2_alg».proof.Proof.Gen.ReferenceIdeal
import Idealize.ShloMosaic.Lib.StableHlo.Run

/-! The reference program's @main as a list of host operations.

@main is two windows. The first is fifty-nine operations of its own around one call of the
leaky-ReLU function; the second is one call of the ELU function. A call executes the callee's body on
the call's own buffers, so its operations are listed at the call site over that call's buffer
record: the leaky-ReLU's six and the select of the `where` function it calls; the ELU's eleven and the
four of the two `where` functions it calls. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's eighty-one operations, in order, the calls unfolded: nine of its own, the leaky-ReLU call's
    seven, fifty more of its own (these sixty-six are the first window), then the ELU call's fifteen
    (the second window). -/
abbrev ops : List (HloOp τ sig (Elt F)) :=
  [ StableHlo.unary main_arg2 main_v0 ((transpose S256x512 [1, 0] · transposes_S512x256_S256x512_1_0) : (⟨S512x256, .f32⟩ : BufTy).Contents (Elt F) → (⟨S256x512, .f32⟩ : BufTy).Contents (Elt F)),
    StableHlo.binary main_arg0 main_v0 main_v1 ((fun l r => Host.dotGeneral dot_S8192x256_S256x512_S8192x512_1_0_0_1_n_n none l r) : (⟨S8192x256, .f32⟩ : BufTy).Contents (Elt F) → (⟨S256x512, .f32⟩ : BufTy).Contents (Elt F) → (⟨S8192x512, .f32⟩ : BufTy).Contents (Elt F)),
    StableHlo.unary main_arg3 main_v2 ((transpose S512x1 [1, 0] · transposes_S1x512_S512x1_1_0) : (⟨S1x512, .f32⟩ : BufTy).Contents (Elt F) → (⟨S512x1, .f32⟩ : BufTy).Contents (Elt F)),
    StableHlo.binary main_v1 main_v2 main_v3 ((fun l r => Host.dotGeneral dot_S8192x512_S512x1_S8192x1_1_0_0_1_n_n none l r) : (⟨S8192x512, .f32⟩ : BufTy).Contents (Elt F) → (⟨S512x1, .f32⟩ : BufTy).Contents (Elt F) → (⟨S8192x1, .f32⟩ : BufTy).Contents (Elt F)),
    StableHlo.unary main_v3 main_v4 (broadcastInDim S8192x512 ![0, 1] bcast_S8192x1_S8192x512_0_1 : (⟨S8192x1, .f32⟩ : BufTy).Contents (Elt F) → (⟨S8192x512, .f32⟩ : BufTy).Contents (Elt F)),
    StableHlo.binary main_v1 main_v4 main_v5 (mulf : (⟨S8192x512, .f32⟩ : BufTy).Contents (Elt F) → (⟨S8192x512, .f32⟩ : BufTy).Contents (Elt F) → (⟨S8192x512, .f32⟩ : BufTy).Contents (Elt F)),
    StableHlo.nullary main_cst (constant S_ .f32 0x00000000#32),
    StableHlo.binary main_v5 main_cst main_v6 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.nullary main_cst_0 (constant S_ .f32 0x3E4CCCCD#32),
    StableHlo.TRef.nullary main_call0.cst (constant S_ .f32 0x00000000#32),
    StableHlo.TRef.unary main_call0.cst main_call0.v0 (broadcastInDim S8192 ![] bcast_S_S8192),
    StableHlo.TRef.binary (.of main_v6 : StableHlo.TRef sig ⟨S8192, .f32⟩) main_call0.v0 main_call0.v1 (cmpf .oge),
    StableHlo.TRef.unary (.of main_cst_0 : StableHlo.TRef sig ⟨S_, .f32⟩) main_call0.v2 id,
    StableHlo.TRef.unary main_call0.v2 main_call0.v3 (broadcastInDim S8192 ![] bcast_S_S8192),
    StableHlo.TRef.binary main_call0.v3 (.of main_v6 : StableHlo.TRef sig ⟨S8192, .f32⟩) main_call0.v4 mulf,
    StableHlo.TRef.ternary main_call0.v1 (.of main_v6 : StableHlo.TRef sig ⟨S8192, .f32⟩) main_call0.v4 main_call0.call0.v0 select,
    StableHlo.unary main_arg1 main_v8 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v8 main_v9 rfl shapeCasts_S1x262144_S262144,
    StableHlo.unary main_arg1 main_v10 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v10 main_v11 rfl shapeCasts_S1x262144_S262144,
    StableHlo.nullary main_cst_1 (constant S_ .f32 0x00000000#32),
    StableHlo.unary main_cst_1 main_v12 (broadcastInDim S8192x8192 ![] bcast_S_S8192x8192 : (⟨S_, .f32⟩ : BufTy).Contents (Elt F) → (⟨S8192x8192, .f32⟩ : BufTy).Contents (Elt F)),
    StableHlo.nullary main_c (constantI S_ 32 0#32),
    StableHlo.unary main_c main_v13 (broadcastInDim S262144 ![] bcast_S_S262144 : (⟨S_, .i32⟩ : BufTy).Contents (Elt F) → (⟨S262144, .i32⟩ : BufTy).Contents (Elt F)),
    StableHlo.binary main_v9 main_v13 main_v14 (cmpi .slt : (⟨S262144, .i32⟩ : BufTy).Contents (Elt F) → (⟨S262144, .i32⟩ : BufTy).Contents (Elt F) → (⟨S262144, .i1⟩ : BufTy).Contents (Elt F)),
    StableHlo.nullary main_c_2 (constantI S_ 32 8192#32),
    StableHlo.unary main_c_2 main_v15 (broadcastInDim S262144 ![] bcast_S_S262144 : (⟨S_, .i32⟩ : BufTy).Contents (Elt F) → (⟨S262144, .i32⟩ : BufTy).Contents (Elt F)),
    StableHlo.binary main_v9 main_v15 main_v16 (addi : (⟨S262144, .i32⟩ : BufTy).Contents (Elt F) → (⟨S262144, .i32⟩ : BufTy).Contents (Elt F) → (⟨S262144, .i32⟩ : BufTy).Contents (Elt F)),
    StableHlo.ternary main_v14 main_v16 main_v9 main_v17 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v17 main_v18 (broadcastInDim S262144x1 ![0] bcast_S262144_S262144x1_0 : (⟨S262144, .i32⟩ : BufTy).Contents (Elt F) → (⟨S262144x1, .i32⟩ : BufTy).Contents (Elt F)),
    StableHlo.binary main_v7 main_v18 main_v19 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    StableHlo.nullary main_c_3 (constantI S_ 32 0#32),
    StableHlo.unary main_c_3 main_v20 (broadcastInDim S262144 ![] bcast_S_S262144 : (⟨S_, .i32⟩ : BufTy).Contents (Elt F) → (⟨S262144, .i32⟩ : BufTy).Contents (Elt F)),
    StableHlo.binary main_v9 main_v20 main_v21 (cmpi .slt : (⟨S262144, .i32⟩ : BufTy).Contents (Elt F) → (⟨S262144, .i32⟩ : BufTy).Contents (Elt F) → (⟨S262144, .i1⟩ : BufTy).Contents (Elt F)),
    StableHlo.nullary main_c_4 (constantI S_ 32 8192#32),
    StableHlo.unary main_c_4 main_v22 (broadcastInDim S262144 ![] bcast_S_S262144 : (⟨S_, .i32⟩ : BufTy).Contents (Elt F) → (⟨S262144, .i32⟩ : BufTy).Contents (Elt F)),
    StableHlo.binary main_v9 main_v22 main_v23 (addi : (⟨S262144, .i32⟩ : BufTy).Contents (Elt F) → (⟨S262144, .i32⟩ : BufTy).Contents (Elt F) → (⟨S262144, .i32⟩ : BufTy).Contents (Elt F)),
    StableHlo.ternary main_v21 main_v23 main_v9 main_v24 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_5 (constantI S_ 32 0#32),
    StableHlo.unary main_c_5 main_v25 (broadcastInDim S262144 ![] bcast_S_S262144 : (⟨S_, .i32⟩ : BufTy).Contents (Elt F) → (⟨S262144, .i32⟩ : BufTy).Contents (Elt F)),
    StableHlo.binary main_v11 main_v25 main_v26 (cmpi .slt : (⟨S262144, .i32⟩ : BufTy).Contents (Elt F) → (⟨S262144, .i32⟩ : BufTy).Contents (Elt F) → (⟨S262144, .i1⟩ : BufTy).Contents (Elt F)),
    StableHlo.nullary main_c_6 (constantI S_ 32 8192#32),
    StableHlo.unary main_c_6 main_v27 (broadcastInDim S262144 ![] bcast_S_S262144 : (⟨S_, .i32⟩ : BufTy).Contents (Elt F) → (⟨S262144, .i32⟩ : BufTy).Contents (Elt F)),
    StableHlo.binary main_v11 main_v27 main_v28 (addi : (⟨S262144, .i32⟩ : BufTy).Contents (Elt F) → (⟨S262144, .i32⟩ : BufTy).Contents (Elt F) → (⟨S262144, .i32⟩ : BufTy).Contents (Elt F)),
    StableHlo.ternary main_v26 main_v28 main_v11 main_v29 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v24 main_v30 (broadcastInDim S262144x1 ![0] bcast_S262144_S262144x1_0 : (⟨S262144, .i32⟩ : BufTy).Contents (Elt F) → (⟨S262144x1, .i32⟩ : BufTy).Contents (Elt F)),
    StableHlo.unary main_v29 main_v31 (broadcastInDim S262144x1 ![0] bcast_S262144_S262144x1_0 : (⟨S262144, .i32⟩ : BufTy).Contents (Elt F) → (⟨S262144x1, .i32⟩ : BufTy).Contents (Elt F)),
    StableHlo.binary main_v30 main_v31 main_v32 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    StableHlo.ternary main_v12 main_v32 main_v19 main_v33 ((fun x i u => Host.scatterAdd scatter_S8192x8192_S262144x2_S262144_n_01_01_1 x i u) : (⟨S8192x8192, .f32⟩ : BufTy).Contents (Elt F) → (⟨S262144x2, .i32⟩ : BufTy).Contents (Elt F) → (⟨S262144, .f32⟩ : BufTy).Contents (Elt F) → (⟨S8192x8192, .f32⟩ : BufTy).Contents (Elt F)),
    StableHlo.nullary main_cst_7 (constant S_ .f32 0xFF800000#32),
    StableHlo.binary main_v33 main_cst_7 main_v34 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_8 (constant S_ .f32 0xFF800000#32),
    StableHlo.unary main_cst_8 main_v35 (broadcastInDim S8192 ![] bcast_S_S8192 : (⟨S_, .f32⟩ : BufTy).Contents (Elt F) → (⟨S8192, .f32⟩ : BufTy).Contents (Elt F)),
    StableHlo.binary main_v35 main_v34 main_v36 (maximumf : (⟨S8192, .f32⟩ : BufTy).Contents (Elt F) → (⟨S8192, .f32⟩ : BufTy).Contents (Elt F) → (⟨S8192, .f32⟩ : BufTy).Contents (Elt F)),
    StableHlo.unary main_v36 main_v37 (broadcastInDim S8192x1 ![0] bcast_S8192_S8192x1_0 : (⟨S8192, .f32⟩ : BufTy).Contents (Elt F) → (⟨S8192x1, .f32⟩ : BufTy).Contents (Elt F)),
    StableHlo.unary main_v37 main_v38 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v33 main_v38 main_v39 (subf : (⟨S8192x8192, .f32⟩ : BufTy).Contents (Elt F) → (⟨S8192x8192, .f32⟩ : BufTy).Contents (Elt F) → (⟨S8192x8192, .f32⟩ : BufTy).Contents (Elt F)),
    StableHlo.unary main_v39 main_v40 (Host.exp : (⟨S8192x8192, .f32⟩ : BufTy).Contents (Elt F) → (⟨S8192x8192, .f32⟩ : BufTy).Contents (Elt F)),
    StableHlo.nullary main_cst_9 (constant S_ .f32 0x00000000#32),
    StableHlo.binary main_v40 main_cst_9 main_v41 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v41 main_v42 (broadcastInDim S8192x1 ![0] bcast_S8192_S8192x1_0 : (⟨S8192, .f32⟩ : BufTy).Contents (Elt F) → (⟨S8192x1, .f32⟩ : BufTy).Contents (Elt F)),
    StableHlo.unary main_v42 main_v43 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v40 main_v43 main_v44 (Host.divf : (⟨S8192x8192, .f32⟩ : BufTy).Contents (Elt F) → (⟨S8192x8192, .f32⟩ : BufTy).Contents (Elt F) → (⟨S8192x8192, .f32⟩ : BufTy).Contents (Elt F)),
    StableHlo.binary main_v44 main_v1 main_v45 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    StableHlo.unary main_arg4 main_v46 ((transpose S512x512 [1, 0] · transposes_S512x512_S512x512_1_0) : (⟨S512x512, .f32⟩ : BufTy).Contents (Elt F) → (⟨S512x512, .f32⟩ : BufTy).Contents (Elt F)),
    StableHlo.binary main_v45 main_v46 main_v47 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    StableHlo.TRef.nullary main_call1.cst (constant S_ .f32 0x00000000#32),
    StableHlo.TRef.unary main_call1.cst main_call1.v0 (broadcastInDim S8192x512 ![] bcast_S_S8192x512),
    StableHlo.TRef.binary (.of main_v47 : StableHlo.TRef sig ⟨S8192x512, .f32⟩) main_call1.v0 main_call1.v1 (cmpf .ogt),
    StableHlo.TRef.nullary main_call1.cst_0 (constant S_ .f32 0x00000000#32),
    StableHlo.TRef.unary main_call1.cst_0 main_call1.v2 (broadcastInDim S8192x512 ![] bcast_S_S8192x512),
    StableHlo.TRef.binary (.of main_v47 : StableHlo.TRef sig ⟨S8192x512, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S8192x512 ![] bcast_S_S8192x512),
    StableHlo.TRef.ternary main_call1.v3 main_call1.call0.v1 (.of main_v47 : StableHlo.TRef sig ⟨S8192x512, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S8192x512 ![] bcast_S_S8192x512),
    StableHlo.TRef.binary main_call1.v6 main_call1.v5 main_call1.v7 mulf,
    StableHlo.TRef.ternary main_call1.v1 (.of main_v47 : StableHlo.TRef sig ⟨S8192x512, .f32⟩) main_call1.v7 main_call1.call1.v0 select ]

set_option maxRecDepth 16384 in
/-- The first window is the sequence of the first sixty-six operations: sequencing in the free monad
    grafts the continuation onto each leaf by computation, so the window, with the callee's body at
    its call, and the sequence of the list unfold to the same chain of operation steps. -/
theorem part0_eq (c : Dev nD) : main_part0 (F := F) c = seq (ops.take 66) := rfl

set_option maxRecDepth 16384 in
/-- The second window is the sequence of the last fifteen operations, for the same reason. -/
theorem part1_eq (c : Dev nD) : main_part1 (F := F) c = seq (ops.drop 66) := rfl

/-- @main is that straight line: its two windows one after the other are the two parts of the list
    run one after the other, which is the whole list run as one. -/
theorem main_eq (c : Dev nD) : main (F := F) c = seq ops :=
  calc main (F := F) c = (main_part0 (F := F) c >>= fun _ => main_part1 (F := F) c) := rfl
    _ = (seq (ops.take 66) >>= fun _ => seq (ops.drop 66)) := by rw [part0_eq c, part1_eq c]
    _ = seq (ops.take 66 ++ ops.drop 66) := (seq_append _ _).symm
    _ = seq ops := by rw [List.take_append_drop]

/-- The signature scopes no buffer. -/
theorem scopedRefs_eq : (Finset.univ.filter fun b : Ref sig .tc => b.isScoped) = ∅ := by decide
/-- The signature has no semaphore, so scopes none. -/
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨unary_bufs_sub .., binary_bufs_sub .., unary_bufs_sub .., binary_bufs_sub .., unary_bufs_sub .., binary_bufs_sub ..,
    nullary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., reshape_bufs_sub ..,
    unary_bufs_sub .., reshape_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    ternary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

end Cert.ReferenceIdeal.RefRun

end
-- ==== Proof.RefDefs.lean ====
import proofs.«121306_j85255100825818_2_alg».proof.ReferenceIdeal
import Idealize.ShloMosaic.PureOps.Ideal

noncomputable section

namespace Cert.ReferenceIdeal.RefRun

open Cert.ReferenceIdeal Idealize.ShloMosaic
open Cert.ReferenceIdeal.Facts₀

variable [Facts₀]

/-! ## The reference's result as a composition of named stages (at the ideal instance)

Each stage is the printed operations of one part of @main composed as a pure function of the
arrays that part reads; `out` is their composition over the five argument arrays. A value the
program names several times (the projected features, the shifted exponentials) is a stage of
its own, so that each is written once. -/

/-- The scalar constant `0.0`. -/
def zeroS : FVec Ideal S_ .f32 := constant (F := Ideal) S_ .f32 0x00000000#32

/-- The projected features: `x` times the transpose of `W` (one row per node). -/
def hR (x : FVec Ideal S8192x256 .f32) (W : FVec Ideal S512x256 .f32) : FVec Ideal S8192x512 .f32 :=
  Host.dotGeneral (F := Ideal) dot_S8192x256_S256x512_S8192x512_1_0_0_1_n_n none x
    (transpose S256x512 [1, 0] W transposes_S512x256_S256x512_1_0)

/-- Leaky ReLU with slope `0.2`, elementwise: `z` where `z ≥ 0`, else `0.2 · z`. -/
def leakyR (z : FVec Ideal S8192 .f32) : FVec Ideal S8192 .f32 :=
  select (cmpf .oge z (broadcastInDim S8192 ![] bcast_S_S8192 zeroS)) z
    (mulf (broadcastInDim S8192 ![] bcast_S_S8192 (constant (F := Ideal) S_ .f32 0x3E4CCCCD#32)) z)

/-- The per-node attention score: the row sum of `h` times the broadcast of `h · aᵀ`, through the
    leaky ReLU. -/
def alphaR (h : FVec Ideal S8192x512 .f32) (a : FVec Ideal S1x512 .f32) : FVec Ideal S8192 .f32 :=
  leakyR (Host.reduceAdd (F := Ideal)
    (mulf h (broadcastInDim S8192x512 ![0, 1] bcast_S8192x1_S8192x512_0_1
      (Host.dotGeneral (F := Ideal) dot_S8192x512_S512x1_S8192x1_1_0_0_1_n_n none h
        (transpose S512x1 [1, 0] a transposes_S1x512_S512x1_1_0))))
    zeroS reducesTo_S8192x512_S8192_d1 h_S_)

/-- Row 0 of the edge table, as a vector. -/
def row0 (e : IVec S2x262144 32) : IVec S262144 32 :=
  shapeCast S262144 (extractStridedSlice S1x262144 ![0, 0] e slices_S2x262144_S1x262144_0_0) shapeCasts_S1x262144_S262144

/-- Row 1 of the edge table, as a vector. -/
def row1 (e : IVec S2x262144 32) : IVec S262144 32 :=
  shapeCast S262144 (extractStridedSlice S1x262144 ![1, 0] e slices_S2x262144_S1x262144_1_0) shapeCasts_S1x262144_S262144

/-- A negative index counted from the end: `v + 8192` where `v < 0` (signed), else `v`. -/
def wrapIdx (v : IVec S262144 32) : IVec S262144 32 :=
  select (cmpi .slt v (broadcastInDim S262144 ![] bcast_S_S262144 (constantI S_ 32 0#32)))
    (addi v (broadcastInDim S262144 ![] bcast_S_S262144 (constantI S_ 32 8192#32))) v

/-- A vector of indices as a one-column index table. -/
def colIdx (v : IVec S262144 32) : IVec S262144x1 32 :=
  broadcastInDim S262144x1 ![0] bcast_S262144_S262144x1_0 v

/-- The dense logits: into the zero matrix, at each edge's (row 0, row 1) position, the sum of the
    scores gathered at the edge's row-0 index. -/
def logits (e : IVec S2x262144 32) (alpha : FVec Ideal S8192 .f32) : FVec Ideal S8192x8192 .f32 :=
  Host.scatterAdd (F := Ideal) scatter_S8192x8192_S262144x2_S262144_n_01_01_1
    (broadcastInDim S8192x8192 ![] bcast_S_S8192x8192 zeroS)
    (concatenate S262144x2 1 [⟨S262144x1, colIdx (wrapIdx (row0 e))⟩, ⟨S262144x1, colIdx (wrapIdx (row1 e))⟩]
      concatenates_S262144x1_S262144x1_S262144x2_d1)
    (Host.gather gather_S8192_S262144x1_S262144_n_0_n_n_0_1_1 alpha (colIdx (wrapIdx (row0 e))))

/-- The scalar constant `-∞`. -/
def negInfS : FVec Ideal S_ .f32 := constant (F := Ideal) S_ .f32 0xFF800000#32

/-- A vector of per-row values as a full matrix constant along each row. -/
def rowBcast (v : FVec Ideal S8192 .f32) : FVec Ideal S8192x8192 .f32 :=
  broadcastInDim S8192x8192 ![0, 1] bcast_S8192x1_S8192x8192_0_1 (broadcastInDim S8192x1 ![0] bcast_S8192_S8192x1_0 v)

/-- The row maxima (the reduction from `-∞`, then the maximum with `-∞` once more). -/
def rowMax (S : FVec Ideal S8192x8192 .f32) : FVec Ideal S8192 .f32 :=
  maximumf (broadcastInDim S8192 ![] bcast_S_S8192 negInfS)
    (Host.reduce (FloatOps.maximumf (F := Ideal)) S negInfS reducesTo_S8192x8192_S8192_d1 h_S_)

/-- The exponentials of the entries shifted by their row's maximum. -/
def expS (S : FVec Ideal S8192x8192 .f32) : FVec Ideal S8192x8192 .f32 :=
  Host.exp (F := Ideal) (subf S (rowBcast (rowMax S)))

/-- The row sums of the shifted exponentials. -/
def rowSum (S : FVec Ideal S8192x8192 .f32) : FVec Ideal S8192 .f32 :=
  Host.reduceAdd (F := Ideal) (expS S) zeroS reducesTo_S8192x8192_S8192_d1 h_S_

/-- The row-wise softmax of `S` times `h`. -/
def soft (S : FVec Ideal S8192x8192 .f32) (h : FVec Ideal S8192x512 .f32) : FVec Ideal S8192x512 .f32 :=
  Host.dotGeneral (F := Ideal) dot_S8192x8192_S8192x512_S8192x512_1_0_0_1_n_n none
    (Host.divf (F := Ideal) (expS S) (rowBcast (rowSum S))) h

/-- The zero matrix of the output's shape. -/
def zeroM : FVec Ideal S8192x512 .f32 := broadcastInDim S8192x512 ![] bcast_S_S8192x512 zeroS

/-- ELU, elementwise: `z` where `z > 0`, else `1.0 · (exp(z') − 1)` at `z' = 0` where `z > 0`, else `z`. -/
def eluR (z : FVec Ideal S8192x512 .f32) : FVec Ideal S8192x512 .f32 :=
  select (cmpf .ogt z zeroM) z
    (mulf (broadcastInDim S8192x512 ![] bcast_S_S8192x512 (constant (F := Ideal) S_ .f32 0x3F800000#32))
      (Host.expm1 (F := Ideal) (select (cmpf .ogt z zeroM) zeroM z)))

/-- The output layer: `o` times the transpose of `lw`, through the ELU. -/
def tail (o : FVec Ideal S8192x512 .f32) (lw : FVec Ideal S512x512 .f32) : FVec Ideal S8192x512 .f32 :=
  eluR (Host.dotGeneral (F := Ideal) dot_S8192x512_S512x512_S8192x512_1_0_0_1_n_n none o
    (transpose S512x512 [1, 0] lw transposes_S512x512_S512x512_1_0))

/-- The reference's result as one function of its five argument arrays. -/
def out (x : FVec Ideal S8192x256 .f32) (e : IVec S2x262144 32) (W : FVec Ideal S512x256 .f32)
    (a : FVec Ideal S1x512 .f32) (lw : FVec Ideal S512x512 .f32) : FVec Ideal S8192x512 .f32 :=
  tail (soft (logits e (alphaR (hR x W) a)) (hR x W)) lw

end Cert.ReferenceIdeal.RefRun

end
-- ==== Proof.RefRun.lean ====
import proofs.«121306_j85255100825818_2_alg».proof.Proof.RefOps
import proofs.«121306_j85255100825818_2_alg».proof.Proof.RefDefs

/-! The reference program's run, read back: every weakly fair execution of @main terminates with the
result buffer at `out` of the five argument arrays' launch contents, and the arguments unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 16384 in
set_option maxHeartbeats 2000000 in
/-- The fold of the operations' results at the result buffer is `out` of the contents at the five
    argument buffers: each operation's result at its own buffer is its function of its operands'
    contents, and at any other buffer what was there; the composed term is then the stages' text
    (a typed reference's transport is the identity at a literal reference, a reshape between equal
    element types moves nothing, and a conversion between equal types is the identity). -/
theorem out_eq (V : Valuation τ sig (Elt Ideal)) :
    after (ops (F := Ideal)) V (main_v48 : DevRef τ sig)
      = out (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 16384 in
set_option maxHeartbeats 2000000 in
/-- No operation writes `main_arg0`'s buffer. -/
theorem arg0_eq (V : Valuation τ sig (Elt Ideal)) :
    after (ops (F := Ideal)) V (main_arg0 : DevRef τ sig) = V (main_arg0 : DevRef τ sig) := by
  after_results_simp

set_option maxRecDepth 16384 in
set_option maxHeartbeats 2000000 in
/-- No operation writes `main_arg1`'s buffer. -/
theorem arg1_eq (V : Valuation τ sig (Elt Ideal)) :
    after (ops (F := Ideal)) V (main_arg1 : DevRef τ sig) = V (main_arg1 : DevRef τ sig) := by
  after_results_simp

set_option maxRecDepth 16384 in
set_option maxHeartbeats 2000000 in
/-- No operation writes `main_arg2`'s buffer. -/
theorem arg2_eq (V : Valuation τ sig (Elt Ideal)) :
    after (ops (F := Ideal)) V (main_arg2 : DevRef τ sig) = V (main_arg2 : DevRef τ sig) := by
  after_results_simp

set_option maxRecDepth 16384 in
set_option maxHeartbeats 2000000 in
/-- No operation writes `main_arg3`'s buffer. -/
theorem arg3_eq (V : Valuation τ sig (Elt Ideal)) :
    after (ops (F := Ideal)) V (main_arg3 : DevRef τ sig) = V (main_arg3 : DevRef τ sig) := by
  after_results_simp

set_option maxRecDepth 16384 in
set_option maxHeartbeats 2000000 in
/-- No operation writes `main_arg4`'s buffer. -/
theorem arg4_eq (V : Valuation τ sig (Elt Ideal)) :
    after (ops (F := Ideal)) V (main_arg4 : DevRef τ sig) = V (main_arg4 : DevRef τ sig) := by
  after_results_simp

/-- On every device, from any memory with zero counters: every weakly fair execution of @main terminates
    with the result at `out` of the arguments' launch contents and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v48)
        = out (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run _ _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.ProjValuePay.lean ====
/-
  The projection body's arithmetic read at one index, over the extended reals.

  The body multiplies a 1024-row block `x` of the node features by the transposed weight `w` into a zero accumulator:
  entry `(p, q)` of the product is `Σ_k x[p,k] · w[k,q]`, the changes of float format around it being the identity.
  Its second result is, for row `p`, the product of the two lane sums `Σ_q h[p,q] · a[q]` and `Σ_q h[p,q]`, kept when
  it is at least zero and scaled by the literal 0.2 otherwise.
-/
import proofs.«121306_j85255100825818_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjValue

open Idealize.ShloMosaic Idealize.ShloMosaic.ValueIdx
open Cert.KernelIdeal Cert.KernelIdeal.Gen

/-- The leaky rectifier as the body computes it: `z` when `z ≥ 0`, the literal 0.2 times `z` otherwise. -/
def leaky (z : EReal) : EReal :=
  Scalar.select (Ideal.cmp .oge z (Ideal.ofBits .f32 0x00000000#32)) z (Ideal.ofBits .f32 0x3E4CCCCD#32 * z)

/-- The same as a case split on the sign. -/
theorem leaky_eq (z : EReal) : leaky z = if 0 ≤ z then z else Ideal.ofBits .f32 0x3E4CCCCD#32 * z := by
  unfold leaky Scalar.select Ideal.cmp
  rw [Ideal.ofBits_zero_f32]
  by_cases h : (0 : EReal) ≤ z <;> simp [h]

/-- The rectifier of a product of two equal pairs of factors, in the spelling the body's compare, scale and select leave. -/
theorem leaky_congr {A A' B B' : EReal} (hA : A = A') (hB : B = B') :
    Scalar.select (FloatOps.cmpf (F := Ideal) (φ := .f32) .oge (A * B) (FloatOps.ofBits .f32 0x00000000#32)) (A * B)
        ((FloatOps.ofBits (F := Ideal) .f32 0x3E4CCCCD#32 : Ideal .f32) * (A * B))
      = leaky (A' * B') := by
  subst hA; subst hB; rfl

/-- Entry `(p, q)` of the block product: the sum over the contracted coordinate of the products of the entries. -/
theorem pay1_apply (x : Vec Ideal S1024x256 .f32) (w : Vec Ideal S256x512 .f32) (p : Fin 1024) (q : Fin 512) :
    k0_pay1 (F := Ideal) x w (ix2 p q) = ∑ k : Fin 256, x (ix2 p k) * w (ix2 k q) := by
  unfold k0_pay1
  show FloatOps.matmul dot_S1024x256_S256x512_S1024x512_1_0_0_1_n_n none _ _ (constant S1024x512 .f32 0x00000000#32) (ix2 p q) = _
  rw [Ideal.matmul_constant_zero_apply,
    ← Equiv.sum_comp (contrEquiv1 dot_S1024x256_S256x512_S1024x512_1_0_0_1_n_n 256 rfl rfl).symm]
  refine Finset.sum_congr rfl fun c _ => ?_
  have c2 := contrEquiv1_symm_val dot_S1024x256_S256x512_S1024x512_1_0_0_1_n_n 256 rfl rfl c
  have l2 : dot_S1024x256_S256x512_S1024x512_1_0_0_1_n_n.lhsIdx (ix2 p q) ((contrEquiv1 _ 256 rfl rfl).symm c) = ix2 p c := by
    funext ax; apply Fin.ext
    match ax with
    | ⟨0, _⟩ => simp [DotDims.lhsIdx, dot_S1024x256_S256x512_S1024x512_1_0_0_1_n_n]; rfl
    | ⟨1, _⟩ => simp [DotDims.lhsIdx, dot_S1024x256_S256x512_S1024x512_1_0_0_1_n_n]; exact c2
  have r2 : dot_S1024x256_S256x512_S1024x512_1_0_0_1_n_n.rhsIdx (ix2 p q) ((contrEquiv1 _ 256 rfl rfl).symm c) = ix2 c q := by
    funext ax; apply Fin.ext
    match ax with
    | ⟨0, _⟩ => simp [DotDims.rhsIdx, dot_S1024x256_S256x512_S1024x512_1_0_0_1_n_n]; exact c2
    | ⟨1, _⟩ => simp [DotDims.rhsIdx, dot_S1024x256_S256x512_S1024x512_1_0_0_1_n_n]; rfl
  rw [l2, r2, truncf_apply, truncf_apply, shapeCast_self]

/-- The stored product block: the same entry, the change of float format being the identity. -/
theorem pay3_apply (x : Vec Ideal S1024x256 .f32) (w : Vec Ideal S256x512 .f32) (p : Fin 1024) (q : Fin 512) :
    k0_pay3 (F := Ideal) x w (ix2 p q) = ∑ k : Fin 256, x (ix2 p k) * w (ix2 k q) := by
  unfold k0_pay3
  exact (truncf_apply (k0_pay1 (F := Ideal) x w) bitsLt_bf16_f32 (ix2 p q)).trans (pay1_apply x w p q)

/-- A lane sum of a 1024×512 block, at row `p`: the sum over the 512 lanes of the row's entries. -/
theorem laneSum_apply (v : FVec Ideal S1024x512 .f32) (hφ : FKind.Formats .f32)
    (hacc : (0x00000000#32 : BitVec 32) = FKind.add.neutral .f32 hφ) (p : Fin 1024) :
    multiReduction .add [1] S1024 v 0x00000000#32 reduces_S1024x512_S1024 hφ hacc (ix1 p) = ∑ j : Fin 512, v (ix2 p j) := by
  refine (Ideal.multiReduction_add_single v 0x00000000#32 reduces_S1024x512_S1024 hφ hacc (ix1 p)).trans ?_
  refine Finset.sum_congr rfl fun j _ => congrArg v ?_
  funext ax; apply Fin.ext
  match ax with
  | ⟨0, _⟩ => rfl
  | ⟨1, _⟩ => rfl

/-- A length-1024 vector reshaped to a column reads, at row `p`, the vector at `p`. -/
theorem col_apply (v : FVec Ideal S1024 .f32) (p : Fin 1024) :
    shapeCast S1024x1 v shapeCasts_S1024_S1024x1 (ix2 p (0 : Fin 1)) = v (ix1 p) := by
  refine shapeCast_apply v _ _ _ ?_
  rw [Shape.rowMajor_val_one, Shape.rowMajor_val_two]
  show p.val = p.val * 1 + 0
  omega

/-- The stored logit column at row `p`: the leaky rectifier of the product of the row's two lane sums. -/
theorem pay2_apply (x : Vec Ideal S1024x256 .f32) (w : Vec Ideal S256x512 .f32) (a : Vec Ideal S1x512 .f32) (p : Fin 1024) :
    k0_pay2 (F := Ideal) x w a (ix2 p (0 : Fin 1))
      = leaky ((∑ j : Fin 512, k0_pay1 (F := Ideal) x w (ix2 p j) * a (ix2 (0 : Fin 1) j))
          * (∑ j : Fin 512, k0_pay1 (F := Ideal) x w (ix2 p j))) := by
  unfold k0_pay2
  simp only [select_apply, cmpf_apply, mulf_apply, broadcast_apply]
  rw [col_apply, col_apply]
  refine leaky_congr ?_ ?_
  · refine (laneSum_apply _ _ _ p).trans (Finset.sum_congr rfl fun j _ => ?_)
    rw [mulf_apply, broadcastTo_1b_ab_apply]
  · exact laneSum_apply _ _ _ p

end Cert.KernelIdeal.ProjValue

end
-- ==== Proof.ProjValue.lean ====
/-
  The projection kernel's two outputs as whole arrays.

  The product array `h` has, at row `n` and column `j`, the sum over the 256 features of `x[n,k] · wt[k,j]`; the logit
  column `alpha` has, at row `n`, the leaky rectifier of `(Σ_j h[n,j] · a[j]) · (Σ_j h[n,j])`.  Tile `t` of the grid
  computes rows `1024 t … 1024 t + 1023` of both from the same rows of `x` and the whole of `wt` and `a`, so what it
  writes back is its block of these two functions, and the eight tiles cover all 8192 rows.
-/
import proofs.«121306_j85255100825818_2_alg».proof.Proof.ProjData
import proofs.«121306_j85255100825818_2_alg».proof.Proof.ProjValuePay
import Idealize.ShloMosaic.Lib.Pipeline.Value

set_option maxRecDepth 16384

noncomputable section

open scoped BigOperators

namespace Cert.KernelIdeal.ProjValue

open Idealize.ShloMosaic Idealize.ShloMosaic.TcCoe Idealize.ShloMosaic.ValueIdx
open Idealize.SL.Sem
open Idealize.ShloMosaic.Pipeline (Dat)
open Cert.KernelIdeal Cert.KernelIdeal.Gen

/-- The product array: entry `(n, j)` is `Σ_k x[n,k] · wt[k,j]`. -/
def hFun (x : S8192x256.Idx → EReal) (wt : S256x512.Idx → EReal) : S8192x512.Idx → EReal :=
  fun i => ∑ k : Fin 256, x (ix2 (i 0 : Fin 8192) k) * wt (ix2 k (i 1 : Fin 512))

theorem hFun_apply (x : S8192x256.Idx → EReal) (wt : S256x512.Idx → EReal) (n : Fin 8192) (j : Fin 512) :
    hFun x wt (ix2 n j) = ∑ k : Fin 256, x (ix2 n k) * wt (ix2 k j) := rfl

/-- The logit column: entry `(n, 0)` is the leaky rectifier of the product of row `n`'s two lane sums of the product array. -/
def alphaFun (x : S8192x256.Idx → EReal) (wt : S256x512.Idx → EReal) (a : S1x512.Idx → EReal) : S8192x1.Idx → EReal :=
  fun i => leaky ((∑ j : Fin 512, hFun x wt (ix2 (i 0 : Fin 8192) j) * a (ix2 (0 : Fin 1) j))
    * (∑ j : Fin 512, hFun x wt (ix2 (i 0 : Fin 8192) j)))

theorem alphaFun_apply (x : S8192x256.Idx → EReal) (wt : S256x512.Idx → EReal) (a : S1x512.Idx → EReal) (n : Fin 8192) :
    alphaFun x wt a (ix2 n (0 : Fin 1)) = leaky ((∑ j : Fin 512, hFun x wt (ix2 n j) * a (ix2 (0 : Fin 1) j))
      * (∑ j : Fin 512, hFun x wt (ix2 n j))) := rfl

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: tile `t` takes row block `t` of the features and of both outputs, and the one block of the
    weight and of the attention row. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature block at tile `t` is rows `1024 t … 1024 t + 1023` of the feature array. -/
theorem blk0_apply (c : Dev nD) (t : Fin cfg0.N) (y : S1024x256.Idx) (i : S8192x256.Idx)
    (h0 : (i 0).val = 1024 * t.val + (y 0).val) (h1 : (i 1).val = (y 1).val) :
    (Proj.blk V c 0 t : Vec Ideal S1024x256 .f32) y = (V c main_arg0 : S8192x256.Idx → EReal) i := by
  obtain ⟨e0, e1, -⟩ := idx_facts t
  unfold Proj.blk
  rw [View.read_apply]
  show V c main_arg0 _ = V c main_arg0 _
  congr 1
  funext a
  apply Fin.ext
  match a with
  | ⟨0, _⟩ => show win0_0.index t 0 * 1024 + 1 * (y 0).val = (i 0).val; rw [e0, h0]; omega
  | ⟨1, _⟩ => show win0_0.index t 1 * 256 + 1 * (y 1).val = (i 1).val; rw [e1, h1]; omega

/-- The weight block at any tile is the whole transposed weight. -/
theorem blk1_apply (c : Dev nD) (t : Fin cfg0.N) (y : S256x512.Idx) :
    (Proj.blk V c 1 t : Vec Ideal S256x512 .f32) y = (V c main_v0 : S256x512.Idx → EReal) y := by
  obtain ⟨-, -, e0, e1, -⟩ := idx_facts t
  unfold Proj.blk
  rw [View.read_apply]
  show V c main_v0 _ = V c main_v0 _
  congr 1
  funext a
  apply Fin.ext
  match a with
  | ⟨0, _⟩ => show win0_1.index t 0 * 256 + 1 * (y 0).val = (y 0).val; rw [e0]; omega
  | ⟨1, _⟩ => show win0_1.index t 1 * 512 + 1 * (y 1).val = (y 1).val; rw [e1]; omega

/-- The attention-row block at any tile is the whole attention row. -/
theorem blk2_apply (c : Dev nD) (t : Fin cfg0.N) (y : S1x512.Idx) :
    (Proj.blk V c 2 t : Vec Ideal S1x512 .f32) y = (V c main_arg3 : S1x512.Idx → EReal) y := by
  obtain ⟨-, -, -, -, e0, e1, -⟩ := idx_facts t
  unfold Proj.blk
  rw [View.read_apply]
  show V c main_arg3 _ = V c main_arg3 _
  congr 1
  funext a
  apply Fin.ext
  match a with
  | ⟨0, _⟩ => show win0_2.index t 0 * 1 + 1 * (y 0).val = (y 0).val; rw [e0]; omega
  | ⟨1, _⟩ => show win0_2.index t 1 * 512 + 1 * (y 1).val = (y 1).val; rw [e1]; omega

/-- The product block the body stores, at entry `(p, q)`, over any input blocks. -/
theorem hOut_apply (xb : Vec Ideal S1024x256 .f32) (wb : Vec Ideal S256x512 .f32) (p : Fin 1024) (q : Fin 512) :
    Proj.hOut (F := Ideal) xb wb (ix2 p q) = ∑ k : Fin 256, xb (ix2 p k) * wb (ix2 k q) := by
  unfold Proj.hOut
  rw [View.canon_unit_zero hz]
  simp only [View.ld_unit_zero (S := S1024x256) hz, View.ld_unit_zero (S := S256x512) hz]
  exact pay3_apply xb wb p q

/-- The logit column the body stores, at row `p`, over any input blocks. -/
theorem aOut_apply (xb : Vec Ideal S1024x256 .f32) (wb : Vec Ideal S256x512 .f32) (ab : Vec Ideal S1x512 .f32) (p : Fin 1024) :
    Proj.aOut (F := Ideal) xb wb ab (ix2 p (0 : Fin 1))
      = leaky ((∑ j : Fin 512, (∑ k : Fin 256, xb (ix2 p k) * wb (ix2 k j)) * ab (ix2 (0 : Fin 1) j))
          * (∑ j : Fin 512, ∑ k : Fin 256, xb (ix2 p k) * wb (ix2 k j))) := by
  unfold Proj.aOut
  rw [View.canon_unit_zero hz]
  simp only [View.ld_unit_zero (S := S1024x256) hz, View.ld_unit_zero (S := S256x512) hz, View.ld_unit_zero (S := S1x512) hz]
  rw [pay2_apply]
  simp only [pay1_apply]

/-- What tile `t` writes back of the product is its block of `hFun` of the arrays as the region finds them. -/
theorem flushed3_eq (c : Dev nD) (t : Fin cfg0.N) :
    (Proj.dat (F := Ideal) V c).flushed 3 t
      = ((cfg0.win 3).blk t).view.read (Elt Ideal) (hFun (V c main_arg0) (V c main_v0)) := by
  show (cfg0.win 3).cut (grid0.coords t) ((Proj.dat (F := Ideal) V c).after 3 t) = _
  rw [Proj.after_3]
  obtain ⟨-, -, -, -, -, -, e0, e1, -⟩ := idx_facts t
  funext y
  obtain ⟨p, q, rfl⟩ : ∃ (p : Fin 1024) (q : Fin 512), y = ix2 p q := ⟨y 0, y 1, eq_ix2 y⟩
  refine (hOut_apply (Proj.blk V c 0 t) (Proj.blk V c 1 t) p q).trans ?_
  rw [View.read_apply]
  show _ = hFun (V c main_arg0) (V c main_v0) (((cfg0.win 3).blk t).view.emb (ix2 p q))
  unfold hFun
  refine Finset.sum_congr rfl fun k _ => ?_
  rw [blk1_apply]
  refine congrArg (· * _) ?_ |>.trans (congrArg (_ * ·) ?_)
  · refine blk0_apply V c t (ix2 p k) _ ?_ ?_
    · show win0_3.index t 0 * 1024 + 1 * p.val = 1024 * t.val + p.val; rw [e0]; omega
    · rfl
  · refine congrArg (V c main_v0) ?_
    funext a; apply Fin.ext
    match a with
    | ⟨0, _⟩ => rfl
    | ⟨1, _⟩ => show q.val = win0_3.index t 1 * 512 + 1 * q.val; rw [e1]; omega

/-- An index of the product array is in tile `t`'s block iff each coordinate is in the block's range on its axis. -/
theorem mem_blk3 (t : Fin cfg0.N) (i : S8192x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v1_0).slice (win0_3.rect t)).set ↔ _
  rw [View.set_slice_whole, Rect.mem_set_unit]
  exact Iff.rfl

/-- Row `r` of the product array is in the block of tile `r / 1024`. -/
theorem cover3 (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : grid0.N = 8 := N_0
  obtain ⟨t, ht⟩ : ∃ t : Fin cfg0.N, t.val = (i 0).val / 1024 := ⟨⟨(i 0).val / 1024, by show _ < grid0.N; rw [hN]; omega⟩, rfl⟩
  obtain ⟨-, -, -, -, -, -, e0, e1, -⟩ := idx_facts t
  refine ⟨t, flush0_3 t, ?_⟩
  rw [mem_blk3]
  intro a
  match a with
  | ⟨0, _⟩ =>
    show win0_3.index t 0 * 1024 ≤ (i 0).val ∧ (i 0).val < win0_3.index t 0 * 1024 + 1024
    rw [e0, ht]; omega
  | ⟨1, _⟩ =>
    show win0_3.index t 1 * 512 ≤ (i 1).val ∧ (i 1).val < win0_3.index t 1 * 512 + 512
    rw [e1]; omega

/-- THE PRODUCT ARRAY after the kernel: `hFun` of the feature array and the transposed weight as the region finds them. -/
theorem h_final (c : Dev nD) :
    (Proj.dat (F := Ideal) V c).arrAt 3 cfg0.N = hFun (V c main_arg0) (V c main_v0) :=
  (Proj.dat (F := Ideal) V c).arrAt_eq_of_cover 3 (hFun (V c main_arg0) (V c main_v0))
    (fun t _ => flushed3_eq V c t) cover3

/-- What tile `t` writes back of the logit column is its block of `alphaFun` of the arrays as the region finds them. -/
theorem flushed4_eq (c : Dev nD) (t : Fin cfg0.N) :
    (Proj.dat (F := Ideal) V c).flushed 4 t
      = ((cfg0.win 4).blk t).view.read (Elt Ideal) (alphaFun (V c main_arg0) (V c main_v0) (V c main_arg3)) := by
  show (cfg0.win 4).cut (grid0.coords t) ((Proj.dat (F := Ideal) V c).after 4 t) = _
  rw [Proj.after_4]
  obtain ⟨-, -, -, -, -, -, -, -, e0, e1⟩ := idx_facts t
  have hN : grid0.N = 8 := N_0
  have htl : t.val < 8 := by have h := t.isLt; have h' : t.val < grid0.N := h; omega
  funext y
  obtain ⟨p, q, rfl⟩ : ∃ (p : Fin 1024) (q : Fin 1), y = ix2 p q := ⟨y 0, y 1, eq_ix2 y⟩
  obtain rfl : q = 0 := Subsingleton.elim _ _
  obtain ⟨n, hn⟩ : ∃ n : Fin 8192, n.val = 1024 * t.val + p.val := ⟨⟨1024 * t.val + p.val, by have := p.isLt; omega⟩, rfl⟩
  have hemb : ((cfg0.win 4).blk t).view.emb (ix2 p (0 : Fin 1)) = (ix2 n (0 : Fin 1) : S8192x1.Idx) := by
    funext a; apply Fin.ext
    match a with
    | ⟨0, _⟩ => show win0_4.index t 0 * 1024 + 1 * p.val = n.val; rw [e0, hn]; omega
    | ⟨1, _⟩ => show win0_4.index t 1 * 1 + 1 * 0 = 0; rw [e1]
  have hx : ∀ k : Fin 256, (Proj.blk V c 0 t : Vec Ideal S1024x256 .f32) (ix2 p k) = (V c main_arg0 : S8192x256.Idx → EReal) (ix2 n k) :=
    fun k => blk0_apply V c t (ix2 p k) (ix2 n k) hn rfl
  refine (aOut_apply (Proj.blk V c 0 t) (Proj.blk V c 1 t) (Proj.blk V c 2 t) p).trans ?_
  rw [View.read_apply]
  show _ = alphaFun (V c main_arg0) (V c main_v0) (V c main_arg3) (((cfg0.win 4).blk t).view.emb (ix2 p (0 : Fin 1)))
  rw [hemb, alphaFun_apply]
  simp only [hFun_apply, blk1_apply, blk2_apply, hx]

/-- An index of the logit column is in tile `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v1_1).slice (win0_4.rect t)).set ↔ _
  rw [View.set_slice_whole, Rect.mem_set_unit]
  exact Iff.rfl

/-- Row `r` of the logit column is in the block of tile `r / 1024`. -/
theorem cover4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : grid0.N = 8 := N_0
  obtain ⟨t, ht⟩ : ∃ t : Fin cfg0.N, t.val = (i 0).val / 1024 := ⟨⟨(i 0).val / 1024, by show _ < grid0.N; rw [hN]; omega⟩, rfl⟩
  obtain ⟨-, -, -, -, -, -, -, -, e0, e1⟩ := idx_facts t
  refine ⟨t, flush0_4 t, ?_⟩
  rw [mem_blk4]
  intro a
  match a with
  | ⟨0, _⟩ =>
    show win0_4.index t 0 * 1024 ≤ (i 0).val ∧ (i 0).val < win0_4.index t 0 * 1024 + 1024
    rw [e0, ht]; omega
  | ⟨1, _⟩ =>
    show win0_4.index t 1 * 1 ≤ (i 1).val ∧ (i 1).val < win0_4.index t 1 * 1 + 1
    rw [e1]; omega

/-- THE LOGIT COLUMN after the kernel: `alphaFun` of the feature array, the transposed weight and the attention row as the
    region finds them. -/
theorem alpha_final (c : Dev nD) :
    (Proj.dat (F := Ideal) V c).arrAt 4 cfg0.N = alphaFun (V c main_arg0) (V c main_v0) (V c main_arg3) :=
  (Proj.dat (F := Ideal) V c).arrAt_eq_of_cover 4 (alphaFun (V c main_arg0) (V c main_v0) (V c main_arg3))
    (fun t _ => flushed4_eq V c t) cover4

end Cert.KernelIdeal.ProjValue

end
-- ==== Proof.ProjValueHost.lean ====
/-
  The host operations around the projection kernel, read off their fold over any contents of the buffers.

  Before the kernel one transpose makes the [256,512] weight the kernel reads: entry `(k, j)` is the given weight's
  `(j, k)`.  After it, thirty-six operations build three things: the dense 8192×8192 logit matrix (the logit column
  reshaped to a vector, gathered at the edges' first endpoints and scatter-added at the edge pairs into zeros, the
  endpoints wrapped around when negative), the transposed second weight (its change of float format the identity over
  the extended reals), and they leave the product array alone.
-/
import proofs.«121306_j85255100825818_2_alg».proof.Proof.Gen.KernelIdeal.Launch
import Idealize.ShloMosaic.Lib.StableHlo.Run
import Idealize.ShloMosaic.Lib.ValueIdx
import Idealize.ShloMosaic.Lib.ValueLayout

set_option maxRecDepth 16384

noncomputable section

open scoped BigOperators

namespace Cert.KernelIdeal.ProjValue

open Idealize.ShloMosaic Idealize.ShloMosaic.TcCoe Idealize.ShloMosaic.ValueIdx
open Idealize.SL.Sem
open Cert.KernelIdeal Cert.KernelIdeal.Gen

variable (W : Valuation τ sig (Elt Ideal))

/-! ## Before the kernel -/

/-- The weight the kernel reads is the given weight transposed. -/
theorem host0_v0 :
    StableHlo.after (hostOps0 (F := Ideal)) W (Proc.devRef .tc main_v0)
      = transpose S256x512 [1, 0] (W (Proc.devRef .tc main_arg2)) transposes_S512x256_S256x512_1_0 := by
  after_results

/-- Read at an index: entry `(k, j)` is the given weight's `(j, k)`. -/
theorem host0_v0_apply (k : Fin 256) (j : Fin 512) :
    (StableHlo.after (hostOps0 (F := Ideal)) W (Proc.devRef .tc main_v0) : S256x512.Idx → EReal) (ix2 k j)
      = (W (Proc.devRef .tc main_arg2) : S512x256.Idx → EReal) (ix2 j k) := by
  rw [host0_v0]
  exact transpose_ix2_apply (W (Proc.devRef .tc main_arg2)) transposes_S512x256_S256x512_1_0 k j

/-- The transpose writes nothing else. -/
theorem host0_other {r : Ref sig .tc} (h : r ≠ main_v0) :
    StableHlo.after (hostOps0 (F := Ideal)) W (Proc.devRef .tc r) = W (Proc.devRef .tc r) := by
  simp only [StableHlo.after_cons, StableHlo.after_nil]
  rw [StableHlo.unary_result_ne]
  exact h

/-! ## After the kernel -/

set_option maxHeartbeats 4000000 in
/-- The second weight the softmax kernel reads is the given one transposed, its format changed. -/
theorem host1_v30 :
    (StableHlo.after (hostOps1 (F := Ideal)) W (Proc.devRef .tc main_v30) : FVec Ideal S512x512 .bf16)
      = truncf (F := Ideal) .bf16 (transpose S512x512 [1, 0] (W (Proc.devRef .tc main_arg4) : FVec Ideal S512x512 .f32)
          transposes_S512x512_S512x512_1_0) bitsLt_bf16_f32 := by
  after_results_simp

/-- Read at an index: entry `(i, j)` is the given weight's `(j, i)`, the change of format being the identity. -/
theorem host1_v30_apply (i j : Fin 512) :
    (StableHlo.after (hostOps1 (F := Ideal)) W (Proc.devRef .tc main_v30) : S512x512.Idx → EReal) (ix2 i j)
      = (W (Proc.devRef .tc main_arg4) : S512x512.Idx → EReal) (ix2 j i) := by
  rw [host1_v30, truncf_apply]
  exact transpose_ix2_apply (W (Proc.devRef .tc main_arg4)) transposes_S512x512_S512x512_1_0 i j

set_option maxHeartbeats 4000000 in
/-- The product array is not written. -/
theorem host1_v1_0 :
    StableHlo.after (hostOps1 (F := Ideal)) W (Proc.devRef .tc main_v1_0) = W (Proc.devRef .tc main_v1_0) := by
  after_results_simp

/-- The dense logit matrix as the host builds it from the edge list `e` ([2, 262144]: row 0 the first endpoints, row 1
    the second) and the logit vector `alpha`: an endpoint below zero is wrapped around by adding 8192; the logits are
    gathered at the first endpoints and scatter-added into zeros at the pairs (first endpoint, second endpoint). -/
def logitsK (e : IVec S2x262144 32) (alpha : FVec Ideal S8192 .f32) : FVec Ideal S8192x8192 .f32 :=
  let src : IVec S262144 32 :=
    shapeCast S262144 (extractStridedSlice S1x262144 ![0, 0] e slices_S2x262144_S1x262144_0_0) shapeCasts_S1x262144_S262144
  let dst : IVec S262144 32 :=
    shapeCast S262144 (extractStridedSlice S1x262144 ![1, 0] e slices_S2x262144_S1x262144_1_0) shapeCasts_S1x262144_S262144
  let wrap (v : IVec S262144 32) : IVec S262144 32 :=
    select (cmpi .slt v (broadcastInDim S262144 ![] bcast_S_S262144 (constantI S_ 32 0#32)))
      (addi v (broadcastInDim S262144 ![] bcast_S_S262144 (constantI S_ 32 8192#32))) v
  Host.scatterAdd (F := Ideal) scatter_S8192x8192_S262144x2_S262144_n_01_01_1
    (broadcastInDim S8192x8192 ![] bcast_S_S8192x8192 (constant (F := Ideal) S_ .f32 0x00000000#32))
    (concatenate S262144x2 1
      [⟨S262144x1, broadcastInDim S262144x1 ![0] bcast_S262144_S262144x1_0 (wrap src)⟩,
       ⟨S262144x1, broadcastInDim S262144x1 ![0] bcast_S262144_S262144x1_0 (wrap dst)⟩]
      concatenates_S262144x1_S262144x1_S262144x2_d1)
    (Host.gather gather_S8192_S262144x1_S262144_n_0_n_n_0_1_1 alpha
      (broadcastInDim S262144x1 ![0] bcast_S262144_S262144x1_0 (wrap src)))

set_option maxHeartbeats 4000000 in
/-- The logit matrix the softmax kernel reads is `logitsK` of the edge list and of the logit column reshaped to a vector. -/
theorem host1_v28 :
    (StableHlo.after (hostOps1 (F := Ideal)) W (Proc.devRef .tc main_v28) : FVec Ideal S8192x8192 .f32)
      = logitsK (W (Proc.devRef .tc main_arg1))
          (shapeCast S8192 (W (Proc.devRef .tc main_v1_1) : FVec Ideal S8192x1 .f32) shapeCasts_S8192x1_S8192) := by
  after_results_simp
  repeat (first
    | rw [StableHlo.nullary_result] | rw [StableHlo.unary_result] | rw [StableHlo.binary_result]
    | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

/-- The logit column reshaped to a vector reads, at `n`, the column at row `n`. -/
theorem colVec_apply (col : FVec Ideal S8192x1 .f32) (n : Fin 8192) :
    shapeCast S8192 col shapeCasts_S8192x1_S8192 (ix1 n) = col (ix2 n (0 : Fin 1)) := by
  refine shapeCast_apply col _ _ _ ?_
  rw [Shape.rowMajor_val_one, Shape.rowMajor_val_two]
  show n.val * 1 + 0 = n.val
  omega

end Cert.KernelIdeal.ProjValue

end
-- ==== Proof.KEntry.lean ====
/-
  What the softmax kernel finds in its three input arrays, as functions of the launch memory.

  The product array is untouched by the host lines between the kernels, so it is what the projection kernel left:
  `hFun` of the node features and the transposed weight.  The dense logit matrix is the host's gather and scatter-add of
  the logit column the projection kernel left, over the edge list.  The second weight is the given one transposed.
  No line and no kernel before that point writes an argument, so each argument reads as launched.
-/
import proofs.«121306_j85255100825818_2_alg».proof.Proof.KRun
import proofs.«121306_j85255100825818_2_alg».proof.Proof.ProjValue
import proofs.«121306_j85255100825818_2_alg».proof.Proof.ProjValueHost

set_option maxRecDepth 16384

noncomputable section

open scoped BigOperators

namespace Cert.KernelIdeal.KEntry

open Idealize.ShloMosaic Idealize.ShloMosaic.TcCoe Idealize.ShloMosaic.ValueIdx
open Idealize.SL.Sem
open Cert.KernelIdeal Cert.KernelIdeal.Gen Cert.KernelIdeal.Run Cert.KernelIdeal.ProjValue
open Cert.KernelIdeal.Gen (hostOps0_writes hostOps1_writes)

variable (m : (ℓ : Loc nD τ sig) → Buf (Elt Ideal) ℓ) (ρ : Dev nD → PrngReg)

/-! ## The projection kernel's entry: the arguments as launched, the weight transposed -/

theorem V1_arg0 (c : Dev nD) : V1 m ρ c main_arg0 = m ((c : Thread nD τ).loc main_arg0) :=
  (StableHlo.after_of_writes_sub hostOps0 _ hostOps0_writes (by decide)).trans rfl

theorem V1_arg3 (c : Dev nD) : V1 m ρ c main_arg3 = m ((c : Thread nD τ).loc main_arg3) :=
  (StableHlo.after_of_writes_sub hostOps0 _ hostOps0_writes (by decide)).trans rfl

theorem V1_v0 (c : Dev nD) :
    V1 m ρ c main_v0 = transpose S256x512 [1, 0] (m ((c : Thread nD τ).loc main_arg2)) transposes_S512x256_S256x512_1_0 :=
  (host0_v0 (W0 m ρ c)).trans rfl

/-! ## The projection kernel's exit: the arguments it does not stage, and its two outputs -/

theorem W2_arg1 (c : Dev nD) : W2 m ρ c (Proc.devRef .tc main_arg1) = m ((c : Thread nD τ).loc main_arg1) :=
  (W2_of_ne m ρ c main_arg1 (by decide)).trans
    ((StableHlo.after_of_writes_sub hostOps0 _ hostOps0_writes (by decide)).trans rfl)

theorem W2_arg4 (c : Dev nD) : W2 m ρ c (Proc.devRef .tc main_arg4) = m ((c : Thread nD τ).loc main_arg4) :=
  (W2_of_ne m ρ c main_arg4 (by decide)).trans
    ((StableHlo.after_of_writes_sub hostOps0 _ hostOps0_writes (by decide)).trans rfl)

/-- The product array at the projection kernel's exit. -/
theorem W2_h (c : Dev nD) :
    W2 m ρ c (Proc.devRef .tc main_v1_0)
      = hFun (m ((c : Thread nD τ).loc main_arg0))
          (transpose S256x512 [1, 0] (m ((c : Thread nD τ).loc main_arg2)) transposes_S512x256_S256x512_1_0) := by
  refine (W2_arr m ρ c 3).trans ((h_final (V1 m ρ) c).trans ?_)
  rw [V1_arg0, V1_v0]

/-- The logit column at the projection kernel's exit. -/
theorem W2_alpha (c : Dev nD) :
    W2 m ρ c (Proc.devRef .tc main_v1_1)
      = alphaFun (m ((c : Thread nD τ).loc main_arg0))
          (transpose S256x512 [1, 0] (m ((c : Thread nD τ).loc main_arg2)) transposes_S512x256_S256x512_1_0)
          (m ((c : Thread nD τ).loc main_arg3)) := by
  refine (W2_arr m ρ c 4).trans ((alpha_final (V1 m ρ) c).trans ?_)
  rw [V1_arg0, V1_v0, V1_arg3]

/-! ## The softmax kernel's entry -/

/-- The product array the softmax kernel reads. -/
theorem entry_h (c : Dev nD) :
    V3 m ρ c main_v1_0
      = hFun (m ((c : Thread nD τ).loc main_arg0))
          (transpose S256x512 [1, 0] (m ((c : Thread nD τ).loc main_arg2)) transposes_S512x256_S256x512_1_0) :=
  (host1_v1_0 (W2 m ρ c)).trans (W2_h m ρ c)

/-- The dense logit matrix the softmax kernel reads. -/
theorem entry_logits (c : Dev nD) :
    (V3 m ρ c main_v28 : FVec Ideal S8192x8192 .f32)
      = logitsK (m ((c : Thread nD τ).loc main_arg1))
          (shapeCast S8192
            (alphaFun (m ((c : Thread nD τ).loc main_arg0))
              (transpose S256x512 [1, 0] (m ((c : Thread nD τ).loc main_arg2)) transposes_S512x256_S256x512_1_0)
              (m ((c : Thread nD τ).loc main_arg3)))
            shapeCasts_S8192x1_S8192) := by
  refine (host1_v28 (W2 m ρ c)).trans ?_
  rw [W2_arg1, W2_alpha]

/-- The second weight the softmax kernel reads: the given one transposed (its change of format the identity). -/
theorem entry_lw (c : Dev nD) :
    (V3 m ρ c main_v30 : FVec Ideal S512x512 .bf16)
      = truncf (F := Ideal) .bf16 (transpose S512x512 [1, 0] (m ((c : Thread nD τ).loc main_arg4) : FVec Ideal S512x512 .f32)
          transposes_S512x512_S512x512_1_0) bitsLt_bf16_f32 := by
  refine (host1_v30 (W2 m ρ c)).trans ?_
  rw [W2_arg4]

/-- Read at an index: entry `(i, j)` is the given weight's `(j, i)`. -/
theorem entry_lw_apply (c : Dev nD) (i j : Fin 512) :
    (V3 m ρ c main_v30 : S512x512.Idx → EReal) (ix2 i j)
      = (m ((c : Thread nD τ).loc main_arg4) : S512x512.Idx → EReal) (ix2 j i) :=
  (host1_v30_apply (W2 m ρ c) i j).trans (congrFun (W2_arg4 m ρ c) (ix2 j i))

end Cert.KernelIdeal.KEntry

end
-- ==== Proof.LibOnlineSoftmax.lean ====
/-
  General lemmas about the online (streaming) softmax over four key blocks, read on the extended
  reals: the running maximum, denominator and numerator after four blocks give the same weighted
  average as the one-shot softmax over all the keys. Also: a fold of max over a finite family is an
  upper bound that is attained, a sum over Fin (4 * n) splits into four blocks of n, the square
  root of 1024 is 32, and the reals that three binary32 patterns denote.
-/
import Mathlib.Data.EReal.Inv
import Mathlib.Analysis.SpecialFunctions.Pow.Real
import Mathlib.Algebra.BigOperators.Fin
import Idealize.ShloMosaic.PureOps.Ideal
import Idealize.ShloMosaic.PureOps.Ideal.Laws

noncomputable section

namespace Cert.LibOnlineSoftmax

open Idealize.ShloMosaic
open scoped BigOperators

/-! ### Coercion of reals into the extended reals -/

/-- The coercion of a finite sum of reals is the sum of the coercions. -/
theorem coe_sum {α : Type*} (t : Finset α) (f : α → ℝ) :
    ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- The coercion of the larger of two reals is the larger of the coercions. -/
theorem coe_max (x y : ℝ) : ((max x y : ℝ) : EReal) = max (x : EReal) (y : EReal) :=
  EReal.coe_strictMono.monotone.map_max

variable {ι : Type} [Fintype ι]

/-! ### The online softmax step -/

/-- One online-softmax step on the state (running maximum m, running denominator l, running
    numerator a) for a block with scores sj, values vj and block maximum b: the new maximum is
    max m b, and the old denominator and numerator are rescaled by exp (m - max m b) before the
    block's terms exp (sj i - max m b) and exp (sj i - max m b) * vj i are added. -/
def step (sj vj : ι → EReal) (b : EReal) (st : EReal × EReal × EReal) : EReal × EReal × EReal :=
  (max st.1 b,
   Ideal.exp (st.1 - max st.1 b) * st.2.1 + ∑ i, Ideal.exp (sj i - max st.1 b),
   Ideal.exp (st.1 - max st.1 b) * st.2.2 + ∑ i, Ideal.exp (sj i - max st.1 b) * vj i)

/-- Four steps, over blocks 0, 1, 2, 3 in this order, from the empty state (-∞, 0, 0). -/
def run4 (s v : Fin 4 → ι → EReal) (bm : Fin 4 → EReal) : EReal × EReal × EReal :=
  step (s 3) (v 3) (bm 3) (step (s 2) (v 2) (bm 2) (step (s 1) (v 1) (bm 1)
    (step (s 0) (v 0) (bm 0) (⊥, 0, 0))))

/-- The same step on real states. -/
def stepR (sj vj : ι → ℝ) (b : ℝ) (st : ℝ × ℝ × ℝ) : ℝ × ℝ × ℝ :=
  (max st.1 b,
   Real.exp (st.1 - max st.1 b) * st.2.1 + ∑ i, Real.exp (sj i - max st.1 b),
   Real.exp (st.1 - max st.1 b) * st.2.2 + ∑ i, Real.exp (sj i - max st.1 b) * vj i)

/-- A real state read as an extended-real state. -/
def coe3 (st : ℝ × ℝ × ℝ) : EReal × EReal × EReal :=
  ((st.1 : EReal), (st.2.1 : EReal), (st.2.2 : EReal))

/-- From the empty state (-∞, 0, 0) the first step gives the block's own maximum, denominator and
    numerator, at every b: max (-∞) b = b, and exp (-∞ - b) = exp (-∞) = 0 multiplies the (zero)
    old sums. -/
theorem step_init (sj vj : ι → EReal) (b : EReal) :
    step sj vj b (⊥, 0, 0) = (b, ∑ i, Ideal.exp (sj i - b), ∑ i, Ideal.exp (sj i - b) * vj i) := by
  simp only [step, bot_le, max_eq_right, EReal.bot_sub, Ideal.exp_bot, zero_mul, zero_add]

/-- On real data the extended-real step is the real step. -/
theorem step_coe (sj vj : ι → ℝ) (b : ℝ) (st : ℝ × ℝ × ℝ) :
    step (fun i => (sj i : EReal)) (fun i => (vj i : EReal)) (b : EReal) (coe3 st)
      = coe3 (stepR sj vj b st) := by
  simp only [step, stepR, coe3, ← coe_max, ← EReal.coe_sub, Ideal.exp_coe, EReal.coe_add,
    EReal.coe_mul, coe_sum]

/-- Changing the reference point of an exponential: exp (m - m') * exp (x - m) = exp (x - m'). -/
theorem exp_rescale (m m' x : ℝ) : Real.exp (m - m') * Real.exp (x - m) = Real.exp (x - m') := by
  rw [← Real.exp_add]; congr 1; ring

/-- The same under a double sum: exp (m - m') * ∑ j ∈ S, ∑ i, exp (s j i - m) * w j i
    = ∑ j ∈ S, ∑ i, exp (s j i - m') * w j i. -/
theorem rescale_sum {κ : Type} (S : Finset κ) (s w : κ → ι → ℝ) (m m' : ℝ) :
    Real.exp (m - m') * ∑ j ∈ S, ∑ i, Real.exp (s j i - m) * w j i
      = ∑ j ∈ S, ∑ i, Real.exp (s j i - m') * w j i := by
  rw [Finset.mul_sum]
  refine Finset.sum_congr rfl fun j _ => ?_
  rw [Finset.mul_sum]
  exact Finset.sum_congr rfl fun i _ => by rw [← mul_assoc, exp_rescale]

/-- The same without weights. -/
theorem rescale_sum_one {κ : Type} (S : Finset κ) (s : κ → ι → ℝ) (m m' : ℝ) :
    Real.exp (m - m') * ∑ j ∈ S, ∑ i, Real.exp (s j i - m)
      = ∑ j ∈ S, ∑ i, Real.exp (s j i - m') := by
  rw [Finset.mul_sum]
  refine Finset.sum_congr rfl fun j _ => ?_
  rw [Finset.mul_sum]
  exact Finset.sum_congr rfl fun i _ => exp_rescale _ _ _

/-- The invariant of the online softmax, one step of it: if the state holds the maximum m, the
    denominator ∑ j ∈ S, ∑ i, exp (s j i - m) and the numerator ∑ j ∈ S, ∑ i, exp (s j i - m) * v j i
    of the blocks S seen so far, then after the step on a new block k with any real b it holds
    those of insert k S at the new maximum max m b. -/
theorem stepR_insert {κ : Type} [DecidableEq κ] (s v : κ → ι → ℝ) (S : Finset κ) (k : κ)
    (hk : k ∉ S) (m b : ℝ) :
    stepR (s k) (v k) b (m, ∑ j ∈ S, ∑ i, Real.exp (s j i - m),
        ∑ j ∈ S, ∑ i, Real.exp (s j i - m) * v j i)
      = (max m b, ∑ j ∈ insert k S, ∑ i, Real.exp (s j i - max m b),
          ∑ j ∈ insert k S, ∑ i, Real.exp (s j i - max m b) * v j i) := by
  rw [Finset.sum_insert hk, Finset.sum_insert hk]
  exact Prod.ext rfl (Prod.ext
    ((congrArg (· + _) (rescale_sum_one S s m (max m b))).trans (add_comm _ _))
    ((congrArg (· + _) (rescale_sum S s v m (max m b))).trans (add_comm _ _)))

/-- Four steps on real data: the state is the maximum of the four b's and the denominator and
    numerator of all four blocks at that maximum. The b's may be any reals. -/
theorem run4_coe (s v : Fin 4 → ι → ℝ) (b : Fin 4 → ℝ) :
    run4 (fun j i => (s j i : EReal)) (fun j i => (v j i : EReal)) (fun j => (b j : EReal))
      = coe3 (max (max (max (b 0) (b 1)) (b 2)) (b 3),
          ∑ j, ∑ i, Real.exp (s j i - max (max (max (b 0) (b 1)) (b 2)) (b 3)),
          ∑ j, ∑ i, Real.exp (s j i - max (max (max (b 0) (b 1)) (b 2)) (b 3)) * v j i) := by
  have h0 : step (fun i => (s 0 i : EReal)) (fun i => (v 0 i : EReal)) (b 0 : EReal) (⊥, 0, 0)
      = coe3 (b 0, ∑ j ∈ ({0} : Finset (Fin 4)), ∑ i, Real.exp (s j i - b 0),
          ∑ j ∈ ({0} : Finset (Fin 4)), ∑ i, Real.exp (s j i - b 0) * v j i) := by
    rw [step_init]
    simp only [coe3, Finset.sum_singleton, coe_sum, EReal.coe_mul, ← EReal.coe_sub, Ideal.exp_coe]
  have hU : insert (3 : Fin 4) (insert (2 : Fin 4) (insert (1 : Fin 4) ({0} : Finset (Fin 4))))
      = Finset.univ := by decide
  unfold run4
  rw [h0, step_coe (s 1) (v 1) (b 1), stepR_insert s v {0} 1 (by decide),
    step_coe (s 2) (v 2) (b 2), stepR_insert s v (insert 1 {0}) 2 (by decide),
    step_coe (s 3) (v 3) (b 3), stepR_insert s v (insert 2 (insert 1 {0})) 3 (by decide), hU]

/-- The softmax-weighted average does not depend on the reference point of the exponentials:
    (∑ e^(s - m) v) / (∑ e^(s - m)) = ∑ (e^(s - M) / ∑ e^(s - M)) v for any reals m, M. -/
theorem ratio_shift {κ : Type} [Fintype κ] (s v : κ → ι → ℝ) (m M : ℝ) :
    (∑ j, ∑ i, Real.exp (s j i - m) * v j i) * (1 / ∑ j, ∑ i, Real.exp (s j i - m))
      = ∑ j, ∑ i, Real.exp (s j i - M) * (1 / ∑ j', ∑ i', Real.exp (s j' i' - M)) * v j i := by
  have hR : ∑ j, ∑ i, Real.exp (s j i - M) * (1 / ∑ j', ∑ i', Real.exp (s j' i' - M)) * v j i
      = (∑ j, ∑ i, Real.exp (s j i - M) * v j i) * (1 / ∑ j', ∑ i', Real.exp (s j' i' - M)) := by
    rw [Finset.sum_mul]
    refine Finset.sum_congr rfl fun j _ => ?_
    rw [Finset.sum_mul]
    exact Finset.sum_congr rfl fun i _ => by ring
  rw [hR, ← rescale_sum Finset.univ s v M m, ← rescale_sum_one Finset.univ s M m]
  have hE : Real.exp (M - m) ≠ 0 := (Real.exp_pos _).ne'
  generalize Real.exp (M - m) = E at hE ⊢
  generalize (∑ j, ∑ i, Real.exp (s j i - M) * v j i) = A
  generalize (∑ j, ∑ i, Real.exp (s j i - M)) = D
  rw [one_div, one_div, mul_inv, mul_assoc, ← mul_assoc A, mul_comm A, mul_assoc, ← mul_assoc E,
    mul_inv_cancel₀ hE, one_mul]

/-- Online softmax over four blocks equals the one-shot softmax, on real data: for real scores
    s j i and values v j i, ANY real block maxima b j and ANY real reference M, the final
    numerator divided by the final denominator is
    ∑ j i, (exp (s j i - M) / ∑ j' i', exp (s j' i' - M)) * v j i. -/
theorem online_softmax4_real [Nonempty ι] (s v : Fin 4 → ι → ℝ) (b : Fin 4 → ℝ) (M : ℝ) :
    Ideal.div
        (run4 (fun j i => (s j i : EReal)) (fun j i => (v j i : EReal)) (fun j => (b j : EReal))).2.2
        (run4 (fun j i => (s j i : EReal)) (fun j i => (v j i : EReal)) (fun j => (b j : EReal))).2.1
      = ∑ j : Fin 4, ∑ i : ι, Ideal.div (Ideal.exp ((s j i : EReal) - (M : EReal)))
          (∑ j' : Fin 4, ∑ i' : ι, Ideal.exp ((s j' i' : EReal) - (M : EReal))) * (v j i : EReal) := by
  have hpos : ∀ m : ℝ, 0 < ∑ j : Fin 4, ∑ i, Real.exp (s j i - m) := fun m =>
    Finset.sum_pos (fun j _ => Finset.sum_pos (fun i _ => Real.exp_pos _) Finset.univ_nonempty)
      Finset.univ_nonempty
  rw [run4_coe]
  simp only [coe3, ← EReal.coe_sub, Ideal.exp_coe, ← coe_sum]
  rw [Ideal.div_coe (hpos _).ne']
  simp only [Ideal.div_coe (hpos M).ne', ← EReal.coe_mul, ← coe_sum]
  exact congrArg _ (ratio_shift s v _ M)

/-- Online softmax over four blocks equals the one-shot softmax. Scores and values are real
    (finite); the block maxima bm j and the reference Mx only need to be real. -/
theorem online_softmax4_of_real [Nonempty ι] (s v : Fin 4 → ι → EReal)
    (hs : ∀ j i, ∃ r : ℝ, s j i = (r : EReal)) (hv : ∀ j i, ∃ r : ℝ, v j i = (r : EReal))
    (bm : Fin 4 → EReal) (hbm : ∀ j, ∃ r : ℝ, bm j = (r : EReal))
    (Mx : EReal) (hMx : ∃ r : ℝ, Mx = (r : EReal)) :
    Ideal.div (run4 s v bm).2.2 (run4 s v bm).2.1
      = ∑ j : Fin 4, ∑ i : ι, Ideal.div (Ideal.exp (s j i - Mx))
          (∑ j' : Fin 4, ∑ i' : ι, Ideal.exp (s j' i' - Mx)) * v j i := by
  choose sr hsr using hs
  choose vr hvr using hv
  choose br hbr using hbm
  obtain ⟨M, rfl⟩ := hMx
  obtain rfl : s = fun j i => (sr j i : EReal) := funext fun j => funext fun i => hsr j i
  obtain rfl : v = fun j i => (vr j i : EReal) := funext fun j => funext fun i => hvr j i
  obtain rfl : bm = fun j => (br j : EReal) := funext hbr
  exact online_softmax4_real sr vr br M

/-- Online softmax over four blocks equals the one-shot softmax (the softmax over all the keys of
    the four blocks, with the global maximum Mx subtracted), for real scores and values, when
    bm j is the maximum of block j and Mx the maximum of all scores. -/
theorem online_softmax4 (s v : Fin 4 → ι → EReal)
    (hs : ∀ j i, ∃ r : ℝ, s j i = (r : EReal)) (hv : ∀ j i, ∃ r : ℝ, v j i = (r : EReal))
    (bm : Fin 4 → EReal) (_hbm_ge : ∀ j i, s j i ≤ bm j) (hbm_at : ∀ j, ∃ i, bm j = s j i)
    (Mx : EReal) (_hM_ge : ∀ j i, s j i ≤ Mx) (hM_at : ∃ j i, Mx = s j i) :
    Ideal.div (run4 s v bm).2.2 (run4 s v bm).2.1
      = ∑ j : Fin 4, ∑ i : ι, Ideal.div (Ideal.exp (s j i - Mx))
          (∑ j' : Fin 4, ∑ i' : ι, Ideal.exp (s j' i' - Mx)) * v j i := by
  obtain ⟨j0, i0, h0⟩ := hM_at
  haveI : Nonempty ι := ⟨i0⟩
  refine online_softmax4_of_real s v hs hv bm (fun j => ?_) Mx ?_
  · obtain ⟨i, hi⟩ := hbm_at j
    obtain ⟨r, hr⟩ := hs j i
    exact ⟨r, hi.trans hr⟩
  · obtain ⟨r, hr⟩ := hs j0 i0
    exact ⟨r, h0.trans hr⟩

/-! ### A fold of max is an upper bound that is attained -/

section FoldMax

variable {κ : Type} {β : Type} [LinearOrder β]

/-- Every member of the family is at most the fold of max over it, from any initial value. -/
theorem le_fold_max_of_mem (t : Finset κ) (f : κ → β) (b : β) {k : κ} (hk : k ∈ t) :
    f k ≤ t.fold max b f :=
  (Finset.le_fold_max (f k)).2 (Or.inr ⟨k, hk, le_rfl⟩)

/-- The fold of max is its initial value or the value at some member. -/
theorem fold_max_eq_init_or_mem (t : Finset κ) (f : κ → β) (b : β) :
    t.fold max b f = b ∨ ∃ k ∈ t, t.fold max b f = f k := by
  classical
  induction t using Finset.induction_on with
  | empty => exact Or.inl Finset.fold_empty
  | insert a t ha ih =>
    rw [Finset.fold_insert ha]
    rcases le_total (f a) (t.fold max b f) with h | h
    · rw [max_eq_right h]
      rcases ih with h0 | ⟨k, hk, hk'⟩
      · exact Or.inl h0
      · exact Or.inr ⟨k, Finset.mem_insert_of_mem hk, hk'⟩
    · rw [max_eq_left h]
      exact Or.inr ⟨a, Finset.mem_insert_self _ _, rfl⟩

/-- If the initial value is below some member, the fold of max is attained at a member. -/
theorem fold_max_attained (t : Finset κ) (f : κ → β) (b : β) (hb : ∃ k ∈ t, b ≤ f k) :
    ∃ k ∈ t, t.fold max b f = f k := by
  rcases fold_max_eq_init_or_mem t f b with h | h
  · obtain ⟨k, hk, hbk⟩ := hb
    exact ⟨k, hk, le_antisymm (by rw [h]; exact hbk) (le_fold_max_of_mem t f b hk)⟩
  · exact h

end FoldMax

/-- Over a nonempty finite family of extended reals, the fold of max from -∞ is at least every
    member and is the value at some member. -/
theorem fold_max_bot_spec {κ : Type} [Fintype κ] [Nonempty κ] (f : κ → EReal) :
    (∀ k, f k ≤ Finset.univ.fold max ⊥ f) ∧ ∃ k, Finset.univ.fold max ⊥ f = f k := by
  refine ⟨fun k => le_fold_max_of_mem _ f ⊥ (Finset.mem_univ k), ?_⟩
  obtain ⟨k, _, hk⟩ := fold_max_attained Finset.univ f ⊥
    ⟨Classical.arbitrary κ, Finset.mem_univ _, bot_le⟩
  exact ⟨k, hk⟩

/-- A value that is at least every member of a family and is attained at one is the fold of max
    from -∞ over the family. -/
theorem eq_fold_max_bot {κ : Type} [Fintype κ] (f : κ → EReal) (M : EReal) (hge : ∀ k, f k ≤ M)
    (hat : ∃ k, M = f k) : Finset.univ.fold max ⊥ f = M := by
  obtain ⟨k, hk⟩ := hat
  refine le_antisymm ((Finset.fold_max_le M).2 ⟨bot_le, fun x _ => hge x⟩) ?_
  rw [hk]
  exact le_fold_max_of_mem _ f ⊥ (Finset.mem_univ k)

/-- On the extended reals the float maximum is max, so a fold of it is the fold of max. -/
theorem fold_maximumf_eq {φ : FTy} {κ : Type} (t : Finset κ) (f : κ → Ideal φ) (b : Ideal φ) :
    t.fold (FloatOps.maximumf (F := Ideal) (φ := φ)) b f = t.fold max b f := rfl

/-! ### Four blocks of n -/

/-- The position of element i of block j among 4 * n elements laid out block after block. -/
theorem blockIdx_lt {n : ℕ} (j : Fin 4) (i : Fin n) : j.val * n + i.val < 4 * n := by
  have hj := j.isLt
  have hi := i.isLt
  calc j.val * n + i.val < j.val * n + n := by omega
    _ = (j.val + 1) * n := by ring
    _ ≤ 4 * n := Nat.mul_le_mul_right n (by omega)

/-- Element i of block j, as an index into 4 * n elements. -/
def blockIdx {n : ℕ} (j : Fin 4) (i : Fin n) : Fin (4 * n) := ⟨j.val * n + i.val, blockIdx_lt j i⟩

/-- It is Mathlib's pairing of Fin 4 × Fin n with Fin (4 * n). -/
theorem blockIdx_eq {n : ℕ} (j : Fin 4) (i : Fin n) : blockIdx j i = finProdFinEquiv (j, i) :=
  Fin.ext (by simp [blockIdx, finProdFinEquiv, Nat.add_comm, Nat.mul_comm])

/-- Every index below 4 * n is element i of block j for some j and i. -/
theorem exists_blockIdx {n : ℕ} (k : Fin (4 * n)) : ∃ j i, k = blockIdx j i := by
  obtain ⟨⟨j, i⟩, h⟩ := finProdFinEquiv.surjective k
  exact ⟨j, i, by rw [blockIdx_eq, h]⟩

/-- A sum over 4 * n elements is the sum over the four blocks of the sums over each block. -/
theorem sum_fin_mul {α : Type*} [AddCommMonoid α] {n : ℕ} (f : Fin (4 * n) → α) :
    ∑ k, f k = ∑ j : Fin 4, ∑ i : Fin n, f ⟨j.val * n + i.val, blockIdx_lt j i⟩ := by
  rw [← Equiv.sum_comp finProdFinEquiv f, Fintype.sum_prod_type]
  exact Finset.sum_congr rfl fun j _ => Finset.sum_congr rfl fun i _ =>
    congrArg f (blockIdx_eq j i).symm

/-- An upper bound of 4 * n extended reals that is attained is an upper bound, attained, of the
    same numbers indexed by block and position, and conversely. -/
theorem max_spec_blocks {n : ℕ} (f : Fin (4 * n) → EReal) (M : EReal) :
    ((∀ k, f k ≤ M) ∧ ∃ k, M = f k)
      ↔ ((∀ j i, f (blockIdx j i) ≤ M) ∧ ∃ j i, M = f (blockIdx j i)) := by
  constructor
  · rintro ⟨hge, k, hk⟩
    obtain ⟨j, i, rfl⟩ := exists_blockIdx k
    exact ⟨fun j i => hge _, j, i, hk⟩
  · rintro ⟨hge, j, i, hk⟩
    refine ⟨fun k => ?_, blockIdx j i, hk⟩
    obtain ⟨j', i', rfl⟩ := exists_blockIdx k
    exact hge j' i'

/-- The fold of max from -∞ over 4 * n extended reals is the fold over the four blocks of the
    folds over each block. -/
theorem fold_max_fin_mul {n : ℕ} (f : Fin (4 * n) → EReal) :
    Finset.univ.fold max ⊥ f
      = Finset.univ.fold max ⊥ fun j : Fin 4 => Finset.univ.fold max ⊥ fun i : Fin n =>
          f (blockIdx j i) := by
  refine le_antisymm ((Finset.fold_max_le _).2 ⟨bot_le, fun k _ => ?_⟩)
    ((Finset.fold_max_le _).2 ⟨bot_le, fun j _ => (Finset.fold_max_le _).2 ⟨bot_le, fun i _ =>
      le_fold_max_of_mem _ f ⊥ (Finset.mem_univ _)⟩⟩)
  obtain ⟨j, i, rfl⟩ := exists_blockIdx k
  exact (le_fold_max_of_mem Finset.univ (fun i : Fin n => f (blockIdx j i)) ⊥
      (Finset.mem_univ i)).trans
    (le_fold_max_of_mem Finset.univ
      (fun j : Fin 4 => Finset.univ.fold max ⊥ fun i : Fin n => f (blockIdx j i)) ⊥
      (Finset.mem_univ j))

/-! ### The scale 1 / √1024 -/

/-- 1024 to the power one half is 32. -/
theorem rpow_half : Real.rpow 1024 (1 / 2 : ℝ) = 32 := by
  show (1024 : ℝ) ^ (1 / 2 : ℝ) = 32
  have h : (1024 : ℝ) = (32 : ℝ) ^ (2 : ℝ) := by rw [Real.rpow_two]; norm_num
  rw [h, ← Real.rpow_mul (by norm_num : (0 : ℝ) ≤ 32)]
  norm_num

/-- On the extended reals, 1024 to the power one half is 32. -/
theorem pow_half : Ideal.pow ((1024 : ℝ) : EReal) ((1 / 2 : ℝ) : EReal) = ((32 : ℝ) : EReal) := by
  rw [Ideal.pow_coe_coe, rpow_half]

/-- Dividing a real by 32 is multiplying it by 1/32. -/
theorem div_32 (x : ℝ) :
    Ideal.div (x : EReal) ((32 : ℝ) : EReal) = (x : EReal) * ((1 / 32 : ℝ) : EReal) :=
  Ideal.div_coe (by norm_num) _

/-- The binary32 pattern 0x3F000000 denotes one half. -/
theorem ofBits_half : Ideal.ofBits .f32 0x3F000000#32 = ((1 / 2 : ℝ) : EReal) := by
  simp [Ideal.ofBits, Ideal.ieee, -EReal.coe_mul]; norm_num

/-- The binary32 pattern 0x44800000 denotes 1024. -/
theorem ofBits_1024 : Ideal.ofBits .f32 0x44800000#32 = ((1024 : ℝ) : EReal) := by
  simp [Ideal.ofBits, Ideal.ieee, -EReal.coe_mul]; norm_num

/-- The binary32 pattern 0x3D000000 denotes 1/32. -/
theorem ofBits_inv32 : Ideal.ofBits .f32 0x3D000000#32 = ((1 / 32 : ℝ) : EReal) := by
  simp [Ideal.ofBits, Ideal.ieee, -EReal.coe_mul]; norm_num

/-- The binary32 pattern 0xFF800000 denotes -∞. -/
theorem ofBits_neg_inf : Ideal.ofBits .f32 0xFF800000#32 = ⊥ := by
  simp [Ideal.ofBits, Ideal.ieee]

end Cert.LibOnlineSoftmax

end
-- ==== Proof.MathFacts.lean ====
/-
  Small facts about extended reals whose entries are real numbers: sums, products, maxima and
  exponentials of real numbers are real, multiplication distributes over finite sums of real
  numbers, and the two pointwise nonlinearities x ↦ (x ≥ 0 ? x : c·x) and
  x ↦ (x > 0 ? x : exp x - 1) computed on real numbers.
-/
import Mathlib.Data.EReal.Inv
import Mathlib.Algebra.BigOperators.Fin
import Idealize.ShloMosaic.PureOps.Ideal
import Idealize.ShloMosaic.PureOps.Ideal.Laws
import proofs.«121306_j85255100825818_2_alg».proof.Proof.LibOnlineSoftmax

noncomputable section

namespace Cert.SoftmaxMath

open Idealize.ShloMosaic
open Cert.LibOnlineSoftmax
open scoped BigOperators

/-! ### Real numbers inside the extended reals are closed under the operations -/

/-- A real number is a real number. -/
theorem real_coe (r : ℝ) : ∃ r' : ℝ, (r : EReal) = (r' : EReal) := ⟨r, rfl⟩

/-- Zero is a real number. -/
theorem real_zero : ∃ r : ℝ, (0 : EReal) = (r : EReal) := ⟨0, rfl⟩

/-- One is a real number. -/
theorem real_one : ∃ r : ℝ, (1 : EReal) = (r : EReal) := ⟨1, rfl⟩

/-- The sum of two real numbers is a real number. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The difference of two real numbers is a real number. -/
theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The product of two real numbers is a real number. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The negative of a real number is a real number. -/
theorem real_neg {x : EReal} (hx : ∃ r : ℝ, x = (r : EReal)) : ∃ r : ℝ, -x = (r : EReal) := by
  obtain ⟨a, rfl⟩ := hx
  exact ⟨-a, (EReal.coe_neg a).symm⟩

/-- The larger of two real numbers is a real number. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (coe_max a b).symm⟩

/-- The smaller of two real numbers is a real number. -/
theorem real_min {x y : EReal} (hx : ∃ r : ℝ, x = (r : EReal)) (hy : ∃ r : ℝ, y = (r : EReal)) :
    ∃ r : ℝ, min x y = (r : EReal) := by
  obtain ⟨a, rfl⟩ := hx
  obtain ⟨b, rfl⟩ := hy
  exact ⟨min a b, (EReal.coe_strictMono.monotone.map_min).symm⟩

/-- Either of two real numbers, chosen by a condition, is a real number. -/
theorem real_ite {p : Prop} [Decidable p] {x y : EReal} (hx : ∃ r : ℝ, x = (r : EReal))
    (hy : ∃ r : ℝ, y = (r : EReal)) : ∃ r : ℝ, (if p then x else y) = (r : EReal) := by
  split
  · exact hx
  · exact hy

/-- A real number divided by a nonzero real number is a real number. -/
theorem real_div {x y : EReal} (hx : ∃ r : ℝ, x = (r : EReal))
    (hy : ∃ r : ℝ, r ≠ 0 ∧ y = (r : EReal)) : ∃ r : ℝ, Ideal.div x y = (r : EReal) := by
  obtain ⟨a, rfl⟩ := hx
  obtain ⟨b, hb, rfl⟩ := hy
  exact ⟨a * (1 / b), by rw [Ideal.div_coe hb, EReal.coe_mul]⟩

/-- A real number divided by a nonzero real number is their real quotient. -/
theorem div_coe_coe (a : ℝ) {b : ℝ} (hb : b ≠ 0) :
    Ideal.div (a : EReal) (b : EReal) = ((a / b : ℝ) : EReal) := by
  rw [Ideal.div_coe hb, ← EReal.coe_mul, ← div_eq_mul_one_div]

/-- A finite sum of real numbers is a real number. -/
theorem real_sum {α : Type*} (t : Finset α) (f : α → EReal)
    (hf : ∀ x ∈ t, ∃ r : ℝ, f x = (r : EReal)) : ∃ r : ℝ, ∑ x ∈ t, f x = (r : EReal) := by
  refine ⟨∑ x ∈ t, (f x).toReal, ?_⟩
  rw [coe_sum]
  refine Finset.sum_congr rfl fun x hx => ?_
  obtain ⟨r, hr⟩ := hf x hx
  rw [hr, EReal.toReal_coe]

/-- A finite sum of real numbers is the coercion of the sum of their real values. -/
theorem sum_eq_coe_toReal {α : Type*} (t : Finset α) (f : α → EReal)
    (hf : ∀ x ∈ t, ∃ r : ℝ, f x = (r : EReal)) :
    ∑ x ∈ t, f x = ((∑ x ∈ t, (f x).toReal : ℝ) : EReal) := by
  rw [coe_sum]
  refine Finset.sum_congr rfl fun x hx => ?_
  obtain ⟨r, hr⟩ := hf x hx
  rw [hr, EReal.toReal_coe]

/-- The coercion of a finite product of reals is the product of the coercions. -/
theorem coe_prod {α : Type*} (t : Finset α) (f : α → ℝ) :
    ((∏ x ∈ t, f x : ℝ) : EReal) = ∏ x ∈ t, (f x : EReal) := by
  classical
  induction t using Finset.induction_on with
  | empty => simp
  | insert a t ha ih => rw [Finset.prod_insert ha, Finset.prod_insert ha, EReal.coe_mul, ih]

/-- A finite product of real numbers is a real number. -/
theorem real_prod {α : Type*} (t : Finset α) (f : α → EReal)
    (hf : ∀ x ∈ t, ∃ r : ℝ, f x = (r : EReal)) : ∃ r : ℝ, ∏ x ∈ t, f x = (r : EReal) := by
  refine ⟨∏ x ∈ t, (f x).toReal, ?_⟩
  rw [coe_prod]
  refine Finset.prod_congr rfl fun x hx => ?_
  obtain ⟨r, hr⟩ := hf x hx
  rw [hr, EReal.toReal_coe]

/-- The fold of max from -∞ over a nonempty finite family of real numbers is a real number. -/
theorem real_fold_max {κ : Type} [Fintype κ] [Nonempty κ] (f : κ → EReal)
    (hf : ∀ k, ∃ r : ℝ, f k = (r : EReal)) :
    ∃ r : ℝ, Finset.univ.fold max ⊥ f = (r : EReal) := by
  obtain ⟨k, hk⟩ := (fold_max_bot_spec f).2
  obtain ⟨r, hr⟩ := hf k
  exact ⟨r, hk.trans hr⟩

/-! ### Distributivity over finite sums of real numbers -/

/-- Multiplying every term of a finite sum of real numbers by a real number c on the right
    multiplies the sum by c. -/
theorem sum_coe_mul_coe {α : Type*} (t : Finset α) (h : α → ℝ) (c : ℝ) :
    ∑ j ∈ t, (h j : EReal) * (c : EReal) = (c : EReal) * ∑ j ∈ t, (h j : EReal) := by
  simp only [← EReal.coe_mul, ← coe_sum]
  rw [Finset.mul_sum]
  exact congrArg _ (Finset.sum_congr rfl fun j _ => mul_comm _ _)

/-- Multiplying every term of a finite sum of real numbers by a real number c on the left
    multiplies the sum by c. -/
theorem sum_coe_mul_coe_left {α : Type*} (t : Finset α) (h : α → ℝ) (c : ℝ) :
    ∑ j ∈ t, (c : EReal) * (h j : EReal) = (c : EReal) * ∑ j ∈ t, (h j : EReal) := by
  simp only [← EReal.coe_mul, ← coe_sum]
  rw [Finset.mul_sum]

/-- The same for extended reals known to be real numbers. -/
theorem sum_mul_of_real {α : Type*} (t : Finset α) (h : α → EReal) (c : EReal)
    (hh : ∀ j ∈ t, ∃ r : ℝ, h j = (r : EReal)) (hc : ∃ r : ℝ, c = (r : EReal)) :
    ∑ j ∈ t, h j * c = c * ∑ j ∈ t, h j := by
  obtain ⟨c', rfl⟩ := hc
  have h1 : ∑ j ∈ t, h j * (c' : EReal) = ∑ j ∈ t, (((h j).toReal : ℝ) : EReal) * (c' : EReal) :=
    Finset.sum_congr rfl fun j hj => by
      obtain ⟨r, hr⟩ := hh j hj
      rw [hr, EReal.toReal_coe]
  have h2 : ∑ j ∈ t, h j = ∑ j ∈ t, (((h j).toReal : ℝ) : EReal) :=
    Finset.sum_congr rfl fun j hj => by
      obtain ⟨r, hr⟩ := hh j hj
      rw [hr, EReal.toReal_coe]
  rw [h1, h2, sum_coe_mul_coe]

/-- The same with the real number c on the left of every term. -/
theorem sum_mul_of_real_left {α : Type*} (t : Finset α) (h : α → EReal) (c : EReal)
    (hh : ∀ j ∈ t, ∃ r : ℝ, h j = (r : EReal)) (hc : ∃ r : ℝ, c = (r : EReal)) :
    ∑ j ∈ t, c * h j = c * ∑ j ∈ t, h j := by
  rw [← sum_mul_of_real t h c hh hc]
  exact Finset.sum_congr rfl fun j _ => mul_comm _ _

/-! ### The exponential of a real number -/

/-- The exponential of a real number is a positive extended real. -/
theorem exp_coe_pos (r : ℝ) : (0 : EReal) < Ideal.exp (r : EReal) := by
  rw [Ideal.exp_coe]
  exact_mod_cast Real.exp_pos r

/-- The exponential of a real number is a positive real number. -/
theorem real_exp {x : EReal} (hx : ∃ r : ℝ, x = (r : EReal)) :
    ∃ r : ℝ, 0 < r ∧ Ideal.exp x = (r : EReal) := by
  obtain ⟨a, rfl⟩ := hx
  exact ⟨Real.exp a, Real.exp_pos a, Ideal.exp_coe a⟩

/-- The exponential of the difference of two real numbers. -/
theorem exp_coe_sub (a b : ℝ) : Ideal.exp ((a : EReal) - (b : EReal)) = (Real.exp (a - b) : EReal) := by
  rw [← EReal.coe_sub, Ideal.exp_coe]

/-- exp x - 1 on a real number. -/
theorem expm1_coe (r : ℝ) : Ideal.expm1 (r : EReal) = ((Real.exp r - 1 : ℝ) : EReal) := by
  rw [Ideal.expm1, Ideal.exp_coe, ← EReal.coe_one, ← EReal.coe_sub]

/-! ### Choosing by a comparison -/

/-- Choosing by the comparison x > y. -/
theorem select_cmp_ogt {α : Type} (x y : EReal) (a b : α) :
    Scalar.select (Ideal.cmp .ogt x y) a b = if y < x then a else b := by
  by_cases h : y < x <;> simp [Scalar.select, Ideal.cmp, h]

/-- Choosing by the comparison x ≥ y. -/
theorem select_cmp_oge {α : Type} (x y : EReal) (a b : α) :
    Scalar.select (Ideal.cmp .oge x y) a b = if y ≤ x then a else b := by
  by_cases h : y ≤ x <;> simp [Scalar.select, Ideal.cmp, h]

/-! ### x ≥ 0 ? x : c·x -/

/-- On real numbers, (x ≥ 0 ? x : c·x) is the real number computed the same way. -/
theorem leaky_coe (c x : ℝ) :
    (if (0 : EReal) ≤ (x : EReal) then (x : EReal) else (c : EReal) * (x : EReal))
      = ((if 0 ≤ x then x else c * x : ℝ) : EReal) := by
  by_cases h : 0 ≤ x
  · rw [if_pos (by exact_mod_cast h), if_pos h]
  · rw [if_neg (by exact_mod_cast h), if_neg h, EReal.coe_mul]

/-- The same with the choice written as a selection by a comparison. -/
theorem leaky_select_coe (c x : ℝ) :
    Scalar.select (Ideal.cmp .oge (x : EReal) 0) (x : EReal) ((c : EReal) * (x : EReal))
      = ((if 0 ≤ x then x else c * x : ℝ) : EReal) := by
  rw [select_cmp_oge, leaky_coe]

/-! ### x > 0 ? x : exp x - 1 -/

/-- (x > 0 ? x : 1·(exp (x > 0 ? 0 : x) - 1)) = (x > 0 ? x : exp x - 1): where the outer choice
    takes the second branch, the inner one takes x. -/
theorem elu_eq (x : EReal) :
    (if (0 : EReal) < x then x
        else (1 : EReal) * (Ideal.exp (if (0 : EReal) < x then (0 : EReal) else x) - 1))
      = if (0 : EReal) < x then x else Ideal.exp x - 1 := by
  by_cases h : (0 : EReal) < x
  · rw [if_pos h, if_pos h]
  · rw [if_neg h, if_neg h, if_neg h, one_mul]

/-- The same with exp x - 1 written as one operation and the choices as selections by a
    comparison. -/
theorem elu_select_eq (x : EReal) :
    Scalar.select (Ideal.cmp .ogt x 0) x
        ((1 : EReal) * Ideal.expm1 (Scalar.select (Ideal.cmp .ogt x 0) (0 : EReal) x))
      = Scalar.select (Ideal.cmp .ogt x 0) x (Ideal.exp x - 1) := by
  simp only [select_cmp_ogt, Ideal.expm1]
  exact elu_eq x

/-- On a real number, (x > 0 ? x : exp x - 1) is the real number computed the same way. -/
theorem elu_coe (x : ℝ) :
    (if (0 : EReal) < (x : EReal) then (x : EReal) else Ideal.exp (x : EReal) - 1)
      = ((if 0 < x then x else Real.exp x - 1 : ℝ) : EReal) := by
  by_cases h : 0 < x
  · rw [if_pos (by exact_mod_cast h), if_pos h]
  · rw [if_neg (by exact_mod_cast h), if_neg h, Ideal.exp_coe, ← EReal.coe_one, ← EReal.coe_sub]

/-- The same with the choice written as a selection by a comparison. -/
theorem elu_select_coe (x : ℝ) :
    Scalar.select (Ideal.cmp .ogt (x : EReal) 0) (x : EReal) (Ideal.exp (x : EReal) - 1)
      = ((if 0 < x then x else Real.exp x - 1 : ℝ) : EReal) := by
  rw [select_cmp_ogt, elu_coe]

end Cert.SoftmaxMath

end
-- ==== Proof.BridgeProj.lean ====
/-
  The projection stage of the two programs is one function.

  Both compute the projected features as the node features times the transposed weight: entry `(n, j)` is
  `Σ_k x[n,k] · W[j,k]`.  For the per-node score the kernel multiplies the two lane sums `Σ_j h[n,j] · a[j]` and
  `Σ_j h[n,j]`, while the reference multiplies every `h[n,j]` by the first sum and then adds over `j` (from zero).  The two
  agree because a common factor comes out of a finite sum — a law of the real numbers, which fails on the extended reals
  at infinities, so it is used where every entry is a real: sums and products of reals are reals.  Both then apply the
  same leaky rectifier with the same literal slope.
-/
import proofs.«121306_j85255100825818_2_alg».proof.Proof.ProjValue
import proofs.«121306_j85255100825818_2_alg».proof.Proof.ProjValueHost
import proofs.«121306_j85255100825818_2_alg».proof.Proof.RefDefs
import proofs.«121306_j85255100825818_2_alg».proof.Proof.Gen.ReferenceIdeal
import proofs.«121306_j85255100825818_2_alg».proof.Proof.MathFacts
import Idealize.ShloMosaic.Lib.IdealHost
import Idealize.ShloMosaic.Lib.ValueLayout

set_option maxRecDepth 16384

noncomputable section

open scoped BigOperators

namespace Cert.BridgeProj

open Idealize.ShloMosaic Idealize.ShloMosaic.ValueIdx
open Cert.ReferenceIdeal Cert.ReferenceIdeal.Gen Cert.ReferenceIdeal.RefRun
open Cert.KernelIdeal.ProjValue (hFun hFun_apply alphaFun alphaFun_apply leaky leaky_eq colVec_apply logitsK)
open Cert.SoftmaxMath

/-! ## The reference's operations at an index -/

/-- The reference's projected features at `(n, j)`: the sum over the 256 features of `x[n,k] · W[j,k]`. -/
theorem hR_apply (x : FVec Ideal S8192x256 .f32) (W : FVec Ideal S512x256 .f32) (n : Fin 8192) (j : Fin 512) :
    hR x W (ix2 n j) = ∑ k : Fin 256, x (ix2 n k) * W (ix2 j k) := by
  unfold hR
  show FloatOps.dotGeneral dot_S8192x256_S256x512_S8192x512_1_0_0_1_n_n none _ x _ (ix2 n j) = _
  rw [Ideal.dotGeneral_apply,
    ← Equiv.sum_comp (contrEquiv1 dot_S8192x256_S256x512_S8192x512_1_0_0_1_n_n 256 rfl rfl).symm]
  refine Finset.sum_congr rfl fun c _ => ?_
  have c2 := contrEquiv1_symm_val dot_S8192x256_S256x512_S8192x512_1_0_0_1_n_n 256 rfl rfl c
  have l2 : dot_S8192x256_S256x512_S8192x512_1_0_0_1_n_n.lhsIdx (ix2 n j) ((contrEquiv1 _ 256 rfl rfl).symm c) = ix2 n c := by
    funext ax; apply Fin.ext
    match ax with
    | ⟨0, _⟩ => simp [DotDims.lhsIdx, dot_S8192x256_S256x512_S8192x512_1_0_0_1_n_n]; rfl
    | ⟨1, _⟩ => simp [DotDims.lhsIdx, dot_S8192x256_S256x512_S8192x512_1_0_0_1_n_n]; exact c2
  have r2 : dot_S8192x256_S256x512_S8192x512_1_0_0_1_n_n.rhsIdx (ix2 n j) ((contrEquiv1 _ 256 rfl rfl).symm c) = ix2 c j := by
    funext ax; apply Fin.ext
    match ax with
    | ⟨0, _⟩ => simp [DotDims.rhsIdx, dot_S8192x256_S256x512_S8192x512_1_0_0_1_n_n]; exact c2
    | ⟨1, _⟩ => simp [DotDims.rhsIdx, dot_S8192x256_S256x512_S8192x512_1_0_0_1_n_n]; rfl
  rw [l2, r2, transpose_ix2_apply]

/-- The reference's product of the projected features with the attention row, at node `n`: `Σ_j h[n,j] · a[j]`. -/
theorem rowdot_apply (h : FVec Ideal S8192x512 .f32) (a : FVec Ideal S1x512 .f32) (n : Fin 8192) :
    Host.dotGeneral (F := Ideal) dot_S8192x512_S512x1_S8192x1_1_0_0_1_n_n none h
        (transpose S512x1 [1, 0] a transposes_S1x512_S512x1_1_0) (ix2 n (0 : Fin 1))
      = ∑ j : Fin 512, h (ix2 n j) * a (ix2 (0 : Fin 1) j) := by
  show FloatOps.dotGeneral dot_S8192x512_S512x1_S8192x1_1_0_0_1_n_n none _ h _ (ix2 n (0 : Fin 1)) = _
  rw [Ideal.dotGeneral_apply,
    ← Equiv.sum_comp (contrEquiv1 dot_S8192x512_S512x1_S8192x1_1_0_0_1_n_n 512 rfl rfl).symm]
  refine Finset.sum_congr rfl fun c _ => ?_
  have c2 := contrEquiv1_symm_val dot_S8192x512_S512x1_S8192x1_1_0_0_1_n_n 512 rfl rfl c
  have l2 : dot_S8192x512_S512x1_S8192x1_1_0_0_1_n_n.lhsIdx (ix2 n (0 : Fin 1)) ((contrEquiv1 _ 512 rfl rfl).symm c) = ix2 n c := by
    funext ax; apply Fin.ext
    match ax with
    | ⟨0, _⟩ => simp [DotDims.lhsIdx, dot_S8192x512_S512x1_S8192x1_1_0_0_1_n_n]; rfl
    | ⟨1, _⟩ => simp [DotDims.lhsIdx, dot_S8192x512_S512x1_S8192x1_1_0_0_1_n_n]; exact c2
  have r2 : dot_S8192x512_S512x1_S8192x1_1_0_0_1_n_n.rhsIdx (ix2 n (0 : Fin 1)) ((contrEquiv1 _ 512 rfl rfl).symm c) = ix2 c (0 : Fin 1) := by
    funext ax; apply Fin.ext
    match ax with
    | ⟨0, _⟩ => simp [DotDims.rhsIdx, dot_S8192x512_S512x1_S8192x1_1_0_0_1_n_n]; exact c2
    | ⟨1, _⟩ => simp [DotDims.rhsIdx, dot_S8192x512_S512x1_S8192x1_1_0_0_1_n_n]
  rw [l2, r2, transpose_ix2_apply]

/-- The reference's sum over the 512 columns from zero, at node `n`. -/
theorem rowsum_apply (v : FVec Ideal S8192x512 .f32) (n : Fin 8192) :
    Host.reduceAdd (F := Ideal) v zeroS reducesTo_S8192x512_S8192_d1 h_S_ (ix1 n) = ∑ k : Fin 512, v (ix2 n k) := by
  rw [hostReduceAdd_apply, Ideal.hostReduceAdd_single reducesTo_S8192x512_S8192_d1 (by decide : S8192x512.Reduces [1] S8192)]
  show Ideal.ofBits .f32 0x00000000#32 + _ = _
  rw [Ideal.ofBits_zero_f32, zero_add]
  refine Finset.sum_congr rfl fun k _ => congrArg v ?_
  funext ax; apply Fin.ext
  match ax with
  | ⟨0, _⟩ => rfl
  | ⟨1, _⟩ => rfl

/-- The reference's leaky rectifier at node `n` is the kernel's, on the same value. -/
theorem leakyR_apply (z : FVec Ideal S8192 .f32) (n : Fin 8192) : leakyR z (ix1 n) = leaky (z (ix1 n)) := by
  unfold leakyR leaky zeroS
  simp only [select_apply, cmpf_apply, mulf_apply, broadcastInDim_scalar_apply, constant_apply]
  rfl

/-- The reference's score at node `n`: the rectifier of `Σ_k h[n,k] · (Σ_j h[n,j] · a[j])`. -/
theorem alphaR_apply (h : FVec Ideal S8192x512 .f32) (a : FVec Ideal S1x512 .f32) (n : Fin 8192) :
    alphaR h a (ix1 n) = leaky (∑ k : Fin 512, h (ix2 n k) * ∑ j : Fin 512, h (ix2 n j) * a (ix2 (0 : Fin 1) j)) := by
  unfold alphaR
  rw [leakyR_apply, rowsum_apply]
  refine congrArg leaky (Finset.sum_congr rfl fun k _ => ?_)
  rw [mulf_apply]
  refine congrArg (h (ix2 n k) * ·) ?_
  refine (broadcastInDim_apply _ _ _ (ix2 n k) (ix2 n (0 : Fin 1)) fun ax => ?_).trans (rowdot_apply h a n)
  match ax with
  | ⟨0, _⟩ => rfl
  | ⟨1, _⟩ => rfl

/-! ## The projected features -/

/-- THE PROJECTED FEATURES of the two programs are one array. -/
theorem hFun_eq_hR (x : FVec Ideal S8192x256 .f32) (W : FVec Ideal S512x256 .f32) :
    hFun x (transpose Cert.KernelIdeal.S256x512 [1, 0] W Cert.KernelIdeal.Gen.transposes_S512x256_S256x512_1_0) = hR x W := by
  funext i
  obtain ⟨n, j, rfl⟩ : ∃ (n : Fin 8192) (j : Fin 512), i = ix2 n j := ⟨i 0, i 1, eq_ix2 i⟩
  rw [hFun_apply, hR_apply]
  refine Finset.sum_congr rfl fun k _ => ?_
  rw [transpose_ix2_apply]

/-- Every projected feature is a real when the features and the weight are. -/
theorem real_hR (x : FVec Ideal S8192x256 .f32) (W : FVec Ideal S512x256 .f32)
    (hx : ∀ i, ∃ r : ℝ, x i = (r : EReal)) (hW : ∀ i, ∃ r : ℝ, W i = (r : EReal)) (i : S8192x512.Idx) :
    ∃ r : ℝ, hR x W i = (r : EReal) := by
  obtain ⟨n, j, rfl⟩ : ∃ (n : Fin 8192) (j : Fin 512), i = ix2 n j := ⟨i 0, i 1, eq_ix2 i⟩
  rw [hR_apply]
  exact real_sum _ _ fun k _ => real_mul (hx _) (hW _)

/-! ## The per-node score -/

/-- The literal slope 0.2 is a real. -/
theorem real_slope : ∃ r : ℝ, Ideal.ofBits .f32 0x3E4CCCCD#32 = (r : EReal) := by
  refine ⟨(13421773 / 67108864 : ℝ), ?_⟩
  simp [Ideal.ofBits, Ideal.ieee, -EReal.coe_mul]; norm_num

/-- The rectifier of a real is a real. -/
theorem real_leaky {z : EReal} (hz : ∃ r : ℝ, z = (r : EReal)) : ∃ r : ℝ, leaky z = (r : EReal) := by
  rw [leaky_eq]
  exact real_ite hz (real_mul real_slope hz)

/-- Over real entries the reference's grouping of the score is the kernel's: the common factor comes out of the sum. -/
theorem score_regroup (h : FVec Ideal S8192x512 .f32) (a : FVec Ideal S1x512 .f32)
    (hh : ∀ i, ∃ r : ℝ, h i = (r : EReal)) (ha : ∀ i, ∃ r : ℝ, a i = (r : EReal)) (n : Fin 8192) :
    (∑ k : Fin 512, h (ix2 n k) * ∑ j : Fin 512, h (ix2 n j) * a (ix2 (0 : Fin 1) j))
      = (∑ j : Fin 512, h (ix2 n j) * a (ix2 (0 : Fin 1) j)) * ∑ j : Fin 512, h (ix2 n j) :=
  sum_mul_of_real Finset.univ (fun k : Fin 512 => h (ix2 n k)) _ (fun k _ => hh _)
    (real_sum _ _ fun j _ => real_mul (hh _) (ha _))

/-- THE SCORES of the two programs are one vector, when every entry of the features, the weight and the attention row
    is a real. -/
theorem alpha_eq_alphaR (x : FVec Ideal S8192x256 .f32) (W : FVec Ideal S512x256 .f32) (a : FVec Ideal S1x512 .f32)
    (hx : ∀ i, ∃ r : ℝ, x i = (r : EReal)) (hW : ∀ i, ∃ r : ℝ, W i = (r : EReal)) (ha : ∀ i, ∃ r : ℝ, a i = (r : EReal)) :
    shapeCast Cert.KernelIdeal.S8192
        (alphaFun x (transpose Cert.KernelIdeal.S256x512 [1, 0] W Cert.KernelIdeal.Gen.transposes_S512x256_S256x512_1_0) a)
        Cert.KernelIdeal.Gen.shapeCasts_S8192x1_S8192
      = alphaR (hR x W) a := by
  funext i
  obtain ⟨n, rfl⟩ : ∃ n : Fin 8192, i = ix1 n := ⟨i 0, eq_ix1 i⟩
  rw [colVec_apply, alphaFun_apply, hFun_eq_hR, alphaR_apply, score_regroup (hR x W) a (real_hR x W hx hW) ha n]

/-- Every score is a real when the features, the weight and the attention row are. -/
theorem real_alphaR (x : FVec Ideal S8192x256 .f32) (W : FVec Ideal S512x256 .f32) (a : FVec Ideal S1x512 .f32)
    (hx : ∀ i, ∃ r : ℝ, x i = (r : EReal)) (hW : ∀ i, ∃ r : ℝ, W i = (r : EReal)) (ha : ∀ i, ∃ r : ℝ, a i = (r : EReal))
    (i : S8192.Idx) : ∃ r : ℝ, alphaR (hR x W) a i = (r : EReal) := by
  obtain ⟨n, rfl⟩ : ∃ n : Fin 8192, i = ix1 n := ⟨i 0, eq_ix1 i⟩
  rw [alphaR_apply]
  exact real_leaky (real_sum _ _ fun k _ => real_mul (real_hR x W hx hW _)
    (real_sum _ _ fun j _ => real_mul (real_hR x W hx hW _) (ha _)))

/-! ## The dense logit matrix -/

/-- The host lines that build the dense logit matrix are the same in the two programs. -/
theorem logitsK_eq_logits (e : IVec S2x262144 32) (alpha : FVec Ideal S8192 .f32) : logitsK e alpha = logits e alpha := rfl

end Cert.BridgeProj

end
-- ==== Proof.SmPieces.lean ====
/-
  What each case of the streaming-softmax body leaves in its buffers, as the body's arithmetic of what it was handed.

  With `s` the block of logits, `hs` the 512 rows of the resident value array that the column tile selects, and
  `(mx, dn, nm)` the running maximum, denominator and numerator it starts from, every point leaves
      mx' = max mx (row maxima of s),   dn' = exp (mx − mx') · dn + Σ_lane exp (s − mx'),
      nm' = exp (mx − mx') · nm + exp (s − mx') · hs
  (the payloads `k1_pay2 ∘ k1_pay8`, `k1_pay11`, `k1_pay1 ∘ k1_pay12`); a first-column point starts from the reset
  values (−∞, 0, 0) it has just stored; a last-column point also stores `k1_pay3 nm' dn' lw` into the output buffer.
  Each buffer is written by whole-buffer stores, so what it holds is the LAST store's payload, a whole-rectangle load of
  a block is the block, and a load after one whole store reads what was stored.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.SmData
import Idealize.ShloMosaic.Lib.Pipeline.Value
set_option maxRecDepth 16384

noncomputable section

namespace Cert.KernelIdeal.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- A scratch written back whole and read: the round trip is the identity. -/
theorem rd_max (hw : (Memref.whole cc1_scratch0 : Memref sig .tc .vmem S1024x1 .f32).IsWhole) (x : Vec F S1024x1 .f32) :
    View.read (Elt F) (View.whole cc1_scratch0) (hw.unread x) = x := hw.read_unread x
theorem rd_den (hw : (Memref.whole cc1_scratch1 : Memref sig .tc .vmem S1024x1 .f32).IsWhole) (x : Vec F S1024x1 .f32) :
    View.read (Elt F) (View.whole cc1_scratch1) (hw.unread x) = x := hw.read_unread x
theorem rd_num (hw : (Memref.whole cc1_scratch2 : Memref sig .tc .vmem S1024x512 .f32).IsWhole) (x : Vec F S1024x512 .f32) :
    View.read (Elt F) (View.whole cc1_scratch2) (hw.unread x) = x := hw.read_unread x

/-- The 512 rows of the resident value array that the body loads at a point: rows `512 k … 512 k + 511` for column tile `k`. -/
def hSlice (i : grid1.Coords) (h : Vec F S8192x512 .bf16) : Vec F S512x512 .bf16 :=
  View.ld h (Rect.unit (s := S8192x512) (k1_off1 i) S512x512.size (k1_off1_inb i))

/-- One point's update of the three scratches. -/
def updM (s : Vec F S1024x512 .f32) (mx : Vec F S1024x1 .f32) : Vec F S1024x1 .f32 := k1_pay2 (k1_pay8 s mx)
def updD (s : Vec F S1024x512 .f32) (mx dn : Vec F S1024x1 .f32) : Vec F S1024x1 .f32 := k1_pay11 s mx mx dn
def updN (s : Vec F S1024x512 .f32) (hs : Vec F S512x512 .bf16) (mx : Vec F S1024x1 .f32) (nm : Vec F S1024x512 .f32) :
    Vec F S1024x512 .f32 := k1_pay1 (k1_pay12 s mx mx hs nm)

section
variable (c : Dev nD) (t : Fin cfg1.N) (s : Vec F S1024x512 .f32) (h : Vec F S8192x512 .bf16) (lw : Vec F S512x512 .bf16)
  (mx : Vec F S1024x1 .f32) (dn : Vec F S1024x1 .f32) (nm : Vec F S1024x512 .f32)

/-! ### First column: from the reset values -/
theorem first_mx (hA : atFirst (grid1.coords t)) (hB : ¬atLast (grid1.coords t)) :
    rdM (firstAt c t hA hB s h lw).2.1 = updM s (k1_pay4 (F := F)) := by
  unfold updM
  show VMax.read (Elt F) (VMax.writes (Elt F) VMax.junk _) = _
  rw [View.read_writes_eq_canon _ _ _ (first_covM c t s h lw hA hB)]
  unfold firstAt runFirst
  dsimp only
  sl_unfold_run_names
  rw [View.canon_cons_unit_zero hz2]
  simp only [View.readAt_eq_ld, Memref.IsWhole.read_unread, View.ld_unit_zero (S := S1024x512) hz2,
    View.ld_unit_zero (S := S1024x1) hz2, View.ld_unit_zero (S := S512x512) hz2,
    View.readCov_unit_zero (S := S1024x1) _ hz2, View.readCov_unit_zero (S := S1024x512) _ hz2]
  try simp only [rd_max, rd_den, rd_num]
  try rfl
theorem first_dn (hA : atFirst (grid1.coords t)) (hB : ¬atLast (grid1.coords t)) :
    rdD (firstAt c t hA hB s h lw).2.2.1 = updD s (k1_pay4 (F := F)) (k1_pay5 (F := F)) := by
  unfold updD
  show VDen.read (Elt F) (VDen.writes (Elt F) VDen.junk _) = _
  rw [View.read_writes_eq_canon _ _ _ (first_covD c t s h lw hA hB)]
  unfold firstAt runFirst
  dsimp only
  sl_unfold_run_names
  rw [View.canon_cons_unit_zero hz2]
  simp only [View.readAt_eq_ld, Memref.IsWhole.read_unread, View.ld_unit_zero (S := S1024x512) hz2,
    View.ld_unit_zero (S := S1024x1) hz2, View.ld_unit_zero (S := S512x512) hz2,
    View.readCov_unit_zero (S := S1024x1) _ hz2, View.readCov_unit_zero (S := S1024x512) _ hz2]
  try simp only [rd_max, rd_den, rd_num]
  try rfl
theorem first_nm (hA : atFirst (grid1.coords t)) (hB : ¬atLast (grid1.coords t)) :
    rdN (firstAt c t hA hB s h lw).2.2.2.1 = updN s (hSlice (grid1.coords t) h) (k1_pay4 (F := F)) (k1_pay6 (F := F)) := by
  unfold updN hSlice
  show VNum.read (Elt F) (VNum.writes (Elt F) VNum.junk _) = _
  rw [View.read_writes_eq_canon _ _ _ (first_covN c t s h lw hA hB)]
  unfold firstAt runFirst
  dsimp only
  sl_unfold_run_names
  rw [View.canon_cons_unit_zero hz2]
  simp only [View.readAt_eq_ld, Memref.IsWhole.read_unread, View.ld_unit_zero (S := S1024x512) hz2,
    View.ld_unit_zero (S := S1024x1) hz2, View.ld_unit_zero (S := S512x512) hz2,
    View.readCov_unit_zero (S := S1024x1) _ hz2, View.readCov_unit_zero (S := S1024x512) _ hz2]
  try simp only [rd_max, rd_den, rd_num]
  try rfl

/-! ### Middle column: from what the point before left -/
theorem mid_mx (hA : ¬atFirst (grid1.coords t)) (hB : ¬atLast (grid1.coords t)) :
    rdM (midAt c t hA hB s h lw mx dn nm).2.1 = updM s mx := by
  unfold updM
  show VMax.read (Elt F) (VMax.writes (Elt F) VMax.junk _) = _
  rw [View.read_writes_eq_canon _ _ _ (mid_covM c t s h lw mx dn nm hA hB)]
  unfold midAt runMid
  dsimp only
  sl_unfold_run_names
  rw [View.canon_cons_unit_zero hz2]
  simp only [View.readAt_eq_ld, Memref.IsWhole.read_unread, View.ld_unit_zero (S := S1024x512) hz2,
    View.ld_unit_zero (S := S1024x1) hz2, View.ld_unit_zero (S := S512x512) hz2,
    View.readCov_unit_zero (S := S1024x1) _ hz2, View.readCov_unit_zero (S := S1024x512) _ hz2]
  try simp only [rd_max, rd_den, rd_num]
  try rfl
theorem mid_dn (hA : ¬atFirst (grid1.coords t)) (hB : ¬atLast (grid1.coords t)) :
    rdD (midAt c t hA hB s h lw mx dn nm).2.2.1 = updD s mx dn := by
  unfold updD
  show VDen.read (Elt F) (VDen.writes (Elt F) VDen.junk _) = _
  rw [View.read_writes_eq_canon _ _ _ (mid_covD c t s h lw mx dn nm hA hB)]
  unfold midAt runMid
  dsimp only
  sl_unfold_run_names
  rw [View.canon_cons_unit_zero hz2]
  simp only [View.readAt_eq_ld, Memref.IsWhole.read_unread, View.ld_unit_zero (S := S1024x512) hz2,
    View.ld_unit_zero (S := S1024x1) hz2, View.ld_unit_zero (S := S512x512) hz2,
    View.readCov_unit_zero (S := S1024x1) _ hz2, View.readCov_unit_zero (S := S1024x512) _ hz2]
  try simp only [rd_max, rd_den, rd_num]
  try rfl
theorem mid_nm (hA : ¬atFirst (grid1.coords t)) (hB : ¬atLast (grid1.coords t)) :
    rdN (midAt c t hA hB s h lw mx dn nm).2.2.2.1 = updN s (hSlice (grid1.coords t) h) mx nm := by
  unfold updN hSlice
  show VNum.read (Elt F) (VNum.writes (Elt F) VNum.junk _) = _
  rw [View.read_writes_eq_canon _ _ _ (mid_covN c t s h lw mx dn nm hA hB)]
  unfold midAt runMid
  dsimp only
  sl_unfold_run_names
  rw [View.canon_cons_unit_zero hz2]
  simp only [View.readAt_eq_ld, Memref.IsWhole.read_unread, View.ld_unit_zero (S := S1024x512) hz2,
    View.ld_unit_zero (S := S1024x1) hz2, View.ld_unit_zero (S := S512x512) hz2,
    View.readCov_unit_zero (S := S1024x1) _ hz2, View.readCov_unit_zero (S := S1024x512) _ hz2]
  try simp only [rd_max, rd_den, rd_num]
  try rfl

/-! ### Last column: the same update, and the output block from the new numerator and denominator -/
theorem last_mx (hA : ¬atFirst (grid1.coords t)) (hB : atLast (grid1.coords t)) :
    rdM (lastAt c t hA hB s h lw mx dn nm).2.1 = updM s mx := by
  unfold updM
  show VMax.read (Elt F) (VMax.writes (Elt F) VMax.junk _) = _
  rw [View.read_writes_eq_canon _ _ _ (last_covM c t s h lw mx dn nm hA hB)]
  unfold lastAt runLast
  dsimp only
  sl_unfold_run_names
  rw [View.canon_cons_unit_zero hz2]
  simp only [View.readAt_eq_ld, Memref.IsWhole.read_unread, View.ld_unit_zero (S := S1024x512) hz2,
    View.ld_unit_zero (S := S1024x1) hz2, View.ld_unit_zero (S := S512x512) hz2,
    View.readCov_unit_zero (S := S1024x1) _ hz2, View.readCov_unit_zero (S := S1024x512) _ hz2]
  try simp only [rd_max, rd_den, rd_num]
  try rfl
theorem last_dn (hA : ¬atFirst (grid1.coords t)) (hB : atLast (grid1.coords t)) :
    rdD (lastAt c t hA hB s h lw mx dn nm).2.2.1 = updD s mx dn := by
  unfold updD
  show VDen.read (Elt F) (VDen.writes (Elt F) VDen.junk _) = _
  rw [View.read_writes_eq_canon _ _ _ (last_covD c t s h lw mx dn nm hA hB)]
  unfold lastAt runLast
  dsimp only
  sl_unfold_run_names
  rw [View.canon_cons_unit_zero hz2]
  simp only [View.readAt_eq_ld, Memref.IsWhole.read_unread, View.ld_unit_zero (S := S1024x512) hz2,
    View.ld_unit_zero (S := S1024x1) hz2, View.ld_unit_zero (S := S512x512) hz2,
    View.readCov_unit_zero (S := S1024x1) _ hz2, View.readCov_unit_zero (S := S1024x512) _ hz2]
  try simp only [rd_max, rd_den, rd_num]
  try rfl
theorem last_nm (hA : ¬atFirst (grid1.coords t)) (hB : atLast (grid1.coords t)) :
    rdN (lastAt c t hA hB s h lw mx dn nm).2.2.2.1 = updN s (hSlice (grid1.coords t) h) mx nm := by
  unfold updN hSlice
  show VNum.read (Elt F) (VNum.writes (Elt F) VNum.junk _) = _
  rw [View.read_writes_eq_canon _ _ _ (last_covN c t s h lw mx dn nm hA hB)]
  unfold lastAt runLast
  dsimp only
  sl_unfold_run_names
  rw [View.canon_cons_unit_zero hz2]
  simp only [View.readAt_eq_ld, Memref.IsWhole.read_unread, View.ld_unit_zero (S := S1024x512) hz2,
    View.ld_unit_zero (S := S1024x1) hz2, View.ld_unit_zero (S := S512x512) hz2,
    View.readCov_unit_zero (S := S1024x1) _ hz2, View.readCov_unit_zero (S := S1024x512) _ hz2]
  try simp only [rd_max, rd_den, rd_num]
  try rfl
theorem last_out (hA : ¬atFirst (grid1.coords t)) (hB : atLast (grid1.coords t)) :
    rdO (lastAt c t hA hB s h lw mx dn nm).1
      = k1_pay3 (updN s (hSlice (grid1.coords t) h) mx nm) (updD s mx dn) lw := by
  unfold updN updD hSlice
  show VOut.read (Elt F) (VOut.writes (Elt F) VOut.junk _) = _
  rw [View.read_writes_eq_canon _ _ _ (last_covO c t s h lw mx dn nm hA hB)]
  unfold lastAt runLast
  dsimp only
  sl_unfold_run_names
  rw [View.canon_cons_unit_zero hz2]
  simp only [View.readAt_eq_ld, Memref.IsWhole.read_unread, View.ld_unit_zero (S := S1024x512) hz2,
    View.ld_unit_zero (S := S1024x1) hz2, View.ld_unit_zero (S := S512x512) hz2,
    View.readCov_unit_zero (S := S1024x1) _ hz2, View.readCov_unit_zero (S := S1024x512) _ hz2]
  try simp only [rd_max, rd_den, rd_num]
  try rfl
end

end Cert.KernelIdeal.Sm

end
-- ==== Proof.MathRun.lean ====
/-
  The streaming (online) softmax over n key blocks, read on the extended reals: the state
  (running maximum, running denominator, running numerator) after the blocks 0, 1, ..., n-1 holds
  the maximum of the block maxima and the denominator and numerator of all the keys seen at that
  maximum, so that numerator / denominator is the softmax-weighted average of the values.
-/
import Mathlib.Data.EReal.Inv
import Mathlib.Algebra.BigOperators.Fin
import Mathlib.Algebra.Order.BigOperators.Group.Finset
import Idealize.ShloMosaic.PureOps.Ideal
import proofs.«121306_j85255100825818_2_alg».proof.Proof.LibOnlineSoftmax

noncomputable section

namespace Cert.SoftmaxMath

open Idealize.ShloMosaic
open Cert.LibOnlineSoftmax
open scoped BigOperators

variable {ι : Type} [Fintype ι]

/-! ### The state after n blocks -/

/-- The state after the blocks 0, 1, ..., n-1, taken in this order from the empty state
    (-∞, 0, 0): block k has scores s k, values v k and block maximum bm k. -/
def runN (s v : ℕ → ι → EReal) (bm : ℕ → EReal) : ℕ → EReal × EReal × EReal
  | 0 => (⊥, 0, 0)
  | k + 1 => step (s k) (v k) (bm k) (runN s v bm k)

/-- Before any block the state is (-∞, 0, 0). -/
@[simp] theorem runN_zero (s v : ℕ → ι → EReal) (bm : ℕ → EReal) : runN s v bm 0 = (⊥, 0, 0) := rfl

/-- The state after k + 1 blocks is one step, on block k, from the state after k blocks. -/
theorem runN_succ (s v : ℕ → ι → EReal) (bm : ℕ → EReal) (k : ℕ) :
    runN s v bm (k + 1) = step (s k) (v k) (bm k) (runN s v bm k) := rfl

/-- The state after n blocks depends only on the data of the blocks below n. -/
theorem runN_congr {s v s' v' : ℕ → ι → EReal} {bm bm' : ℕ → EReal} (n : ℕ)
    (hs : ∀ j, j < n → s j = s' j) (hv : ∀ j, j < n → v j = v' j)
    (hb : ∀ j, j < n → bm j = bm' j) : runN s v bm n = runN s' v' bm' n := by
  induction n with
  | zero => rfl
  | succ k ih =>
    rw [runN_succ, runN_succ, hs k (Nat.lt_succ_self k), hv k (Nat.lt_succ_self k),
      hb k (Nat.lt_succ_self k),
      ih (fun j hj => hs j (Nat.lt_succ_of_lt hj)) (fun j hj => hv j (Nat.lt_succ_of_lt hj))
        (fun j hj => hb j (Nat.lt_succ_of_lt hj))]

/-! ### The running maximum of real numbers -/

/-- The maximum of b 0, b 1, ..., b k. -/
def runMax (b : ℕ → ℝ) : ℕ → ℝ
  | 0 => b 0
  | k + 1 => max (runMax b k) (b (k + 1))

@[simp] theorem runMax_zero (b : ℕ → ℝ) : runMax b 0 = b 0 := rfl

theorem runMax_succ (b : ℕ → ℝ) (k : ℕ) : runMax b (k + 1) = max (runMax b k) (b (k + 1)) := rfl

/-- Every b j with j ≤ k is at most the maximum of b 0, ..., b k. -/
theorem le_runMax (b : ℕ → ℝ) {j k : ℕ} (hj : j ≤ k) : b j ≤ runMax b k := by
  induction k with
  | zero => rw [Nat.le_zero.mp hj]; exact le_rfl
  | succ k ih =>
    rw [runMax_succ]
    rcases Nat.lt_or_ge j (k + 1) with h | h
    · exact (ih (Nat.lt_succ_iff.mp h)).trans (le_max_left _ _)
    · rw [le_antisymm hj h]; exact le_max_right _ _

/-- The maximum of b 0, ..., b k is one of them. -/
theorem runMax_attained (b : ℕ → ℝ) (k : ℕ) : ∃ j, j ≤ k ∧ runMax b k = b j := by
  induction k with
  | zero => exact ⟨0, le_rfl, rfl⟩
  | succ k ih =>
    rw [runMax_succ]
    rcases le_total (runMax b k) (b (k + 1)) with h | h
    · exact ⟨k + 1, le_rfl, max_eq_right h⟩
    · obtain ⟨j, hj, hj'⟩ := ih
      exact ⟨j, Nat.le_succ_of_le hj, (max_eq_left h).trans hj'⟩

/-- A real that is at least every b j with j ≤ k and is one of them is their maximum. -/
theorem runMax_eq_of_spec (b : ℕ → ℝ) (k : ℕ) (M : ℝ) (hge : ∀ j, j ≤ k → b j ≤ M)
    (hat : ∃ j, j ≤ k ∧ M = b j) : runMax b k = M := by
  obtain ⟨j, hj, hj'⟩ := hat
  obtain ⟨j0, hj0, hj0'⟩ := runMax_attained b k
  exact le_antisymm (hj0'.trans_le (hge j0 hj0)) (hj'.trans_le (le_runMax b hj))

/-- The maximum of b 0, ..., b k is the supremum of b over the numbers below k + 1. -/
theorem runMax_eq_sup' (b : ℕ → ℝ) (k : ℕ) :
    runMax b k = (Finset.range (k + 1)).sup' ⟨0, Finset.mem_range.mpr (Nat.succ_pos k)⟩ b := by
  refine le_antisymm ?_ (Finset.sup'_le _ _ fun j hj =>
    le_runMax b (Nat.lt_succ_iff.mp (Finset.mem_range.mp hj)))
  obtain ⟨j, hj, hj'⟩ := runMax_attained b k
  rw [hj']
  exact Finset.le_sup' b (Finset.mem_range.mpr (Nat.lt_succ_of_le hj))

/-- When b j is the maximum of block j, the maximum of b 0, ..., b k is at least every score of
    the blocks 0, ..., k. -/
theorem le_runMax_of_block (s : ℕ → ι → ℝ) (b : ℕ → ℝ) (hge : ∀ j i, s j i ≤ b j) {j k : ℕ}
    (hj : j ≤ k) (i : ι) : s j i ≤ runMax b k :=
  (hge j i).trans (le_runMax b hj)

/-- When b j is the maximum of block j and is a score of that block, the maximum of b 0, ..., b k
    is a score of one of the blocks 0, ..., k. -/
theorem runMax_attained_of_block (s : ℕ → ι → ℝ) (b : ℕ → ℝ) (hat : ∀ j, ∃ i, b j = s j i)
    (k : ℕ) : ∃ j, j ≤ k ∧ ∃ i, runMax b k = s j i := by
  obtain ⟨j, hj, hj'⟩ := runMax_attained b k
  obtain ⟨i, hi⟩ := hat j
  exact ⟨j, hj, i, hj'.trans hi⟩

/-! ### The denominators are positive -/

/-- A sum of exponentials over k + 1 nonempty blocks is positive, at any reference point. -/
theorem denom_pos [Nonempty ι] (s : ℕ → ι → ℝ) (k : ℕ) (m : ℝ) :
    0 < ∑ j ∈ Finset.range (k + 1), ∑ i, Real.exp (s j i - m) :=
  Finset.sum_pos (fun _ _ => Finset.sum_pos (fun _ _ => Real.exp_pos _) Finset.univ_nonempty)
    ⟨0, Finset.mem_range.mpr (Nat.succ_pos k)⟩

/-- If the reference point m is a score of one of the blocks 0, ..., k, the sum of the
    exponentials exp (s j i - m) over these blocks is at least 1: that score contributes
    exp 0 = 1 and every other term is positive. -/
theorem one_le_denom (s : ℕ → ι → ℝ) (k : ℕ) (m : ℝ) (hat : ∃ j, j ≤ k ∧ ∃ i, m = s j i) :
    1 ≤ ∑ j ∈ Finset.range (k + 1), ∑ i, Real.exp (s j i - m) := by
  obtain ⟨j0, hj0, i0, h0⟩ := hat
  have h1 : (1 : ℝ) = Real.exp (s j0 i0 - m) := by rw [h0, sub_self, Real.exp_zero]
  rw [h1]
  exact (Finset.single_le_sum (f := fun i => Real.exp (s j0 i - m))
      (fun i _ => (Real.exp_pos _).le) (Finset.mem_univ i0)).trans
    (Finset.single_le_sum (f := fun j => ∑ i, Real.exp (s j i - m))
      (fun j _ => Finset.sum_nonneg fun i _ => (Real.exp_pos _).le)
      (Finset.mem_range.mpr (Nat.lt_succ_of_le hj0)))

/-- With block maxima b j that are attained, the final denominator of the blocks 0, ..., k, taken
    at the maximum of the b j, is at least 1. -/
theorem one_le_denom_runMax (s : ℕ → ι → ℝ) (b : ℕ → ℝ) (hat : ∀ j, ∃ i, b j = s j i) (k : ℕ) :
    1 ≤ ∑ j ∈ Finset.range (k + 1), ∑ i, Real.exp (s j i - runMax b k) :=
  one_le_denom s k _ (runMax_attained_of_block s b hat k)

/-! ### The invariant after k + 1 blocks -/

/-- After the blocks 0, ..., k of real data, with any real b j, the state is the maximum M of
    b 0, ..., b k and the denominator ∑ j ≤ k, ∑ i, exp (s j i - M) and the numerator
    ∑ j ≤ k, ∑ i, exp (s j i - M) * v j i of all these blocks at that maximum. -/
theorem runN_coe (s v : ℕ → ι → ℝ) (b : ℕ → ℝ) (k : ℕ) :
    runN (fun j i => (s j i : EReal)) (fun j i => (v j i : EReal)) (fun j => (b j : EReal)) (k + 1)
      = coe3 (runMax b k,
          ∑ j ∈ Finset.range (k + 1), ∑ i, Real.exp (s j i - runMax b k),
          ∑ j ∈ Finset.range (k + 1), ∑ i, Real.exp (s j i - runMax b k) * v j i) := by
  induction k with
  | zero =>
    rw [runN_succ, runN_zero, step_init]
    simp only [coe3, runMax_zero, zero_add, Finset.range_one, Finset.sum_singleton, coe_sum,
      EReal.coe_mul,
      ← EReal.coe_sub, Ideal.exp_coe]
  | succ k ih =>
    rw [runN_succ, ih, step_coe (s (k + 1)) (v (k + 1)) (b (k + 1)),
      stepR_insert s v (Finset.range (k + 1)) (k + 1) Finset.notMem_range_self,
      ← Finset.range_add_one, runMax_succ]

/-- The same with the blocks indexed by the numbers below k + 1 as a finite type. -/
theorem runN_coe_fin (s v : ℕ → ι → ℝ) (b : ℕ → ℝ) (k : ℕ) :
    runN (fun j i => (s j i : EReal)) (fun j i => (v j i : EReal)) (fun j => (b j : EReal)) (k + 1)
      = coe3 (runMax b k,
          ∑ j : Fin (k + 1), ∑ i, Real.exp (s j i - runMax b k),
          ∑ j : Fin (k + 1), ∑ i, Real.exp (s j i - runMax b k) * v j i) := by
  rw [runN_coe, Finset.sum_range, Finset.sum_range]

/-- After n ≥ 1 blocks of real data, with any real b j, the state is the maximum M of
    b 0, ..., b (n-1) and the denominator and the numerator of these n blocks at M. -/
theorem runN_coe_pos (s v : ℕ → ι → ℝ) (b : ℕ → ℝ) (n : ℕ) (hn : 0 < n) :
    runN (fun j i => (s j i : EReal)) (fun j i => (v j i : EReal)) (fun j => (b j : EReal)) n
      = coe3 (runMax b (n - 1),
          ∑ j ∈ Finset.range n, ∑ i, Real.exp (s j i - runMax b (n - 1)),
          ∑ j ∈ Finset.range n, ∑ i, Real.exp (s j i - runMax b (n - 1)) * v j i) := by
  obtain ⟨k, rfl⟩ := Nat.exists_eq_succ_of_ne_zero hn.ne'
  exact runN_coe s v b k

/-! ### Online softmax over n blocks equals the one-shot softmax -/

/-- The softmax-weighted average over the blocks below n does not depend on the reference point
    of the exponentials. -/
theorem ratio_shift_range (s v : ℕ → ι → ℝ) (n : ℕ) (m M : ℝ) :
    (∑ j ∈ Finset.range n, ∑ i, Real.exp (s j i - m) * v j i)
        * (1 / ∑ j ∈ Finset.range n, ∑ i, Real.exp (s j i - m))
      = ∑ j ∈ Finset.range n, ∑ i,
          Real.exp (s j i - M) * (1 / ∑ j' ∈ Finset.range n, ∑ i', Real.exp (s j' i' - M))
            * v j i := by
  simp only [Finset.sum_range]
  exact ratio_shift (fun j : Fin n => s j) (fun j : Fin n => v j) m M

/-- A sum of exponentials over n ≥ 1 nonempty blocks is positive, at any reference point. -/
theorem denom_pos' [Nonempty ι] (s : ℕ → ι → ℝ) (n : ℕ) (hn : 0 < n) (m : ℝ) :
    0 < ∑ j ∈ Finset.range n, ∑ i, Real.exp (s j i - m) := by
  obtain ⟨k, rfl⟩ := Nat.exists_eq_succ_of_ne_zero hn.ne'
  exact denom_pos s k m

/-- Online softmax over n ≥ 1 blocks equals the one-shot softmax, on real data: for real scores
    s j i and values v j i, ANY real b j and ANY real reference M, the final numerator divided by
    the final denominator is the real number
    ∑ j < n, ∑ i, (exp (s j i - M) / ∑ j' < n, ∑ i', exp (s j' i' - M)) * v j i. -/
theorem online_softmaxN [Nonempty ι] (s v : ℕ → ι → ℝ) (b : ℕ → ℝ) (n : ℕ) (hn : 0 < n) (M : ℝ) :
    Ideal.div
        (runN (fun j i => (s j i : EReal)) (fun j i => (v j i : EReal)) (fun j => (b j : EReal))
          n).2.2
        (runN (fun j i => (s j i : EReal)) (fun j i => (v j i : EReal)) (fun j => (b j : EReal))
          n).2.1
      = ((∑ j ∈ Finset.range n, ∑ i,
            Real.exp (s j i - M) / (∑ j' ∈ Finset.range n, ∑ i', Real.exp (s j' i' - M)) * v j i
              : ℝ) : EReal) := by
  rw [runN_coe_pos s v b n hn]
  simp only [coe3]
  rw [Ideal.div_coe (denom_pos' s n hn _).ne', ← EReal.coe_mul, ratio_shift_range s v n _ M]
  simp only [div_eq_mul_one_div (Real.exp _)]

/-- The same with the blocks indexed by the numbers below n as a finite type. -/
theorem online_softmaxN_fin [Nonempty ι] (s v : ℕ → ι → ℝ) (b : ℕ → ℝ) (n : ℕ) (hn : 0 < n)
    (M : ℝ) :
    Ideal.div
        (runN (fun j i => (s j i : EReal)) (fun j i => (v j i : EReal)) (fun j => (b j : EReal))
          n).2.2
        (runN (fun j i => (s j i : EReal)) (fun j i => (v j i : EReal)) (fun j => (b j : EReal))
          n).2.1
      = ((∑ j : Fin n, ∑ i,
            Real.exp (s j i - M) / (∑ j' : Fin n, ∑ i', Real.exp (s j' i' - M)) * v j i
              : ℝ) : EReal) := by
  rw [online_softmaxN s v b n hn M]
  simp only [Finset.sum_range]

/-- The one-shot softmax written with the extended-real exponential and quotient is, on real
    data, the coercion of the real one-shot softmax. -/
theorem oneshot_coe [Nonempty ι] (s v : ℕ → ι → ℝ) (n : ℕ) (hn : 0 < n) (M : ℝ) :
    (∑ j ∈ Finset.range n, ∑ i : ι, Ideal.div (Ideal.exp ((s j i : EReal) - (M : EReal)))
        (∑ j' ∈ Finset.range n, ∑ i' : ι, Ideal.exp ((s j' i' : EReal) - (M : EReal)))
          * (v j i : EReal))
      = ((∑ j ∈ Finset.range n, ∑ i,
            Real.exp (s j i - M) / (∑ j' ∈ Finset.range n, ∑ i', Real.exp (s j' i' - M)) * v j i
              : ℝ) : EReal) := by
  simp only [← EReal.coe_sub, Ideal.exp_coe, ← coe_sum]
  simp only [Ideal.div_coe (denom_pos' s n hn M).ne', ← EReal.coe_mul, ← coe_sum,
    div_eq_mul_one_div (Real.exp _)]

/-- Online softmax over n ≥ 1 blocks equals the one-shot softmax written with the extended-real
    exponential and quotient, on real data, for ANY real b j and ANY real reference M. -/
theorem online_softmaxN_ideal [Nonempty ι] (s v : ℕ → ι → ℝ) (b : ℕ → ℝ) (n : ℕ) (hn : 0 < n)
    (M : ℝ) :
    Ideal.div
        (runN (fun j i => (s j i : EReal)) (fun j i => (v j i : EReal)) (fun j => (b j : EReal))
          n).2.2
        (runN (fun j i => (s j i : EReal)) (fun j i => (v j i : EReal)) (fun j => (b j : EReal))
          n).2.1
      = ∑ j ∈ Finset.range n, ∑ i : ι, Ideal.div (Ideal.exp ((s j i : EReal) - (M : EReal)))
          (∑ j' ∈ Finset.range n, ∑ i' : ι, Ideal.exp ((s j' i' : EReal) - (M : EReal)))
            * (v j i : EReal) := by
  rw [online_softmaxN s v b n hn M, oneshot_coe s v n hn M]

/-- Online softmax over n ≥ 1 blocks equals the one-shot softmax. The scores and values of the
    blocks below n are real (finite); the b j below n and the reference Mx only need to be real. -/
theorem online_softmaxN_of_real [Nonempty ι] (s v : ℕ → ι → EReal) (bm : ℕ → EReal) (n : ℕ)
    (hn : 0 < n)
    (hs : ∀ j, j < n → ∀ i, ∃ r : ℝ, s j i = (r : EReal))
    (hv : ∀ j, j < n → ∀ i, ∃ r : ℝ, v j i = (r : EReal))
    (hbm : ∀ j, j < n → ∃ r : ℝ, bm j = (r : EReal))
    (Mx : EReal) (hMx : ∃ r : ℝ, Mx = (r : EReal)) :
    Ideal.div (runN s v bm n).2.2 (runN s v bm n).2.1
      = ∑ j ∈ Finset.range n, ∑ i : ι, Ideal.div (Ideal.exp (s j i - Mx))
          (∑ j' ∈ Finset.range n, ∑ i' : ι, Ideal.exp (s j' i' - Mx)) * v j i := by
  obtain ⟨M, rfl⟩ := hMx
  have hs' : ∀ j, j < n → ∀ i, s j i = (((s j i).toReal : ℝ) : EReal) := fun j hj i => by
    obtain ⟨r, hr⟩ := hs j hj i
    rw [hr, EReal.toReal_coe]
  have hv' : ∀ j, j < n → ∀ i, v j i = (((v j i).toReal : ℝ) : EReal) := fun j hj i => by
    obtain ⟨r, hr⟩ := hv j hj i
    rw [hr, EReal.toReal_coe]
  have hb' : ∀ j, j < n → bm j = (((bm j).toReal : ℝ) : EReal) := fun j hj => by
    obtain ⟨r, hr⟩ := hbm j hj
    rw [hr, EReal.toReal_coe]
  rw [runN_congr (s' := fun j i => (((s j i).toReal : ℝ) : EReal))
      (v' := fun j i => (((v j i).toReal : ℝ) : EReal))
      (bm' := fun j => (((bm j).toReal : ℝ) : EReal)) n
      (fun j hj => funext (hs' j hj)) (fun j hj => funext (hv' j hj)) hb',
    online_softmaxN_ideal (fun j i => (s j i).toReal) (fun j i => (v j i).toReal)
      (fun j => (bm j).toReal) n hn M]
  have hD : (∑ j' ∈ Finset.range n, ∑ i' : ι, Ideal.exp ((((s j' i').toReal : ℝ) : EReal) - (M : EReal)))
      = ∑ j' ∈ Finset.range n, ∑ i' : ι, Ideal.exp (s j' i' - (M : EReal)) :=
    Finset.sum_congr rfl fun j hj => Finset.sum_congr rfl fun i _ => by
      rw [← hs' j (Finset.mem_range.mp hj) i]
  rw [hD]
  exact Finset.sum_congr rfl fun j hj => Finset.sum_congr rfl fun i _ => by
    rw [← hs' j (Finset.mem_range.mp hj) i, ← hv' j (Finset.mem_range.mp hj) i]

/-- Online softmax over n ≥ 1 blocks equals the one-shot softmax (the softmax over all the keys of
    the n blocks, with the global maximum Mx subtracted), for real scores and values, when bm j is
    the maximum of block j and Mx the maximum of all the scores of the blocks below n. -/
theorem online_softmaxN_of_max (s v : ℕ → ι → EReal) (bm : ℕ → EReal) (n : ℕ)
    (hs : ∀ j, j < n → ∀ i, ∃ r : ℝ, s j i = (r : EReal))
    (hv : ∀ j, j < n → ∀ i, ∃ r : ℝ, v j i = (r : EReal))
    (hbm_at : ∀ j, j < n → ∃ i, bm j = s j i)
    (Mx : EReal) (hM_at : ∃ j, j < n ∧ ∃ i, Mx = s j i) :
    Ideal.div (runN s v bm n).2.2 (runN s v bm n).2.1
      = ∑ j ∈ Finset.range n, ∑ i : ι, Ideal.div (Ideal.exp (s j i - Mx))
          (∑ j' ∈ Finset.range n, ∑ i' : ι, Ideal.exp (s j' i' - Mx)) * v j i := by
  obtain ⟨j0, hj0, i0, h0⟩ := hM_at
  haveI : Nonempty ι := ⟨i0⟩
  refine online_softmaxN_of_real s v bm n (Nat.lt_of_le_of_lt (Nat.zero_le j0) hj0) hs hv
    (fun j hj => ?_) Mx ?_
  · obtain ⟨i, hi⟩ := hbm_at j hj
    obtain ⟨r, hr⟩ := hs j hj i
    exact ⟨r, hi.trans hr⟩
  · obtain ⟨r, hr⟩ := hs j0 hj0 i0
    exact ⟨r, h0.trans hr⟩

/-- The same, stated for a state (m, l, a) known to be the state after n blocks: a / l is the
    one-shot softmax. -/
theorem div_of_state_eq_runN (s v : ℕ → ι → EReal) (bm : ℕ → EReal) (n : ℕ)
    (hs : ∀ j, j < n → ∀ i, ∃ r : ℝ, s j i = (r : EReal))
    (hv : ∀ j, j < n → ∀ i, ∃ r : ℝ, v j i = (r : EReal))
    (hbm_at : ∀ j, j < n → ∃ i, bm j = s j i)
    (Mx : EReal) (hM_at : ∃ j, j < n ∧ ∃ i, Mx = s j i)
    {m l a : EReal} (hst : (m, l, a) = runN s v bm n) :
    Ideal.div a l
      = ∑ j ∈ Finset.range n, ∑ i : ι, Ideal.div (Ideal.exp (s j i - Mx))
          (∑ j' ∈ Finset.range n, ∑ i' : ι, Ideal.exp (s j' i' - Mx)) * v j i := by
  rw [← online_softmaxN_of_max s v bm n hs hv hbm_at Mx hM_at, ← hst]

end Cert.SoftmaxMath

end
-- ==== Proof.SmRow.lean ====
/-
  One row of the streaming-softmax update, read on the extended reals. For row r of a block of
  logits s, the new running maximum, denominator and numerator (at column d) are one online-softmax
  step on (mx r, dn r, nm r d): the step's scores are the 512 logits of row r, its values the 512
  entries of column d of the value rows hs, and its block maximum the largest logit of the row.
  Also: the values the three running quantities are reset to, and the output block as the
  exponential-linear unit of the normalised numerator times the output weights.
-/
import proofs.«121306_j85255100825818_2_alg».proof.Proof.SmPieces
import proofs.«121306_j85255100825818_2_alg».proof.Proof.MathRun
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Sm

open Idealize.ShloMosaic Idealize.ShloMosaic.ValueIdx
open Cert.KernelIdeal Cert.KernelIdeal.Gen
open scoped BigOperators

/-! ### Column layouts read at an index -/

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### Lane reductions and the product with the value rows, read at an index -/

/-- The maximum over the 512 lanes of row r, from -∞. -/
theorem rowMax_apply (x : FVec Ideal S1024x512 .f32) (hφ : FKind.Formats .f32)
    (hacc : (0xFF800000#32 : BitVec 32) = FKind.maximumf.neutral .f32 hφ) (r : Fin 1024) :
    multiReduction .maximumf [1] S1024 x 0xFF800000#32 reduces_S1024x512_S1024 hφ hacc (ix1 r)
      = Finset.univ.fold max ⊥ (fun j : Fin 512 => x (ix2 r j)) := by
  refine (Ideal.multiReduction_maximumf_single x 0xFF800000#32 reduces_S1024x512_S1024 hφ hacc
    (ix1 r)).trans ?_
  show Finset.univ.fold max (Ideal.ofBits .f32 0xFF800000#32)
    (fun j : Fin 512 => x (reduces_S1024x512_S1024.lift (ix1 r) j)) = _
  rw [Cert.LibOnlineSoftmax.ofBits_neg_inf]
  refine congrArg (fun f => Finset.univ.fold max ⊥ f) (funext fun j => congrArg x ?_)
  funext ax
  match ax with
  | ⟨0, _⟩ => rfl
  | ⟨1, _⟩ => rfl

/-- The sum over the 512 lanes of row r. -/
theorem rowSum_apply (x : FVec Ideal S1024x512 .f32) (hφ : FKind.Formats .f32)
    (hacc : (0x00000000#32 : BitVec 32) = FKind.add.neutral .f32 hφ) (r : Fin 1024) :
    multiReduction .add [1] S1024 x 0x00000000#32 reduces_S1024x512_S1024 hφ hacc (ix1 r)
      = ∑ j : Fin 512, x (ix2 r j) := by
  refine (Ideal.multiReduction_add_single x 0x00000000#32 reduces_S1024x512_S1024 hφ hacc
    (ix1 r)).trans ?_
  show ∑ j : Fin 512, x (reduces_S1024x512_S1024.lift (ix1 r) j) = _
  refine Finset.sum_congr rfl fun j _ => congrArg x ?_
  funext ax
  match ax with
  | ⟨0, _⟩ => rfl
  | ⟨1, _⟩ => rfl

/-- A [1024, 512] by [512, 512] product into a zero accumulator reads, at (r, d), the sum over
    the contracted coordinate of the products of the entries. -/
theorem matmul_512_apply (A : FVec Ideal S1024x512 .bf16) (B : FVec Ideal S512x512 .bf16)
    (r : Fin 1024) (d : Fin 512) :
    matmul dot_S1024x512_S512x512_S1024x512_1_0_0_1_n_n none A B
        (constant (F := Ideal) S1024x512 .f32 0x00000000#32) (ix2 r d)
      = ∑ j : Fin 512, A (ix2 r j) * B (ix2 j d) := by
  show FloatOps.matmul _ none A B _ (ix2 r d) = _
  rw [Ideal.matmul_constant_zero_apply,
    ← Equiv.sum_comp (contrEquiv1 dot_S1024x512_S512x512_S1024x512_1_0_0_1_n_n 512 rfl rfl).symm]
  refine Finset.sum_congr rfl fun c _ => ?_
  have c2 := contrEquiv1_symm_val dot_S1024x512_S512x512_S1024x512_1_0_0_1_n_n 512 rfl rfl c
  have l2 : dot_S1024x512_S512x512_S1024x512_1_0_0_1_n_n.lhsIdx (ix2 r d)
      ((contrEquiv1 _ 512 rfl rfl).symm c) = ix2 r c := by
    funext ax; apply Fin.ext
    match ax with
    | ⟨0, _⟩ => simp [DotDims.lhsIdx, dot_S1024x512_S512x512_S1024x512_1_0_0_1_n_n]; rfl
    | ⟨1, _⟩ => simp [DotDims.lhsIdx, dot_S1024x512_S512x512_S1024x512_1_0_0_1_n_n]; exact c2
  have r2 : dot_S1024x512_S512x512_S1024x512_1_0_0_1_n_n.rhsIdx (ix2 r d)
      ((contrEquiv1 _ 512 rfl rfl).symm c) = ix2 c d := by
    funext ax; apply Fin.ext
    match ax with
    | ⟨0, _⟩ => simp [DotDims.rhsIdx, dot_S1024x512_S512x512_S1024x512_1_0_0_1_n_n]; exact c2
    | ⟨1, _⟩ => simp [DotDims.rhsIdx, dot_S1024x512_S512x512_S1024x512_1_0_0_1_n_n]; rfl
  rw [l2, r2]

/-! ### The update of one row -/

/-- The exponential of a vector, read at an index. -/
theorem exp_apply {s : Shape} {φ : FTy} (a : FVec Ideal s φ) (i : s.Idx) :
    exp a i = Ideal.exp (a i) := rfl

/-- The new running maximum of row r: the larger of the old one and the largest logit of the row. -/
theorem pay8_apply (s : Vec Ideal S1024x512 .f32) (mx : Vec Ideal S1024x1 .f32) (r : Fin 1024) :
    k1_pay8 (F := Ideal) s mx (ix2 r 0)
      = max (mx (ix2 r 0)) (Finset.univ.fold max ⊥ (fun j : Fin 512 => s (ix2 r j))) := by
  unfold k1_pay8 k1_pay7
  rw [maximumf_apply, shapeCast_a_a1_apply]
  refine congrArg (max (mx (ix2 r 0))) ((rowMax_apply _ _ _ r).trans ?_)
  rw [shapeCast_self]

/-- The stored running maximum of row r is that new maximum. -/
theorem updM_apply (s : Vec Ideal S1024x512 .f32) (mx : Vec Ideal S1024x1 .f32) (r : Fin 1024) :
    updM (F := Ideal) s mx (ix2 r 0)
      = max (mx (ix2 r 0)) (Finset.univ.fold max ⊥ (fun j : Fin 512 => s (ix2 r j))) := by
  unfold updM k1_pay2
  rw [shapeCast_self]
  exact pay8_apply s mx r

/-- The factor that rescales row r's old sums: exp (old reference - new maximum). -/
theorem pay9_apply (s : Vec Ideal S1024x512 .f32) (mx v9 : Vec Ideal S1024x1 .f32) (r : Fin 1024) :
    k1_pay9 (F := Ideal) s mx v9 (ix2 r 0)
      = Ideal.exp (v9 (ix2 r 0)
          - max (mx (ix2 r 0)) (Finset.univ.fold max ⊥ (fun j : Fin 512 => s (ix2 r j)))) := by
  unfold k1_pay9
  rw [exp_apply, subf_apply, pay8_apply]

/-- The exponential of a logit of row r less the row's new maximum. -/
theorem pay10_apply (s : Vec Ideal S1024x512 .f32) (mx : Vec Ideal S1024x1 .f32) (r : Fin 1024)
    (j : Fin 512) :
    k1_pay10 (F := Ideal) s mx (ix2 r j)
      = Ideal.exp (s (ix2 r j)
          - max (mx (ix2 r 0)) (Finset.univ.fold max ⊥ (fun j : Fin 512 => s (ix2 r j)))) := by
  unfold k1_pay10 k1_pay7
  rw [exp_apply, subf_apply, shapeCast_self, broadcastTo_a1_ab_apply, pay8_apply]

/-- The new denominator of row r: the old one rescaled by exp (old maximum - new maximum), plus
    the sum over the row's 512 logits of exp (logit - new maximum). -/
theorem updD_apply (s : Vec Ideal S1024x512 .f32) (mx dn : Vec Ideal S1024x1 .f32) (r : Fin 1024) :
    updD (F := Ideal) s mx dn (ix2 r 0)
      = Ideal.exp (mx (ix2 r 0)
            - max (mx (ix2 r 0)) (Finset.univ.fold max ⊥ (fun j : Fin 512 => s (ix2 r j))))
          * dn (ix2 r 0)
        + ∑ i : Fin 512, Ideal.exp (s (ix2 r i)
            - max (mx (ix2 r 0)) (Finset.univ.fold max ⊥ (fun j : Fin 512 => s (ix2 r j)))) := by
  unfold updD k1_pay11
  rw [shapeCast_self, addf_apply, mulf_apply, pay9_apply, shapeCast_a_a1_apply]
  refine congrArg (_ + ·) ((rowSum_apply _ _ _ r).trans ?_)
  exact Finset.sum_congr rfl fun i _ => pay10_apply s mx r i

/-- The new numerator of row r at column d: the old one rescaled by exp (old maximum - new
    maximum), plus the sum over the row's 512 logits of exp (logit - new maximum) times the entry
    of the value rows at (lane, d). -/
theorem updN_apply (s : Vec Ideal S1024x512 .f32) (hs : Vec Ideal S512x512 .bf16)
    (mx : Vec Ideal S1024x1 .f32) (nm : Vec Ideal S1024x512 .f32) (r : Fin 1024) (d : Fin 512) :
    updN (F := Ideal) s hs mx nm (ix2 r d)
      = Ideal.exp (mx (ix2 r 0)
            - max (mx (ix2 r 0)) (Finset.univ.fold max ⊥ (fun j : Fin 512 => s (ix2 r j))))
          * nm (ix2 r d)
        + ∑ i : Fin 512, Ideal.exp (s (ix2 r i)
            - max (mx (ix2 r 0)) (Finset.univ.fold max ⊥ (fun j : Fin 512 => s (ix2 r j))))
          * hs (ix2 i d) := by
  unfold updN k1_pay1 k1_pay12
  rw [shapeCast_self, addf_apply, mulf_apply, broadcastTo_a1_ab_apply, pay9_apply]
  refine congrArg (_ + ·) ((matmul_512_apply _ _ r d).trans ?_)
  refine Finset.sum_congr rfl fun i _ => ?_
  rw [truncf_apply, shapeCast_self, pay10_apply]

/-- One row of the update is one online-softmax step: on the state (mx r, dn r, nm r d), with the
    row's 512 logits as scores, column d of the value rows as values, and the row's largest logit
    as block maximum. -/
theorem upd_step (s : Vec Ideal S1024x512 .f32) (hs : Vec Ideal S512x512 .bf16)
    (mx dn : Vec Ideal S1024x1 .f32) (nm : Vec Ideal S1024x512 .f32) (r : Fin 1024) (d : Fin 512) :
    (updM (F := Ideal) s mx (ix2 r 0), updD (F := Ideal) s mx dn (ix2 r 0),
        updN (F := Ideal) s hs mx nm (ix2 r d))
      = Cert.LibOnlineSoftmax.step (fun j : Fin 512 => s (ix2 r j)) (fun j : Fin 512 => hs (ix2 j d))
          (Finset.univ.fold max ⊥ (fun j : Fin 512 => s (ix2 r j)))
          (mx (ix2 r 0), dn (ix2 r 0), nm (ix2 r d)) := by
  rw [updM_apply, updD_apply, updN_apply]
  rfl

/-! ### The reset values -/

/-- The running maximum is reset to -∞. -/
theorem pay4_apply (r : Fin 1024) : (k1_pay4 (F := Ideal)) (ix2 r 0) = ⊥ := by
  unfold k1_pay4
  rw [shapeCast_self]
  exact Cert.LibOnlineSoftmax.ofBits_neg_inf

/-- The running denominator is reset to 0. -/
theorem pay5_apply (r : Fin 1024) : (k1_pay5 (F := Ideal)) (ix2 r 0) = 0 := by
  unfold k1_pay5
  rw [shapeCast_self]
  exact Ideal.ofBits_zero_f32

/-- The running numerator is reset to 0. -/
theorem pay6_apply (r : Fin 1024) (d : Fin 512) : (k1_pay6 (F := Ideal)) (ix2 r d) = 0 := by
  unfold k1_pay6
  rw [shapeCast_self]
  exact Ideal.ofBits_zero_f32

/-! ### The output block -/

/-- The exponential-linear unit: z where z > 0, and exp z - 1 elsewhere. -/
def elu (z : EReal) : EReal := if 0 < z then z else Ideal.exp z - 1

/-- The binary32 pattern 0x3F800000 denotes 1. -/
theorem ofBits_one : Ideal.ofBits .f32 0x3F800000#32 = 1 := by
  simp [Ideal.ofBits, Ideal.ieee, -EReal.coe_mul]; norm_num

/-- Choosing z where z > 0 and exp z - 1 elsewhere, as the comparison, the exponential, the
    subtraction of 1.0 and the selection compute it, is the exponential-linear unit. -/
theorem elu_read (V : FVec Ideal S1024x512 .f32) (i : S1024x512.Idx) :
    select (cmpf .ogt V (broadcast S1024x512 (Scalar.ofBits (F := Ideal) .f32 0x00000000#32))) V
        (subf (exp V) (broadcast S1024x512 (Scalar.ofBits (F := Ideal) .f32 0x3F800000#32))) i
      = elu (V i) := by
  show Scalar.select (Ideal.cmp .ogt (V i) (Ideal.ofBits .f32 0x00000000#32)) (V i)
    (Ideal.exp (V i) - Ideal.ofBits .f32 0x3F800000#32) = _
  rw [Ideal.ofBits_zero_f32, ofBits_one]
  by_cases h : (0 : EReal) < V i <;> simp [Scalar.select, Ideal.cmp, elu, h]

/-- The output block at (r, e): the exponential-linear unit of the sum over d of the numerator of
    row r at d, divided by the row's denominator, times the output weight at (d, e). -/
theorem pay3_apply (nm : Vec Ideal S1024x512 .f32) (dn : Vec Ideal S1024x1 .f32)
    (lw : Vec Ideal S512x512 .bf16) (r : Fin 1024) (e : Fin 512) :
    k1_pay3 (F := Ideal) nm dn lw (ix2 r e)
      = elu (∑ d : Fin 512, Ideal.div (nm (ix2 r d)) (dn (ix2 r 0)) * lw (ix2 d e)) := by
  unfold k1_pay3
  refine (elu_read _ (ix2 r e)).trans (congrArg elu ((matmul_512_apply _ _ r e).trans ?_))
  refine Finset.sum_congr rfl fun d _ => ?_
  rw [shapeCast_self, truncf_apply, divf_apply, broadcastTo_a1_ab_apply]

end Cert.KernelIdeal.Sm

end
-- ==== Proof.SmSpec.lean ====
/-
  The streaming-softmax kernel's result, stated as one function of the arrays it reads.

  Row `n` of the logit matrix is cut in sixteen tiles of 512 columns, column `d` of the value array in sixteen tiles of 512
  rows.  The streaming softmax over the sixteen tiles (each step bounded by the tile's own row maximum) leaves a
  denominator and, per column `d`, a numerator; the result at (n, e) is the exponential-linear unit of
  Σ_d (numerator_d / denominator) · LW[d, e].
-/
import proofs.«121306_j85255100825818_2_alg».proof.Proof.SmRow
import proofs.«121306_j85255100825818_2_alg».proof.Proof.MathRun
import Idealize.ShloMosaic.Lib.ValueIdx

noncomputable section

namespace Cert.KernelIdeal.Sm

open Idealize.ShloMosaic Cert.KernelIdeal
open Idealize.ShloMosaic.ValueIdx
open Cert.LibOnlineSoftmax Cert.SoftmaxMath

/-- Row `n` of the logits cut in column tiles (tile `k`, lane `j`); beyond the sixteen tiles nothing is read. -/
def sRow (S : Vec Ideal S8192x8192 .f32) (n : Fin 8192) : ℕ → Fin 512 → EReal :=
  fun k j => if hk : k < 16 then S (ix2 n (⟨512 * k + j.val, by omega⟩ : Fin 8192)) else 0
/-- Column `d` of the values cut the same way. -/
def vCol (H : Vec Ideal S8192x512 .bf16) (d : Fin 512) : ℕ → Fin 512 → EReal :=
  fun k j => if hk : k < 16 then H (ix2 (⟨512 * k + j.val, by omega⟩ : Fin 8192) d) else 0
/-- Each tile's row maximum. -/
def bmRow (S : Vec Ideal S8192x8192 .f32) (n : Fin 8192) : ℕ → EReal :=
  fun k => Finset.univ.fold max ⊥ (sRow S n k)

/-- The result at (row n, column e). -/
def outAt (S : Vec Ideal S8192x8192 .f32) (H : Vec Ideal S8192x512 .bf16) (LW : Vec Ideal S512x512 .bf16)
    (n : Fin 8192) (e : Fin 512) : EReal :=
  elu (∑ d : Fin 512, Ideal.div (runN (sRow S n) (vCol H d) (bmRow S n) 16).2.2 (runN (sRow S n) (vCol H d) (bmRow S n) 16).2.1
    * LW (ix2 d e))
/-- The result array. -/
def outG (S : Vec Ideal S8192x8192 .f32) (H : Vec Ideal S8192x512 .bf16) (LW : Vec Ideal S512x512 .bf16) :
    Vec Ideal S8192x512 .f32 := fun i => outAt S H LW (i 0) (i 1)

theorem outG_apply (S : Vec Ideal S8192x8192 .f32) (H : Vec Ideal S8192x512 .bf16) (LW : Vec Ideal S512x512 .bf16)
    (n : Fin 8192) (e : Fin 512) : outG S H LW (ix2 n e) = outAt S H LW n e := rfl

end Cert.KernelIdeal.Sm

end
-- ==== Proof.MathIndex.lean ====
/-
  Re-indexing a·b keys laid out block after block (key number b·j + i is key i of block j): a sum
  over all the keys is the sum over the blocks of the sums over each block, and the maximum (the
  fold of max from -∞) over all the keys is the fold over the blocks of the block maxima.
-/
import Mathlib.Data.EReal.Basic
import Mathlib.Algebra.BigOperators.Fin
import proofs.«121306_j85255100825818_2_alg».proof.Proof.LibOnlineSoftmax

noncomputable section

namespace Cert.SoftmaxMath

open Cert.LibOnlineSoftmax
open scoped BigOperators

/-! ### Key i of block j among a·b keys -/

/-- The position b·j + i of key i of block j is below a·b. -/
theorem blockIdx_lt {a b : ℕ} (j : Fin a) (i : Fin b) : b * j.val + i.val < a * b := by
  have hj := j.isLt
  have hi := i.isLt
  calc b * j.val + i.val < b * j.val + b := by omega
    _ = b * (j.val + 1) := by ring
    _ ≤ b * a := Nat.mul_le_mul_left b (by omega)
    _ = a * b := Nat.mul_comm b a

/-- Key i of block j, as an index into a·b keys. -/
def blockIdx {a b : ℕ} (j : Fin a) (i : Fin b) : Fin (a * b) := ⟨b * j.val + i.val, blockIdx_lt j i⟩

@[simp] theorem blockIdx_val {a b : ℕ} (j : Fin a) (i : Fin b) :
    (blockIdx j i).val = b * j.val + i.val := rfl

/-- Any indexing idx of N = a·b keys by block and position with idx j i at position b·j + i is
    Mathlib's pairing of Fin a × Fin b with Fin (a·b). -/
theorem idx_eq_equiv {a b : ℕ} (idx : Fin a → Fin b → Fin (a * b))
    (hidx : ∀ j i, (idx j i).val = b * j.val + i.val) (j : Fin a) (i : Fin b) :
    idx j i = finProdFinEquiv (j, i) :=
  Fin.ext (by rw [hidx]; simp [finProdFinEquiv, Nat.add_comm])

/-- Every key is key i of block j for some j and i. -/
theorem exists_idx {a b N : ℕ} (hN : a * b = N) (idx : Fin a → Fin b → Fin N)
    (hidx : ∀ j i, (idx j i).val = b * j.val + i.val) (k : Fin N) : ∃ j i, k = idx j i := by
  subst hN
  obtain ⟨⟨j, i⟩, h⟩ := finProdFinEquiv.surjective k
  exact ⟨j, i, by rw [idx_eq_equiv idx hidx, h]⟩

/-! ### Sums -/

/-- A sum over N = a·b keys is the sum over the a blocks of the sums over each block, for any
    indexing idx with idx j i at position b·j + i. -/
theorem sum_blocks {α : Type*} [AddCommMonoid α] {a b N : ℕ} (hN : a * b = N) (f : Fin N → α)
    (idx : Fin a → Fin b → Fin N) (hidx : ∀ j i, (idx j i).val = b * j.val + i.val) :
    ∑ k, f k = ∑ j : Fin a, ∑ i : Fin b, f (idx j i) := by
  subst hN
  rw [← Equiv.sum_comp finProdFinEquiv f, Fintype.sum_prod_type]
  exact Finset.sum_congr rfl fun j _ => Finset.sum_congr rfl fun i _ =>
    congrArg f (idx_eq_equiv idx hidx j i).symm

/-- A sum over a·b keys is the sum over the a blocks of the sums over each block. -/
theorem sum_fin_mul {α : Type*} [AddCommMonoid α] {a b : ℕ} (f : Fin (a * b) → α) :
    ∑ k, f k = ∑ j : Fin a, ∑ i : Fin b, f ⟨b * j.val + i.val, blockIdx_lt j i⟩ :=
  sum_blocks rfl f blockIdx fun _ _ => rfl

/-- The same for a summand given as a function of the position b·j + i. -/
theorem sum_fin_mul_nat {α : Type*} [AddCommMonoid α] {a b : ℕ} (g : ℕ → α) :
    ∑ k : Fin (a * b), g k.val = ∑ j : Fin a, ∑ i : Fin b, g (b * j.val + i.val) :=
  sum_fin_mul fun k : Fin (a * b) => g k.val

/-- The same with the blocks indexed by the numbers below a. -/
theorem sum_fin_mul_range {α : Type*} [AddCommMonoid α] {a b : ℕ} (g : ℕ → α) :
    ∑ k : Fin (a * b), g k.val = ∑ j ∈ Finset.range a, ∑ i : Fin b, g (b * j + i.val) := by
  rw [sum_fin_mul_nat, Finset.sum_range]

/-- A sum over the numbers below a·b is the sum over j < a of the sums over i < b at b·j + i. -/
theorem sum_range_mul {α : Type*} [AddCommMonoid α] (a b : ℕ) (g : ℕ → α) :
    ∑ k ∈ Finset.range (a * b), g k
      = ∑ j ∈ Finset.range a, ∑ i ∈ Finset.range b, g (b * j + i) := by
  rw [Finset.sum_range, sum_fin_mul_nat, Finset.sum_range]
  exact Finset.sum_congr rfl fun j _ => (Finset.sum_range fun i => g (b * j.val + i)).symm

/-- A sum over 8192 = 16·512 keys is the sum over the 16 blocks of the sums over the 512 keys of
    each block, key i of block j being key number 512·j + i. -/
theorem sum_fin_8192 {α : Type*} [AddCommMonoid α] (f : Fin 8192 → α) :
    ∑ k, f k = ∑ j : Fin 16, ∑ i : Fin 512, f ⟨512 * j.val + i.val, by omega⟩ :=
  sum_blocks (a := 16) (b := 512) rfl f (fun j i => ⟨512 * j.val + i.val, by omega⟩) fun _ _ => rfl

/-- The same for a summand given as a function of the key number. -/
theorem sum_fin_8192_nat {α : Type*} [AddCommMonoid α] (g : ℕ → α) :
    ∑ k : Fin 8192, g k.val = ∑ j : Fin 16, ∑ i : Fin 512, g (512 * j.val + i.val) :=
  sum_fin_8192 fun k : Fin 8192 => g k.val

/-- The same with the blocks indexed by the numbers below 16. -/
theorem sum_fin_8192_range {α : Type*} [AddCommMonoid α] (g : ℕ → α) :
    ∑ k : Fin 8192, g k.val = ∑ j ∈ Finset.range 16, ∑ i : Fin 512, g (512 * j + i.val) := by
  rw [sum_fin_8192_nat, Finset.sum_range]

/-! ### Maxima -/

/-- An upper bound of N = a·b extended reals that is attained is an upper bound, attained, of the
    same numbers indexed by block and position, and conversely. -/
theorem max_spec_blocks {a b N : ℕ} (hN : a * b = N) (f : Fin N → EReal)
    (idx : Fin a → Fin b → Fin N) (hidx : ∀ j i, (idx j i).val = b * j.val + i.val) (M : EReal) :
    ((∀ k, f k ≤ M) ∧ ∃ k, M = f k)
      ↔ ((∀ j i, f (idx j i) ≤ M) ∧ ∃ j i, M = f (idx j i)) := by
  constructor
  · rintro ⟨hge, k, hk⟩
    obtain ⟨j, i, rfl⟩ := exists_idx hN idx hidx k
    exact ⟨fun j i => hge _, j, i, hk⟩
  · rintro ⟨hge, j, i, hk⟩
    refine ⟨fun k => ?_, idx j i, hk⟩
    obtain ⟨j', i', rfl⟩ := exists_idx hN idx hidx k
    exact hge j' i'

/-- The fold of max from -∞ over N = a·b extended reals is the fold over the a blocks of the
    folds over each block, for any indexing idx with idx j i at position b·j + i. -/
theorem fold_max_blocks {a b N : ℕ} (hN : a * b = N) (f : Fin N → EReal)
    (idx : Fin a → Fin b → Fin N) (hidx : ∀ j i, (idx j i).val = b * j.val + i.val) :
    Finset.univ.fold max ⊥ f
      = Finset.univ.fold max ⊥ fun j : Fin a => Finset.univ.fold max ⊥ fun i : Fin b =>
          f (idx j i) := by
  refine le_antisymm ((Finset.fold_max_le _).2 ⟨bot_le, fun k _ => ?_⟩)
    ((Finset.fold_max_le _).2 ⟨bot_le, fun j _ => (Finset.fold_max_le _).2 ⟨bot_le, fun i _ =>
      le_fold_max_of_mem _ f ⊥ (Finset.mem_univ _)⟩⟩)
  obtain ⟨j, i, rfl⟩ := exists_idx hN idx hidx k
  exact (le_fold_max_of_mem Finset.univ (fun i : Fin b => f (idx j i)) ⊥ (Finset.mem_univ i)).trans
    (le_fold_max_of_mem Finset.univ
      (fun j : Fin a => Finset.univ.fold max ⊥ fun i : Fin b => f (idx j i)) ⊥ (Finset.mem_univ j))

/-- The fold of max from -∞ over a·b extended reals is the fold over the a blocks of the folds
    over each block. -/
theorem fold_max_fin_mul {a b : ℕ} (f : Fin (a * b) → EReal) :
    Finset.univ.fold max ⊥ f
      = Finset.univ.fold max ⊥ fun j : Fin a => Finset.univ.fold max ⊥ fun i : Fin b =>
          f ⟨b * j.val + i.val, blockIdx_lt j i⟩ :=
  fold_max_blocks rfl f blockIdx fun _ _ => rfl

/-- The fold of max from -∞ over 8192 = 16·512 extended reals is the fold over the 16 blocks of
    the folds over the 512 keys of each block, key i of block j being key number 512·j + i. -/
theorem fold_max_fin_8192 (f : Fin 8192 → EReal) :
    Finset.univ.fold max ⊥ f
      = Finset.univ.fold max ⊥ fun j : Fin 16 => Finset.univ.fold max ⊥ fun i : Fin 512 =>
          f ⟨512 * j.val + i.val, by omega⟩ :=
  fold_max_blocks (a := 16) (b := 512) rfl f (fun j i => ⟨512 * j.val + i.val, by omega⟩)
    fun _ _ => rfl

/-- The same for numbers given as a function of the key number. -/
theorem fold_max_fin_8192_nat (g : ℕ → EReal) :
    (Finset.univ.fold max ⊥ fun k : Fin 8192 => g k.val)
      = Finset.univ.fold max ⊥ fun j : Fin 16 => Finset.univ.fold max ⊥ fun i : Fin 512 =>
          g (512 * j.val + i.val) :=
  fold_max_fin_8192 fun k : Fin 8192 => g k.val

/-- An upper bound of 8192 = 16·512 extended reals that is attained is an upper bound, attained,
    of the same numbers indexed by block and position, and conversely. -/
theorem max_spec_8192 (f : Fin 8192 → EReal) (M : EReal) :
    ((∀ k, f k ≤ M) ∧ ∃ k, M = f k)
      ↔ ((∀ (j : Fin 16) (i : Fin 512), f ⟨512 * j.val + i.val, by omega⟩ ≤ M)
          ∧ ∃ (j : Fin 16) (i : Fin 512), M = f ⟨512 * j.val + i.val, by omega⟩) :=
  max_spec_blocks (a := 16) (b := 512) rfl f (fun j i => ⟨512 * j.val + i.val, by omega⟩)
    (fun _ _ => rfl) M

end Cert.SoftmaxMath

end
-- ==== Proof.MathBridge.lean ====
/-
  The streaming softmax over sixteen blocks of 512 keys equals the one-shot softmax over the 8192
  keys: with the keys cut into blocks laid out one after another, each block's maximum as its
  block maximum and the global maximum as the reference point, the final numerator divided by the
  final denominator is the softmax-weighted sum of the values.
-/
import proofs.«121306_j85255100825818_2_alg».proof.Proof.MathRun
import proofs.«121306_j85255100825818_2_alg».proof.Proof.MathIndex

noncomputable section

namespace Cert.SoftmaxMath

open Idealize.ShloMosaic
open Cert.LibOnlineSoftmax
open scoped BigOperators

/-- Block k of 8192 numbers cut into sixteen blocks of 512 laid out one after another: entry j of
    block k is number 512·k + j. Beyond the sixteenth block it is zero. -/
def blockOf (f : Fin 8192 → EReal) (k : ℕ) (j : Fin 512) : EReal :=
  if h : k < 16 then f ⟨512 * k + j.val, by have := j.isLt; omega⟩ else 0

/-- Entry j of block k, for k below sixteen. -/
theorem blockOf_fin (f : Fin 8192 → EReal) (k : Fin 16) (j : Fin 512) :
    blockOf f k.val j = f ⟨512 * k.val + j.val, by omega⟩ :=
  dif_pos k.isLt

/-- Entry j of block k, for k below sixteen. -/
theorem blockOf_lt (f : Fin 8192 → EReal) {k : ℕ} (hk : k < 16) (j : Fin 512) :
    blockOf f k j = f ⟨512 * k + j.val, by have := j.isLt; omega⟩ :=
  dif_pos hk

/-- A sum over the sixteen blocks of the sums over each block is the sum over all 8192 numbers. -/
theorem sum_blockOf {α : Type*} [AddCommMonoid α] (f : Fin 8192 → EReal) (T : EReal → α) :
    ∑ j ∈ Finset.range 16, ∑ i : Fin 512, T (blockOf f j i) = ∑ k : Fin 8192, T (f k) := by
  rw [Finset.sum_range, sum_fin_8192 fun k => T (f k)]
  exact Finset.sum_congr rfl fun j _ => Finset.sum_congr rfl fun i _ => by rw [blockOf_fin]

/-- The same for a summand that reads two families at the same position. -/
theorem sum_blockOf₂ {α : Type*} [AddCommMonoid α] (f g : Fin 8192 → EReal) (T : EReal → EReal → α) :
    ∑ j ∈ Finset.range 16, ∑ i : Fin 512, T (blockOf f j i) (blockOf g j i)
      = ∑ k : Fin 8192, T (f k) (g k) := by
  rw [Finset.sum_range, sum_fin_8192 fun k => T (f k) (g k)]
  exact Finset.sum_congr rfl fun j _ => Finset.sum_congr rfl fun i _ => by
    rw [blockOf_fin, blockOf_fin]

/-- The streaming softmax over sixteen blocks of 512 is the one-shot softmax over 8192: for real
    scores f and real values g, with each block's maximum as its block maximum, the final numerator
    divided by the final denominator is
    ∑ k, (exp (f k - M) / ∑ k', exp (f k' - M)) · g k with M the maximum of all the scores. -/
theorem online_softmax_8192 (f g : Fin 8192 → EReal) (hf : ∀ k, ∃ r : ℝ, f k = (r : EReal))
    (hg : ∀ k, ∃ r : ℝ, g k = (r : EReal)) :
    Ideal.div
        (runN (blockOf f) (blockOf g) (fun k => Finset.univ.fold max ⊥ (blockOf f k)) 16).2.2
        (runN (blockOf f) (blockOf g) (fun k => Finset.univ.fold max ⊥ (blockOf f k)) 16).2.1
      = ∑ k : Fin 8192, Ideal.div (Ideal.exp (f k - Finset.univ.fold max ⊥ f))
          (∑ k' : Fin 8192, Ideal.exp (f k' - Finset.univ.fold max ⊥ f)) * g k := by
  have hs : ∀ j, j < 16 → ∀ i, ∃ r : ℝ, blockOf f j i = (r : EReal) := fun j hj i => by
    rw [blockOf_lt f hj]; exact hf _
  have hv : ∀ j, j < 16 → ∀ i, ∃ r : ℝ, blockOf g j i = (r : EReal) := fun j hj i => by
    rw [blockOf_lt g hj]; exact hg _
  have hbm : ∀ j, j < 16 → ∃ i, (fun k => Finset.univ.fold max ⊥ (blockOf f k)) j = blockOf f j i :=
    fun j _ => (fold_max_bot_spec (blockOf f j)).2
  have hM : ∃ j, j < 16 ∧ ∃ i, Finset.univ.fold max ⊥ f = blockOf f j i := by
    obtain ⟨k, hk⟩ := (fold_max_bot_spec f).2
    obtain ⟨j, i, rfl⟩ := exists_idx (a := 16) (b := 512) rfl
      (fun (j : Fin 16) (i : Fin 512) => (⟨512 * j.val + i.val, by omega⟩ : Fin 8192)) (fun _ _ => rfl) k
    exact ⟨j.val, j.isLt, i, by rw [blockOf_fin]; exact hk⟩
  rw [online_softmaxN_of_max (blockOf f) (blockOf g) _ 16 hs hv hbm _ hM,
    sum_blockOf f fun x => Ideal.exp (x - Finset.univ.fold max ⊥ f)]
  exact sum_blockOf₂ f g fun x y => Ideal.div (Ideal.exp (x - Finset.univ.fold max ⊥ f))
    (∑ k' : Fin 8192, Ideal.exp (f k' - Finset.univ.fold max ⊥ f)) * y

end Cert.SoftmaxMath

end
-- ==== Proof.BridgeSoft.lean ====
/-
  The softmax stage and the output layer of the two programs are one function.

  The reference takes, for each node n, the softmax of row n of the logit matrix over all 8192
  columns (the row's maximum subtracted before the exponential, the row's sum of exponentials as
  divisor) times the value array, and then the output layer through the exponential-linear unit.
  The kernel streams the same row in sixteen tiles of 512 columns, keeping a running maximum,
  denominator and numerator. On real entries the two agree: the streamed numerator divided by the
  streamed denominator is the softmax-weighted sum, whatever the reference point of the
  exponentials, and both apply the same exponential-linear unit to the same sums.
-/
import proofs.«121306_j85255100825818_2_alg».proof.Proof.RefDefs
import proofs.«121306_j85255100825818_2_alg».proof.Proof.Gen.ReferenceIdeal
import proofs.«121306_j85255100825818_2_alg».proof.Proof.SmSpec
import proofs.«121306_j85255100825818_2_alg».proof.Proof.MathBridge
import Idealize.ShloMosaic.Lib.IdealHost
import Idealize.ShloMosaic.Lib.ValueLayout

set_option maxRecDepth 16384

noncomputable section

open scoped BigOperators

namespace Cert.BridgeSoft

open Idealize.ShloMosaic Idealize.ShloMosaic.ValueIdx
open Cert.ReferenceIdeal Cert.ReferenceIdeal.Gen Cert.ReferenceIdeal.RefRun
open Cert.KernelIdeal.Sm (elu outG outG_apply outAt sRow vCol bmRow)
open Cert.SoftmaxMath Cert.LibOnlineSoftmax

/-! ## The reference's operations at an index -/

/-- The host's exponential at an index. -/
theorem hostExp_apply {s : Shape} {φ : FTy} (a : FVec Ideal s φ) (i : s.Idx) :
    Host.exp a i = Ideal.exp (a i) := rfl

/-- The host's exp x - 1 at an index. -/
theorem hostExpm1_apply {s : Shape} {φ : FTy} (a : FVec Ideal s φ) (i : s.Idx) :
    Host.expm1 a i = Ideal.expm1 (a i) := rfl

/-- A vector of per-row values spread along each row reads, at (n, k), the value of row n. -/
theorem rowBcast_apply (v : FVec Ideal S8192 .f32) (n k : Fin 8192) :
    rowBcast v (ix2 n k) = v (ix1 n) := by
  unfold rowBcast
  refine (broadcastInDim_apply _ _ _ (ix2 n k) (ix2 n (0 : Fin 1)) fun ax => ?_).trans
    (broadcastInDim_apply _ _ _ (ix2 n (0 : Fin 1)) (ix1 n) fun ax => ?_)
  · match ax with
    | ⟨0, _⟩ => rfl
    | ⟨1, _⟩ => rfl
  · match ax with
    | ⟨0, _⟩ => rfl

/-- The reference's maximum of row n: the largest of the row's 8192 logits. -/
theorem rowMax_apply (S : FVec Ideal S8192x8192 .f32) (n : Fin 8192) :
    rowMax S (ix1 n) = Finset.univ.fold max ⊥ (fun k : Fin 8192 => S (ix2 n k)) := by
  unfold rowMax negInfS
  rw [maximumf_apply, broadcastInDim_scalar_apply, constant_apply, ofBits_neg_inf,
    max_eq_right bot_le,
    Host.reduce_eq_fold_single FloatOps.maximumf S _ reducesTo_S8192x8192_S8192_d1
      (by decide : S8192x8192.Reduces [1] S8192) h_S_ (ix1 n),
    constant_apply, ofBits_neg_inf, fold_maximumf_eq]
  refine congrArg (fun f => Finset.univ.fold max ⊥ f) (funext fun k => congrArg S ?_)
  funext ax; apply Fin.ext
  match ax with
  | ⟨0, _⟩ => rfl
  | ⟨1, _⟩ => rfl

/-- The shifted exponential at (n, k): exp (logit - the row's maximum). -/
theorem expS_apply (S : FVec Ideal S8192x8192 .f32) (n k : Fin 8192) :
    expS S (ix2 n k) = Ideal.exp (S (ix2 n k) - Finset.univ.fold max ⊥ (fun k : Fin 8192 => S (ix2 n k))) := by
  unfold expS
  rw [hostExp_apply, subf_apply, rowBcast_apply, rowMax_apply]

/-- The reference's sum of row n of the shifted exponentials, from zero. -/
theorem rowSum_apply (S : FVec Ideal S8192x8192 .f32) (n : Fin 8192) :
    rowSum S (ix1 n) = ∑ k : Fin 8192, expS S (ix2 n k) := by
  unfold rowSum zeroS
  rw [hostReduceAdd_apply, Ideal.hostReduceAdd_single reducesTo_S8192x8192_S8192_d1
    (by decide : S8192x8192.Reduces [1] S8192), constant_apply, Ideal.ofBits_zero_f32, zero_add]
  refine Finset.sum_congr rfl fun k _ => congrArg (expS S) ?_
  funext ax; apply Fin.ext
  match ax with
  | ⟨0, _⟩ => rfl
  | ⟨1, _⟩ => rfl

/-- The reference's softmax of row n times column d of the values: the sum over the 8192 keys of
    (shifted exponential / row sum) · value. -/
theorem soft_apply (S : FVec Ideal S8192x8192 .f32) (H : FVec Ideal S8192x512 .f32) (n : Fin 8192)
    (d : Fin 512) :
    soft S H (ix2 n d)
      = ∑ k : Fin 8192, Ideal.div (expS S (ix2 n k)) (rowSum S (ix1 n)) * H (ix2 k d) := by
  unfold soft
  show FloatOps.dotGeneral dot_S8192x8192_S8192x512_S8192x512_1_0_0_1_n_n none _ _ H (ix2 n d) = _
  rw [Ideal.dotGeneral_apply,
    ← Equiv.sum_comp (contrEquiv1 dot_S8192x8192_S8192x512_S8192x512_1_0_0_1_n_n 8192 rfl rfl).symm]
  refine Finset.sum_congr rfl fun c _ => ?_
  have c2 := contrEquiv1_symm_val dot_S8192x8192_S8192x512_S8192x512_1_0_0_1_n_n 8192 rfl rfl c
  have l2 : dot_S8192x8192_S8192x512_S8192x512_1_0_0_1_n_n.lhsIdx (ix2 n d)
      ((contrEquiv1 _ 8192 rfl rfl).symm c) = ix2 n c := by
    funext ax; apply Fin.ext
    match ax with
    | ⟨0, _⟩ => simp [DotDims.lhsIdx, dot_S8192x8192_S8192x512_S8192x512_1_0_0_1_n_n]; rfl
    | ⟨1, _⟩ => simp [DotDims.lhsIdx, dot_S8192x8192_S8192x512_S8192x512_1_0_0_1_n_n]; exact c2
  have r2 : dot_S8192x8192_S8192x512_S8192x512_1_0_0_1_n_n.rhsIdx (ix2 n d)
      ((contrEquiv1 _ 8192 rfl rfl).symm c) = ix2 c d := by
    funext ax; apply Fin.ext
    match ax with
    | ⟨0, _⟩ => simp [DotDims.rhsIdx, dot_S8192x8192_S8192x512_S8192x512_1_0_0_1_n_n]; exact c2
    | ⟨1, _⟩ => simp [DotDims.rhsIdx, dot_S8192x8192_S8192x512_S8192x512_1_0_0_1_n_n]; rfl
  rw [l2, r2, hostDivf_apply, rowBcast_apply]

/-- The reference's exponential-linear unit at an index is the kernel's, on the same value: where
    the outer choice takes its second branch the inner one takes z, and 1 · x = x. -/
theorem eluR_apply (z : FVec Ideal S8192x512 .f32) (i : S8192x512.Idx) : eluR z i = elu (z i) := by
  have h0 : zeroM i = 0 := by
    unfold zeroM zeroS
    rw [broadcastInDim_scalar_apply, constant_apply, Ideal.ofBits_zero_f32]
  have h1 : broadcastInDim S8192x512 ![] bcast_S_S8192x512
      (constant (F := Ideal) S_ .f32 0x3F800000#32) i = 1 := by
    rw [broadcastInDim_scalar_apply, constant_apply, Ideal.ofBits_one_f32]
  unfold eluR
  simp only [select_apply, cmpf_apply, mulf_apply, hostExpm1_apply, h0, h1, Ideal.cmpf_def]
  by_cases h : (0 : EReal) < z i <;> simp [Scalar.select, Ideal.cmp, elu, Ideal.expm1, h]

/-- The reference's output layer at (n, e): the exponential-linear unit of the sum over d of
    o (n, d) times the output weight at (e, d). -/
theorem tail_apply (o : FVec Ideal S8192x512 .f32) (lw : FVec Ideal S512x512 .f32) (n : Fin 8192)
    (e : Fin 512) :
    tail o lw (ix2 n e) = elu (∑ d : Fin 512, o (ix2 n d) * lw (ix2 e d)) := by
  unfold tail
  rw [eluR_apply]
  refine congrArg elu ?_
  show FloatOps.dotGeneral dot_S8192x512_S512x512_S8192x512_1_0_0_1_n_n none _ o _ (ix2 n e) = _
  rw [Ideal.dotGeneral_apply,
    ← Equiv.sum_comp (contrEquiv1 dot_S8192x512_S512x512_S8192x512_1_0_0_1_n_n 512 rfl rfl).symm]
  refine Finset.sum_congr rfl fun c _ => ?_
  have c2 := contrEquiv1_symm_val dot_S8192x512_S512x512_S8192x512_1_0_0_1_n_n 512 rfl rfl c
  have l2 : dot_S8192x512_S512x512_S8192x512_1_0_0_1_n_n.lhsIdx (ix2 n e)
      ((contrEquiv1 _ 512 rfl rfl).symm c) = ix2 n c := by
    funext ax; apply Fin.ext
    match ax with
    | ⟨0, _⟩ => simp [DotDims.lhsIdx, dot_S8192x512_S512x512_S8192x512_1_0_0_1_n_n]; rfl
    | ⟨1, _⟩ => simp [DotDims.lhsIdx, dot_S8192x512_S512x512_S8192x512_1_0_0_1_n_n]; exact c2
  have r2 : dot_S8192x512_S512x512_S8192x512_1_0_0_1_n_n.rhsIdx (ix2 n e)
      ((contrEquiv1 _ 512 rfl rfl).symm c) = ix2 c e := by
    funext ax; apply Fin.ext
    match ax with
    | ⟨0, _⟩ => simp [DotDims.rhsIdx, dot_S8192x512_S512x512_S8192x512_1_0_0_1_n_n]; exact c2
    | ⟨1, _⟩ => simp [DotDims.rhsIdx, dot_S8192x512_S512x512_S8192x512_1_0_0_1_n_n]; rfl
  rw [l2, r2, transpose_ix2_apply]

/-! ## Streamed softmax against one-shot softmax -/

/-- For node n and column d, the kernel's streamed numerator over its streamed denominator is the
    reference's softmax of row n times column d of the values, when the logits and the values are
    real. -/
theorem stream_eq_soft (S : FVec Ideal S8192x8192 .f32) (H : FVec Ideal S8192x512 .f32)
    (hS : ∀ i, ∃ r : ℝ, S i = (r : EReal)) (hH : ∀ i, ∃ r : ℝ, H i = (r : EReal)) (n : Fin 8192)
    (d : Fin 512) :
    Ideal.div (runN (sRow S n) (vCol H d) (bmRow S n) 16).2.2
        (runN (sRow S n) (vCol H d) (bmRow S n) 16).2.1
      = soft S H (ix2 n d) := by
  rw [soft_apply, rowSum_apply]
  simp only [expS_apply]
  exact online_softmax_8192 (fun k : Fin 8192 => S (ix2 n k)) (fun k : Fin 8192 => H (ix2 k d))
    (fun k => hS _) (fun k => hH _)

/-- THE SOFTMAX STAGE AND THE OUTPUT LAYER of the two programs are one array, when every logit and
    every value is a real and the kernel's output weights are the reference's transposed. -/
theorem soft_bridge (S : FVec Ideal S8192x8192 .f32) (H : FVec Ideal S8192x512 .f32)
    (LW lw : FVec Ideal S512x512 .f32)
    (hS : ∀ i, ∃ r : ℝ, S i = (r : EReal)) (hH : ∀ i, ∃ r : ℝ, H i = (r : EReal))
    (hLW : ∀ d e : Fin 512, LW (ix2 d e) = lw (ix2 e d)) :
    outG S H LW = tail (soft S H) lw := by
  funext i
  obtain ⟨n, e, rfl⟩ : ∃ (n : Fin 8192) (e : Fin 512), i = ix2 n e := ⟨i 0, i 1, eq_ix2 i⟩
  rw [outG_apply, tail_apply]
  unfold outAt
  refine congrArg elu (Finset.sum_congr rfl fun d _ => ?_)
  rw [stream_eq_soft S H hS hH n d, hLW d e]

end Cert.BridgeSoft

end
-- ==== Proof.SmBlocks.lean ====
/-
  Where the streaming-softmax kernel's blocks sit in their arrays.

  At grid point `t` (row tile `t / 16`, column tile `t % 16`): the logits' block is rows `1024 (t/16) …`, columns
  `512 (t%16) …` of the dense logit matrix; the value array and the output weight are staged whole; the body's own slice of
  the value array is its rows `512 (t%16) …`; the output's block is rows `1024 (t/16) …` of the result, all 512 columns.
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.SmPieces
import Idealize.ShloMosaic.Lib.ValueIdx
set_option maxRecDepth 16384

noncomputable section

namespace Cert.KernelIdeal.Sm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps and the body's slice offset, decided over the grid. -/
theorem idx_facts : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0
    ∧ k1_off1 (grid1.coords t) (0 : Fin 2) = 512 * (t.val % 16) ∧ k1_off1 (grid1.coords t) (1 : Fin 2) = 0 :=
  (by decide +kernel : ∀ t : Fin grid1.N, _)

theorem t_lt (t : Fin cfg1.N) : t.val < 128 := lt_of_lt_of_eq t.isLt (show cfg1.N = 128 from N_1)

/-- The logits' block at a point. -/
theorem blk0_apply (c : Dev nD) (t : Fin cfg1.N) (r : Fin 1024) (j : Fin 512) :
    blk V c 0 t (ix2 r j)
      = V c main_v28 (ix2 (⟨1024 * (t.val / 16) + r.val, by have := t_lt t; omega⟩ : Fin 8192)
          (⟨512 * (t.val % 16) + j.val, by omega⟩ : Fin 8192)) := by
  obtain ⟨e0, e1, -⟩ := idx_facts t
  show V c main_v28 (((cfg1.win 0).blk t).view.emb (ix2 r j)) = V c main_v28 _
  refine congrArg _ (funext fun a => Fin.ext ?_)
  match a with
  | ⟨0, _⟩ => show win1_0.index t (0 : Fin 2) * 1024 + 1 * r.val = 1024 * (t.val / 16) + r.val; omega
  | ⟨1, _⟩ => show win1_0.index t (1 : Fin 2) * 512 + 1 * j.val = 512 * (t.val % 16) + j.val; omega

/-- The value array is staged whole. -/
theorem blk1_apply (c : Dev nD) (t : Fin cfg1.N) (a : Fin 8192) (d : Fin 512) :
    blk V c 1 t (ix2 a d) = V c main_v1_0 (ix2 a d) := by
  obtain ⟨-, -, e2, e3, -⟩ := idx_facts t
  show V c main_v1_0 (((cfg1.win 1).blk t).view.emb (ix2 a d)) = V c main_v1_0 _
  refine congrArg _ (funext fun x => Fin.ext ?_)
  match x with
  | ⟨0, _⟩ => show win1_1.index t (0 : Fin 2) * 8192 + 1 * a.val = a.val; omega
  | ⟨1, _⟩ => show win1_1.index t (1 : Fin 2) * 512 + 1 * d.val = d.val; omega

/-- The output weight is staged whole. -/
theorem blk2_apply (c : Dev nD) (t : Fin cfg1.N) (d : Fin 512) (e : Fin 512) :
    blk V c 2 t (ix2 d e) = V c main_v30 (ix2 d e) := by
  obtain ⟨-, -, -, -, e4, e5, -⟩ := idx_facts t
  show V c main_v30 (((cfg1.win 2).blk t).view.emb (ix2 d e)) = V c main_v30 _
  refine congrArg _ (funext fun x => Fin.ext ?_)
  match x with
  | ⟨0, _⟩ => show win1_2.index t (0 : Fin 2) * 512 + 1 * d.val = d.val; omega
  | ⟨1, _⟩ => show win1_2.index t (1 : Fin 2) * 512 + 1 * e.val = e.val; omega

/-- The body's slice of the value array at a point: its rows `512 (t % 16) + j`. -/
theorem hSlice_apply (t : Fin cfg1.N) (h : Vec F S8192x512 .bf16) (j : Fin 512) (d : Fin 512) :
    hSlice (grid1.coords t) h (ix2 j d) = h (ix2 (⟨512 * (t.val % 16) + j.val, by omega⟩ : Fin 8192) d) := by
  obtain ⟨-, -, -, -, -, -, -, -, e8, e9⟩ := idx_facts t
  unfold hSlice
  show h ((Rect.unit (s := S8192x512) (k1_off1 (grid1.coords t)) S512x512.size (k1_off1_inb (grid1.coords t))).emb (ix2 j d)) = h _
  refine congrArg _ (funext fun x => Fin.ext ?_)
  rw [Rect.emb_apply]
  match x with
  | ⟨0, _⟩ => show k1_off1 (grid1.coords t) (0 : Fin 2) + 1 * j.val = 512 * (t.val % 16) + j.val; omega
  | ⟨1, _⟩ => show k1_off1 (grid1.coords t) (1 : Fin 2) + 1 * d.val = d.val; omega

/-- An index of the result is in point `t`'s output block iff its row is in the row tile `t / 16`. -/
theorem mem_blk3 (t : Fin cfg1.N) (i : S8192x512.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v31).slice (win1_3.rect t)).set ↔ _
  rw [View.set_slice_whole, Rect.mem_set_unit]
  exact Iff.rfl

/-- Every index of the result is in the output block of the LAST-column point of its row tile, which is written back. -/
theorem covered (i : S8192x512.Idx) :
    ∃ t : Fin cfg1.N, (cfg1.win 3).flush t = true ∧ i ∈ ((cfg1.win 3).blk t).view.set := by
  have hi0 : (i 0).val < 8192 := (i 0).isLt
  have hi1 : (i 1).val < 512 := (i 1).isLt
  have hN : cfg1.N = 128 := N_1
  refine ⟨⟨16 * ((i 0).val / 1024) + 15, by omega⟩, (flush1_3 _).mpr (by show (16 * ((i 0).val / 1024) + 15) % 16 = 15; omega), ?_⟩
  rw [mem_blk3]
  obtain ⟨-, -, -, -, -, -, e6, e7, -⟩ := idx_facts ⟨16 * ((i 0).val / 1024) + 15, by omega⟩
  intro a
  match a with
  | ⟨0, _⟩ =>
    show win1_3.index _ (0 : Fin 2) * 1024 ≤ (i 0).val ∧ (i 0).val < win1_3.index _ (0 : Fin 2) * 1024 + 1024
    rw [e6]; show (16 * ((i 0).val / 1024) + 15) / 16 * 1024 ≤ (i 0).val ∧ (i 0).val < (16 * ((i 0).val / 1024) + 15) / 16 * 1024 + 1024
    omega
  | ⟨1, _⟩ =>
    show win1_3.index _ (1 : Fin 2) * 512 ≤ (i 1).val ∧ (i 1).val < win1_3.index _ (1 : Fin 2) * 512 + 512
    rw [e7]; omega

end Cert.KernelIdeal.Sm

end
-- ==== Proof.SmInduct.lean ====
/-
  The streaming-softmax kernel's result array, row by row, at the extended reals.

  Fix a row `n` of the logit matrix `S` and an output column `d` of the value array `H`.  Cut the row in sixteen tiles of
  512 columns.  After the body at column tile `k` of the row's row tile, the three scratches hold at (row, column d) the
  state of the streaming softmax after tiles `0 … k`: a first column starts from (−∞, 0, 0), every other column extends
  what the column before left by one more tile — each with the tile's own row maximum as the step's bound.  At the last
  column the output is the exponential-linear unit of  Σ_d (numerator_d / denominator) · LW[d, e].
-/
import proofs.«121306_j85255100825818_2_alg».proof.Proof.Gen.KernelIdeal.Launch
import proofs.«121306_j85255100825818_2_alg».proof.Proof.Gen.KernelIdeal.Skeleton
import proofs.«121306_j85255100825818_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121306_j85255100825818_2_alg».proof.Proof.SmBlocks
import proofs.«121306_j85255100825818_2_alg».proof.Proof.SmSpec
set_option maxRecDepth 16384

noncomputable section

namespace Cert.KernelIdeal.Sm

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx
open Cert.LibOnlineSoftmax Cert.SoftmaxMath

variable (V : (c : Dev nD) → (b : Ref sig .tc) → Buf (Elt Ideal) ((c : Thread nD τ).loc b))

/-- The array row a block row is. -/
def rowOf (t : Fin cfg1.N) (r : Fin 1024) : Fin 8192 := ⟨1024 * (t.val / 16) + r.val, by have := t_lt t; omega⟩

/-- The scratches' entries at (block row r, column d) after point t. -/
def rowSt (c : Dev nD) (t : Fin cfg1.N) (r : Fin 1024) (d : Fin 512) : EReal × EReal × EReal :=
  ((stAt V c t.val t.isLt).mx (ix2 r 0), (stAt V c t.val t.isLt).dn (ix2 r 0), (stAt V c t.val t.isLt).nm (ix2 r d))

/-- The block's lanes, slice and bound at a point are the row's tile `t % 16`. -/
theorem lanes_eq (c : Dev nD) (t : Fin cfg1.N) (r : Fin 1024) :
    (fun j : Fin 512 => blk V c 0 t (ix2 r j)) = sRow (V c main_v28) (rowOf t r) (t.val % 16) := by
  funext j
  have hk : t.val % 16 < 16 := Nat.mod_lt _ (by decide)
  rw [blk0_apply]; unfold sRow rowOf; rw [dif_pos hk]
theorem slice_eq (c : Dev nD) (t : Fin cfg1.N) (d : Fin 512) :
    (fun j : Fin 512 => hSlice (grid1.coords t) (blk V c 1 t) (ix2 j d)) = vCol (V c main_v1_0) d (t.val % 16) := by
  funext j
  have hk : t.val % 16 < 16 := Nat.mod_lt _ (by decide)
  rw [hSlice_apply, blk1_apply]; unfold vCol; rw [dif_pos hk]

/-- One point's update at a row is one streaming step on the row's tile. -/
theorem upd_row (c : Dev nD) (t : Fin cfg1.N) (r : Fin 1024) (d : Fin 512)
    (mx dn : Vec Ideal S1024x1 .f32) (nm : Vec Ideal S1024x512 .f32) :
    (updM (blk V c 0 t) mx (ix2 r 0), updD (blk V c 0 t) mx dn (ix2 r 0),
        updN (blk V c 0 t) (hSlice (grid1.coords t) (blk V c 1 t)) mx nm (ix2 r d))
      = step (sRow (V c main_v28) (rowOf t r) (t.val % 16)) (vCol (V c main_v1_0) d (t.val % 16))
          (bmRow (V c main_v28) (rowOf t r) (t.val % 16)) (mx (ix2 r 0), dn (ix2 r 0), nm (ix2 r d)) := by
  rw [upd_step, lanes_eq V c t r, slice_eq V c t d]; rfl

/-! ### Each case's record, component by component -/

set_option maxHeartbeats 2000000 in
theorem stFirst_mx (c : Dev nD) (t : Fin cfg1.N) (hA : atFirst (grid1.coords t)) (hB : ¬atLast (grid1.coords t)) :
    (stFirst V c t hA hB).mx = updM (blk V c 0 t) (k1_pay4 (F := Ideal)) := by
  unfold stFirst; dsimp only
  exact first_mx c t (blk V c 0 t) (blk V c 1 t) (blk V c 2 t) hA hB
set_option maxHeartbeats 2000000 in
theorem stFirst_dn (c : Dev nD) (t : Fin cfg1.N) (hA : atFirst (grid1.coords t)) (hB : ¬atLast (grid1.coords t)) :
    (stFirst V c t hA hB).dn = updD (blk V c 0 t) (k1_pay4 (F := Ideal)) (k1_pay5 (F := Ideal)) := by
  unfold stFirst; dsimp only
  exact first_dn c t (blk V c 0 t) (blk V c 1 t) (blk V c 2 t) hA hB
set_option maxHeartbeats 2000000 in
theorem stFirst_nm (c : Dev nD) (t : Fin cfg1.N) (hA : atFirst (grid1.coords t)) (hB : ¬atLast (grid1.coords t)) :
    (stFirst V c t hA hB).nm
      = updN (blk V c 0 t) (hSlice (grid1.coords t) (blk V c 1 t)) (k1_pay4 (F := Ideal)) (k1_pay6 (F := Ideal)) := by
  unfold stFirst; dsimp only
  exact first_nm c t (blk V c 0 t) (blk V c 1 t) (blk V c 2 t) hA hB
set_option maxHeartbeats 2000000 in
theorem stMid_mx (c : Dev nD) (t : Fin cfg1.N) (hA : ¬atFirst (grid1.coords t)) (hB : ¬atLast (grid1.coords t)) (p : St Ideal) :
    (stMid V c t hA hB p).mx = updM (blk V c 0 t) p.mx := by
  unfold stMid; dsimp only
  exact mid_mx c t (blk V c 0 t) (blk V c 1 t) (blk V c 2 t) p.mx p.dn p.nm hA hB
set_option maxHeartbeats 2000000 in
theorem stMid_dn (c : Dev nD) (t : Fin cfg1.N) (hA : ¬atFirst (grid1.coords t)) (hB : ¬atLast (grid1.coords t)) (p : St Ideal) :
    (stMid V c t hA hB p).dn = updD (blk V c 0 t) p.mx p.dn := by
  unfold stMid; dsimp only
  exact mid_dn c t (blk V c 0 t) (blk V c 1 t) (blk V c 2 t) p.mx p.dn p.nm hA hB
set_option maxHeartbeats 2000000 in
theorem stMid_nm (c : Dev nD) (t : Fin cfg1.N) (hA : ¬atFirst (grid1.coords t)) (hB : ¬atLast (grid1.coords t)) (p : St Ideal) :
    (stMid V c t hA hB p).nm = updN (blk V c 0 t) (hSlice (grid1.coords t) (blk V c 1 t)) p.mx p.nm := by
  unfold stMid; dsimp only
  exact mid_nm c t (blk V c 0 t) (blk V c 1 t) (blk V c 2 t) p.mx p.dn p.nm hA hB
set_option maxHeartbeats 2000000 in
theorem stLast_mx (c : Dev nD) (t : Fin cfg1.N) (hA : ¬atFirst (grid1.coords t)) (hB : atLast (grid1.coords t)) (p : St Ideal) :
    (stLast V c t hA hB p).mx = updM (blk V c 0 t) p.mx := by
  unfold stLast; dsimp only
  exact last_mx c t (blk V c 0 t) (blk V c 1 t) (blk V c 2 t) p.mx p.dn p.nm hA hB
set_option maxHeartbeats 2000000 in
theorem stLast_dn (c : Dev nD) (t : Fin cfg1.N) (hA : ¬atFirst (grid1.coords t)) (hB : atLast (grid1.coords t)) (p : St Ideal) :
    (stLast V c t hA hB p).dn = updD (blk V c 0 t) p.mx p.dn := by
  unfold stLast; dsimp only
  exact last_dn c t (blk V c 0 t) (blk V c 1 t) (blk V c 2 t) p.mx p.dn p.nm hA hB
set_option maxHeartbeats 2000000 in
theorem stLast_nm (c : Dev nD) (t : Fin cfg1.N) (hA : ¬atFirst (grid1.coords t)) (hB : atLast (grid1.coords t)) (p : St Ideal) :
    (stLast V c t hA hB p).nm = updN (blk V c 0 t) (hSlice (grid1.coords t) (blk V c 1 t)) p.mx p.nm := by
  unfold stLast; dsimp only
  exact last_nm c t (blk V c 0 t) (blk V c 1 t) (blk V c 2 t) p.mx p.dn p.nm hA hB
set_option maxHeartbeats 2000000 in
theorem stLast_out (c : Dev nD) (t : Fin cfg1.N) (hA : ¬atFirst (grid1.coords t)) (hB : atLast (grid1.coords t)) (p : St Ideal) :
    (stLast V c t hA hB p).out
      = k1_pay3 (updN (blk V c 0 t) (hSlice (grid1.coords t) (blk V c 1 t)) p.mx p.nm) (updD (blk V c 0 t) p.mx p.dn) (blk V c 2 t) := by
  unfold stLast; dsimp only
  exact last_out c t (blk V c 0 t) (blk V c 1 t) (blk V c 2 t) p.mx p.dn p.nm hA hB

/-- A first-column point: the state after the row's first tile. -/
theorem row_first (c : Dev nD) (t : Fin cfg1.N) (h0 : t.val % 16 = 0) (r : Fin 1024) (d : Fin 512) :
    rowSt V c t r d = runN (sRow (V c main_v28) (rowOf t r)) (vCol (V c main_v1_0) d) (bmRow (V c main_v28) (rowOf t r)) 1 := by
  have h1 : ¬t.val % 16 = 15 := by omega
  unfold rowSt
  rw [stAt_first V c t h0 h1, stFirst_mx, stFirst_dn, stFirst_nm, upd_row V c t r d, pay4_apply, pay5_apply, pay6_apply, h0,
    runN_succ, runN_zero]

/-- Any other point: one more tile on top of what the point before left. -/
theorem row_next (c : Dev nD) (t : Fin cfg1.N) (h0 : ¬t.val % 16 = 0) (r : Fin 1024) (d : Fin 512)
    (p : St Ideal) (hp : p = stAt V c (t.val - 1) (Nat.lt_of_le_of_lt (Nat.sub_le _ _) t.isLt))
    (ih : (p.mx (ix2 r 0), p.dn (ix2 r 0), p.nm (ix2 r d))
        = runN (sRow (V c main_v28) (rowOf t r)) (vCol (V c main_v1_0) d) (bmRow (V c main_v28) (rowOf t r)) (t.val % 16)) :
    rowSt V c t r d
      = runN (sRow (V c main_v28) (rowOf t r)) (vCol (V c main_v1_0) d) (bmRow (V c main_v28) (rowOf t r)) (t.val % 16 + 1) := by
  unfold rowSt
  by_cases h1 : t.val % 16 = 15
  · rw [stAt_last V c t h0 h1, ← hp, stLast_mx, stLast_dn, stLast_nm, upd_row V c t r d, ih, runN_succ]
  · rw [stAt_mid V c t h0 h1, ← hp, stMid_mx, stMid_dn, stMid_nm, upd_row V c t r d, ih, runN_succ]

/-- After point `t` a row's scratch entries are the streaming state after tiles `0 … t % 16` of the row. -/
theorem row_state (c : Dev nD) : ∀ (n : ℕ) (hn : n < cfg1.N) (r : Fin 1024) (d : Fin 512),
    rowSt V c ⟨n, hn⟩ r d
      = runN (sRow (V c main_v28) (rowOf ⟨n, hn⟩ r)) (vCol (V c main_v1_0) d) (bmRow (V c main_v28) (rowOf ⟨n, hn⟩ r)) (n % 16 + 1)
  | 0, hn, r, d => row_first V c ⟨0, hn⟩ (Nat.zero_mod _) r d
  | n + 1, hn, r, d => by
    by_cases h0 : (n + 1) % 16 = 0
    · have := row_first V c ⟨n + 1, hn⟩ h0 r d
      rw [this]; show _ = runN _ _ _ ((n + 1) % 16 + 1); rw [h0]
    · have ih := row_state c n (Nat.lt_of_succ_lt hn) r d
      have hrow : rowOf ⟨n, Nat.lt_of_succ_lt hn⟩ r = rowOf ⟨n + 1, hn⟩ r := by
        unfold rowOf; apply Fin.ext; show 1024 * (n / 16) + r.val = 1024 * ((n + 1) / 16) + r.val; omega
      have hk : n % 16 + 1 = (n + 1) % 16 := by omega
      rw [hrow, hk] at ih
      exact row_next V c ⟨n + 1, hn⟩ h0 r d _ rfl ih

/-- A last-column point's output block, entry by entry. -/
theorem out_last (c : Dev nD) (t : Fin cfg1.N) (h1 : t.val % 16 = 15) (r : Fin 1024) (e : Fin 512) :
    (stAt V c t.val t.isLt).out (ix2 r e) = outAt (V c main_v28) (V c main_v1_0) (V c main_v30) (rowOf t r) e := by
  have h0 : ¬t.val % 16 = 0 := by omega
  have hst : ∀ d : Fin 512, rowSt V c t r d
      = runN (sRow (V c main_v28) (rowOf t r)) (vCol (V c main_v1_0) d) (bmRow (V c main_v28) (rowOf t r)) 16 := fun d => by
    have := row_state V c t.val t.isLt r d
    rw [h1] at this; exact this
  unfold rowSt at hst
  rw [stAt_last V c t h0 h1] at hst ⊢
  rw [stLast_dn, stLast_nm] at hst
  rw [stLast_out, pay3_apply]
  unfold outAt
  refine congrArg elu (Finset.sum_congr rfl fun d _ => ?_)
  have hd := hst d
  rw [Prod.ext_iff, Prod.ext_iff] at hd
  dsimp only at hd
  obtain ⟨-, e21, e22⟩ := hd
  rw [blk2_apply, e21, e22]

/-- WHAT A LAST-COLUMN POINT WRITES BACK is its block of the result array. -/
theorem flushed_eq (c : Dev nD) (t : Fin cfg1.N) (hf : (cfg1.win 3).flush t = true) :
    (dat V c).flushed 3 t = ((cfg1.win 3).blk t).view.read (Elt Ideal) (outG (V c main_v28) (V c main_v1_0) (V c main_v30)) := by
  have h1 : t.val % 16 = 15 := (flush1_3 t).mp hf
  obtain ⟨-, -, -, -, -, -, e6, e7, -⟩ := idx_facts t
  show (cfg1.win 3).cut (grid1.coords t) ((dat V c).after 3 t) = _
  rw [after_3]
  funext y
  obtain ⟨r, e, rfl⟩ : ∃ (r : Fin 1024) (e : Fin 512), y = ix2 r e := ⟨y 0, y 1, eq_ix2 y⟩
  show (stAt V c t.val t.isLt).out (ix2 r e) = outG (V c main_v28) (V c main_v1_0) (V c main_v30) (((cfg1.win 3).blk t).view.emb (ix2 r e))
  rw [out_last V c t h1 r e]
  unfold outG
  have hemb : ((cfg1.win 3).blk t).view.emb (ix2 r e) = ix2 (rowOf t r) e := by
    funext a; apply Fin.ext
    match a with
    | ⟨0, _⟩ => show win1_3.index t (0 : Fin 2) * 1024 + 1 * r.val = 1024 * (t.val / 16) + r.val; omega
    | ⟨1, _⟩ => show win1_3.index t (1 : Fin 2) * 512 + 1 * e.val = e.val; omega
  rw [hemb]

/-- THE RESULT ARRAY after the region. -/
theorem final (c : Dev nD) : (dat V c).arrAt 3 cfg1.N = outG (V c main_v28) (V c main_v1_0) (V c main_v30) :=
  (dat V c).arrAt_eq_of_cover 3 _ (fun t hf => flushed_eq V c t hf) covered

end Cert.KernelIdeal.Sm

end
-- ==== Proof.LogitsReal.lean ====
/-
  The dense logit matrix has real entries when the per-node logits do: each entry is 0 plus the sum of the gathered
  per-node logits of the edges that land on it, and a gathered value is an entry of the per-node logits.
-/
import proofs.«121306_j85255100825818_2_alg».proof.Proof.RefDefs
import proofs.«121306_j85255100825818_2_alg».proof.Proof.MathFacts
import Idealize.ShloMosaic.PureOps.Ideal
import Idealize.ShloMosaic.PureOps.Ideal.Laws

noncomputable section

namespace Cert.ReferenceIdeal.RefRun

open Cert.ReferenceIdeal Idealize.ShloMosaic Cert.SoftmaxMath

variable [Facts₀]

theorem logits_real (e : IVec S2x262144 32) (alpha : FVec Ideal S8192 .f32)
    (ha : ∀ i, ∃ r : ℝ, alpha i = (r : EReal)) (i : S8192x8192.Idx) : ∃ r : ℝ, logits e alpha i = (r : EReal) := by
  unfold logits
  show ∃ r : ℝ, Ideal.hostScatterAdd _ _ _ _ i = (r : EReal)
  unfold Ideal.hostScatterAdd
  refine real_add ⟨0, ?_⟩ (real_sum _ _ fun j _ => ha _)
  show Ideal.ofBits .f32 0x00000000#32 = ((0 : ℝ) : EReal)
  rw [Ideal.ofBits_zero_f32]; rfl

end Cert.ReferenceIdeal.RefRun

end
-- ==== Proof.Finite.lean ====
/-
  The precondition read back: every entry of the four float inputs is a real number.

  The printed predicate is the conjunction of four `all (|v| < +∞)`; an extended real whose absolute value `max v (−v)`
  is below +∞ is neither +∞ nor −∞.
-/
import proofs.«121306_j85255100825818_2_alg».proof.Pre_finite_inputs
import proofs.«121306_j85255100825818_2_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value is below +∞ (the binary32 pattern 0x7F800000) is a real. -/
theorem real_of_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the features, the weight, the attention row and the output weight is a real. -/
theorem decode [Facts] (x : FVec Ideal S8192x256 .f32) (e : IVec S2x262144 32) (W : FVec Ideal S512x256 .f32)
    (a : FVec Ideal S1x512 .f32) (lw : FVec Ideal S512x512 .f32) (h : fn (F := Ideal) x e W a lw = fun _ => 1#1) :
    (∀ i, ∃ r : ℝ, x i = (r : EReal)) ∧ (∀ i, ∃ r : ℝ, W i = (r : EReal)) ∧ (∀ i, ∃ r : ℝ, a i = (r : EReal))
      ∧ (∀ i, ∃ r : ℝ, lw i = (r : EReal)) := by
  have h0 := congrFun h ValueIdx.ix0
  dsimp only [fn, fn_part1] at h0
  obtain ⟨h123, h4⟩ := IntOp.andi_eq_one.mp h0
  obtain ⟨h12, h3⟩ := IntOp.andi_eq_one.mp h123
  obtain ⟨h1, h2⟩ := IntOp.andi_eq_one.mp h12
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i), fun i => real_of_lt _ (Host.reduce_andi_all _ _ _ _ _ h4 i)⟩

end Cert.Finite

end
-- ==== Proof.Bridge.lean ====
/-
  The kernel's result is the reference's, under the precondition.

  After the run the result buffer holds, row by row, the exponential-linear unit of (streaming-softmax quotient) · LWᵀ
  over the dense logits `S`, the projected features `H` and the transposed output weight as the second kernel finds them.
  Those three are: `H = x · Wᵀ` (both programs: one sum of products), the dense logits built by one and the same chain of
  host operations from the per-node logits, and the per-node logits themselves, which the two programs group
  differently — (Σ_j h_j a_j) · (Σ_j h_j) against Σ_j h_j · (Σ_k h_k a_k) — equal because every entry is a real number.
  For real logits and values the streaming quotient is the one-shot softmax average, so the two results agree.
-/
import proofs.«121306_j85255100825818_2_alg».proof.Proof.KRun
import proofs.«121306_j85255100825818_2_alg».proof.Proof.KEntry
import proofs.«121306_j85255100825818_2_alg».proof.Proof.BridgeProj
import proofs.«121306_j85255100825818_2_alg».proof.Proof.BridgeSoft
import proofs.«121306_j85255100825818_2_alg».proof.Proof.SmInduct
import proofs.«121306_j85255100825818_2_alg».proof.Proof.LogitsReal
import proofs.«121306_j85255100825818_2_alg».proof.Proof.Finite
import proofs.«121306_j85255100825818_2_alg».proof.Proof.RefDefs
import proofs.«121306_j85255100825818_2_alg».proof.Proof.Gen.ReferenceIdeal
import proofs.«121306_j85255100825818_2_alg».proof.Proof.Gen.KernelIdeal
import proofs.«121306_j85255100825818_2_alg».proof.Proof.Gen.Pre_finite_inputs

noncomputable section

namespace Cert.Bridge

open Idealize.ShloMosaic Idealize.ShloMosaic.TcCoe Idealize.SL.Sem
open Cert.KernelIdeal

/-- Under the precondition the result buffer at the end of the kernel program's run holds the reference's result term
    of the five argument arrays. -/
theorem kernel_value (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Cert.KernelIdeal.Run.W4 (F := Ideal) m ρ c (Proc.devRef .tc main_v31)
      = Cert.ReferenceIdeal.RefRun.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨hx, hW, ha, hlw⟩ := Cert.Finite.decode _ _ _ _ _ hpre
  have h1 : Cert.KernelIdeal.Run.W4 (F := Ideal) m ρ c (Proc.devRef .tc main_v31)
      = Cert.KernelIdeal.Sm.outG (Cert.KernelIdeal.Run.V3 m ρ c main_v28) (Cert.KernelIdeal.Run.V3 m ρ c main_v1_0)
          (Cert.KernelIdeal.Run.V3 m ρ c main_v30) :=
    (Cert.KernelIdeal.Run.W4_arr m ρ c 3).trans (Cert.KernelIdeal.Sm.final (Cert.KernelIdeal.Run.V3 m ρ) c)
  have e1 := Cert.KernelIdeal.KEntry.entry_logits m ρ c
  have e2 := Cert.KernelIdeal.KEntry.entry_h m ρ c
  rw [h1, e1, e2, Cert.BridgeProj.logitsK_eq_logits, Cert.BridgeProj.alpha_eq_alphaR _ _ _ hx hW ha, Cert.BridgeProj.hFun_eq_hR]
  exact Cert.BridgeSoft.soft_bridge _ _ _ (m ((c.tc : Thread nD τ).loc main_arg4))
    (fun i => Cert.ReferenceIdeal.RefRun.logits_real _ _ (Cert.BridgeProj.real_alphaR _ _ _ hx hW ha) i)
    (Cert.BridgeProj.real_hR _ _ hx hW) (Cert.KernelIdeal.KEntry.entry_lw_apply m ρ c)

end Cert.Bridge

end
-- ==== Proof.lean ====
/-
  A graph-attention layer, fused: the kernel program against its plain reference, on the extended reals.

  Both programs compute, for node features `x`, an edge list, a projection `W`, an attention row `a` and an output weight
  `lw`:  h = x Wᵀ;  a per-node logit  alpha = leaky (Σ_j h_j · (h · aᵀ));  a dense logit matrix `S` with `alpha[row]`
  scatter-added at every edge (row, col);  out = elu ((softmax_rows S) · h · lwᵀ).
  The kernel program does the projection and the per-node logit in one tiled kernel (grouping the logit as
  (Σ_j h_j a_j)(Σ_j h_j)), builds `S` by the same host operations, and does softmax · h · lwᵀ and the unit in a second
  kernel that streams over sixteen column tiles of `S` with a running maximum, denominator and numerator.

  The claims: each of the three programs runs to the end, faults nowhere and leaves its arguments unchanged; the
  idealization rewrote nothing; and at the extended reals, for finite inputs, the two results agree entry by entry —
  the regrouped logit by distributivity over reals, the streaming quotient by the telescoping of its rescalings.
-/
import proofs.«121306_j85255100825818_2_alg».proof.Defs
import proofs.«121306_j85255100825818_2_alg».proof.Proof.Gen.Kernel
import proofs.«121306_j85255100825818_2_alg».proof.Proof.Gen.KernelIdeal
import proofs.«121306_j85255100825818_2_alg».proof.Proof.Gen.ReferenceIdeal
import proofs.«121306_j85255100825818_2_alg».proof.Proof.Gen.Pre_finite_inputs
import proofs.«121306_j85255100825818_2_alg».proof.Proof.KRun
import proofs.«121306_j85255100825818_2_alg».proof.Proof.BKRun
import proofs.«121306_j85255100825818_2_alg».proof.Proof.RefRun
import proofs.«121306_j85255100825818_2_alg».proof.Proof.Bridge
import Idealize.ShloMosaic.Adequacy
import Idealize.ShloMosaic.Init

noncomputable section

namespace Cert.Proof

open Idealize.ShloMosaic Idealize.SL.Sem

/-- The word-level kernel program runs, faults nowhere and leaves its arguments unchanged. -/
theorem frame_k : Cert.frame_Kernel (hKernel := Cert.Kernel.Gen.facts) (hPre_finite_inputs := Cert.Pre_finite_inputs.Gen.facts) :=
  fun m ρ _ => Cert.Kernel.Run.frame m ρ

/-- So does its reading at the extended reals. -/
theorem frame_ki : Cert.frame_KernelIdeal (hKernelIdeal := Cert.KernelIdeal.Gen.facts)
    (hPre_finite_inputs := Cert.Pre_finite_inputs.Gen.facts) :=
  fun m ρ _ => Cert.KernelIdeal.Run.frame m ρ

/-- And the reference: its run with the result dropped. -/
theorem frame_ri : Cert.frame_ReferenceIdeal (hReferenceIdeal := Cert.ReferenceIdeal.Gen.facts)
    (hPre_finite_inputs := Cert.Pre_finite_inputs.Gen.facts) :=
  fun m ρ _ => (θ_run _ _ _).mono (fun _ h c => (h c).2) (Cert.ReferenceIdeal.RefRun.run m ρ)

/-- The idealization rewrote no operation. -/
theorem preserves : Cert.preserves_Kernel_KernelIdeal := trivial

/-- From memories that agree on the arguments, both programs end with the same result: the reference's result term of
    the arguments — the kernel program's by the bridge, the reference's by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefRun.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run _ _ _).mono (fun r h c =>
      ⟨(h c _ (Cert.KernelIdeal.Run.mem_uc Cert.KernelIdeal.main_v31 (by decide))).trans (Cert.Bridge.kernel_value m ρ c (hpre c)),
       (h c _ (Cert.KernelIdeal.Run.mem_uc Cert.KernelIdeal.main_arg0 (by decide))).trans (Cert.KernelIdeal.Run.W4_main_arg0 m ρ c),
       (h c _ (Cert.KernelIdeal.Run.mem_uc Cert.KernelIdeal.main_arg1 (by decide))).trans (Cert.KernelIdeal.Run.W4_main_arg1 m ρ c),
       (h c _ (Cert.KernelIdeal.Run.mem_uc Cert.KernelIdeal.main_arg2 (by decide))).trans (Cert.KernelIdeal.Run.W4_main_arg2 m ρ c),
       (h c _ (Cert.KernelIdeal.Run.mem_uc Cert.KernelIdeal.main_arg3 (by decide))).trans (Cert.KernelIdeal.Run.W4_main_arg3 m ρ c),
       (h c _ (Cert.KernelIdeal.Run.mem_uc Cert.KernelIdeal.main_arg4 (by decide))).trans (Cert.KernelIdeal.Run.W4_main_arg4 m ρ c)⟩)
      (Cert.KernelIdeal.Run.run_all m ρ)
  · refine (θ_run _ _ _).mono (fun r h c => ⟨(h c).1.trans ?_, (h c).2⟩) (Cert.ReferenceIdeal.RefRun.run m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
